-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S512x256 : Shape := ⟨2, ![512, 256]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S50000x256 .f32) (main_arg1 : FVec F S50000x256 .f32) (main_arg2 : FVec F S512x256 .f32) (main_arg3 : FVec F S512x256 .f32) (main_arg4 : IVec S50000 32) (main_arg5 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S50000x256 : Shape := ⟨2, ![50000, 256]⟩
abbrev S512x256 : Shape := ⟨2, ![512, 256]⟩
abbrev S50000 : Shape := ⟨1, ![50000]⟩
abbrev S_ : Shape := ⟨0, ![]⟩
abbrev S512 : Shape := ⟨1, ![512]⟩
abbrev S512x1 : Shape := ⟨2, ![512, 1]⟩
abbrev S50000x1 : Shape := ⟨2, ![50000, 1]⟩
abbrev S50176x1 : Shape := ⟨2, ![50176, 1]⟩
abbrev S2x8x128 : Shape := ⟨3, ![2, 8, 128]⟩
abbrev S1x8x128 : Shape := ⟨3, ![1, 8, 128]⟩
abbrev S1x1 : Shape := ⟨2, ![1, 1]⟩
abbrev S256x512 : Shape := ⟨2, ![256, 512]⟩
abbrev S512x512 : Shape := ⟨2, ![512, 512]⟩
abbrev S1 : Shape := ⟨1, ![1]⟩
abbrev S1x1x1 : Shape := ⟨3, ![1, 1, 1]⟩

abbrev nBuf : Space → Nat
  | .hbm => 53
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S512x256, .f32⟩
  | .hbm, ⟨3, _⟩ => ⟨S512x256, .f32⟩
  | .hbm, ⟨4, _⟩ => ⟨S50000, .i32⟩
  | .hbm, ⟨5, _⟩ => ⟨S50000, .i32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x256, .f32⟩
  | .hbm, ⟨16, _⟩ => ⟨S512x256, .f32⟩
  | .hbm, ⟨17, _⟩ => ⟨S512x256, .bf16⟩
  | .hbm, ⟨18, _⟩ => ⟨S512x256, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x256, .f32⟩
  | .hbm, ⟨28, _⟩ => ⟨S512x256, .f32⟩
  | .hbm, ⟨29, _⟩ => ⟨S512x256, .bf16⟩
  | .hbm, ⟨30, _⟩ => ⟨S50000x1, .i32⟩
  | .hbm, ⟨31, _⟩ => ⟨S50000x1, .i32⟩
  | .hbm, ⟨32, _⟩ => ⟨S_, .i32⟩
  | .hbm, ⟨33, _⟩ => ⟨S_, .i32⟩
  | .hbm, ⟨34, _⟩ => ⟨S50176x1, .i32⟩
  | .hbm, ⟨35, _⟩ => ⟨S_, .i32⟩
  | .hbm, ⟨36, _⟩ => ⟨S_, .i32⟩
  | .hbm, ⟨37, _⟩ => ⟨S50176x1, .i32⟩
  | .hbm, ⟨38, _⟩ => ⟨S2x8x128, .f32⟩
  | .hbm, ⟨39, _⟩ => ⟨S2x8x128, .f32⟩
  | .hbm, ⟨40, _⟩ => ⟨S1x1x1, .f32⟩
  | .hbm, ⟨41, _⟩ => ⟨S_, .f32⟩
  | .hbm, ⟨42, _⟩ => ⟨S1x1x1, .f32⟩
  | .hbm, ⟨43, _⟩ => ⟨S_, .f32⟩
  | .hbm, ⟨44, _⟩ => ⟨S_, .f32⟩
  | .hbm, ⟨45, _⟩ => ⟨S1x1x1, .f32⟩
  | .hbm, ⟨46, _⟩ => ⟨S_, .f32⟩
  | .hbm, ⟨47, _⟩ => ⟨S1x1x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .bf16⟩
  | .local _ .vmem, ⟨5, _⟩ => ⟨S512x256, .bf16⟩
  | .local _ .vmem, ⟨6, _⟩ => ⟨S512x1, .i32⟩
  | .local _ .vmem, ⟨7, _⟩ => ⟨S512x1, .i32⟩
  | .local _ .vmem, ⟨8, _⟩ => ⟨S512x1, .i32⟩
  | .local _ .vmem, ⟨9, _⟩ => ⟨S512x1, .i32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x1, .f32⟩
  | .local _ .vmem, ⟨15, _⟩ => ⟨S1x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call2_v0 : Ref sig .tc := ⟨.hbm, 18, rfl⟩
abbrev main_call2_cst : Ref sig .tc := ⟨.hbm, 19, rfl⟩
abbrev main_call2_v1 : Ref sig .tc := ⟨.hbm, 20, rfl⟩
abbrev main_call2_v2 : Ref sig .tc := ⟨.hbm, 21, rfl⟩
abbrev main_v5 : Ref sig .tc := ⟨.hbm, 22, rfl⟩
abbrev main_cst_0 : Ref sig .tc := ⟨.hbm, 23, rfl⟩
abbrev main_call3_v0 : Ref sig .tc := ⟨.hbm, 24, rfl⟩
abbrev main_call3_v1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_call4_v0 : Ref sig .tc := ⟨.hbm, 33, rfl⟩
abbrev main_v12 : Ref sig .tc := ⟨.hbm, 34, rfl⟩
abbrev main_c_1 : Ref sig .tc := ⟨.hbm, 35, rfl⟩
abbrev main_call5_v0 : Ref sig .tc := ⟨.hbm, 36, rfl⟩
abbrev main_v13 : Ref sig .tc := ⟨.hbm, 37, rfl⟩
abbrev main_v14_0 : Ref sig .tc := ⟨.hbm, 38, rfl⟩
abbrev main_v14_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v162 : BitVec 1 := Scalar.cmpi .eq arg1 c48_i32
  let v163 : BitVec 32 := Scalar.extui v162
  let c0_i32_55 : BitVec 32 := 0#32
  let v164 : BitVec 1 := Scalar.cmpi .ne v163 c0_i32_55
  v164

def cc0_transform_0 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  bitsLt_bf16_f32 : FTy.bits .bf16 < FTy.bits .f32
  shapeCasts_S50000_S50000x1 : S50000.ShapeCasts S50000x1
  pads_S50000x1_S50176x1_01760_000 : S50000x1.Pads (![0, 0] : Fin 2 → Nat) ![176, 0] ![0, 0] S50176x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  shapeCasts_S512x256_S512x256 : S512x256.ShapeCasts S512x256
  transposes_S512x256_p1_0_S256x512 : S512x256.Transposes [1, 0] S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d1_w32 : S512x512.Iotas .tc 32 [1]
  broadcasts_S512x1_S512x512 : S512x1.Broadcasts S512x512
  reduces_S512x512_S512 : S512x512.Reduces [1] S512
  iota_S512x1_d0_w32 : S512x1.Iotas .tc 32 [0]
  reduces_S512x1_S1 : S512x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x256.size a < S50000x256.size a
  hwx0_0 : ∀ i : grid0.Coords, EltTy.bits .f32 = 32 ∨ (Rect.unit (s := S50000x256) (fun a => cc0_transform_0 i a * S512x256.size a) (fun a => (Pipeline.Clip.of (cc0_transform_0 i a) (S512x256.size a) (S50000x256.size a)).extent (S512x256.size a)) fun a => Pipeline.Clip.inb (Pipeline.Clip.ok_of (hstart0_0 i a))).WholeWords (EltTy.packing .f32)
  hwxs0_0 : ∀ i : grid0.Coords, EltTy.bits .f32 = 32 ∨ (Rect.unit (s := S512x256) (fun _ => 0) (fun a => (Pipeline.Clip.of (cc0_transform_0 i a) (S512x256.size a) (S50000x256.size a)).extent (S512x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x256.size a < S50000x256.size a
  hwx0_1 : ∀ i : grid0.Coords, EltTy.bits .f32 = 32 ∨ (Rect.unit (s := S50000x256) (fun a => cc0_transform_1 i a * S512x256.size a) (fun a => (Pipeline.Clip.of (cc0_transform_1 i a) (S512x256.size a) (S50000x256.size a)).extent (S512x256.size a)) fun a => Pipeline.Clip.inb (Pipeline.Clip.ok_of (hstart0_1 i a))).WholeWords (EltTy.packing .f32)
  hwxs0_1 : ∀ i : grid0.Coords, EltTy.bits .f32 = 32 ∨ (Rect.unit (s := S512x256) (fun _ => 0) (fun a => (Pipeline.Clip.of (cc0_transform_1 i a) (S512x256.size a) (S50000x256.size a)).extent (S512x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S50176x1.size a
  hwx0_4 : ∀ i : grid0.Coords, EltTy.bits .i32 = 32 ∨ (Rect.block (s := S50176x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S50176x1.size a
  hwx0_5 : ∀ i : grid0.Coords, EltTy.bits .i32 = 32 ∨ (Rect.block (s := S50176x1) S512x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S2x8x128.size a
  hwx0_7 : ∀ i : grid0.Coords, EltTy.bits .f32 = 32 ∨ (Rect.block (s := S2x8x128) S1x8x128.size (cc0_transform_7 i) (hinb0_7 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpecClip (Memref.whole main_arg0) S512x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S512x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v4) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S50000x256 : Shape := ⟨2, ![50000, 256]⟩
abbrev S512x256 : Shape := ⟨2, ![512, 256]⟩
abbrev S50000 : Shape := ⟨1, ![50000]⟩
abbrev S50000x1 : Shape := ⟨2, ![50000, 1]⟩
abbrev S1x512 : Shape := ⟨2, ![1, 512]⟩
abbrev S50000x512 : Shape := ⟨2, ![50000, 512]⟩
abbrev S_ : Shape := ⟨0, ![]⟩
abbrev S512 : Shape := ⟨1, ![512]⟩
abbrev S512x1 : Shape := ⟨2, ![512, 1]⟩
abbrev S256x512 : Shape := ⟨2, ![256, 512]⟩

abbrev nBuf : Space → Nat
  | .hbm => 165
  | .vmem => 0
  | .smem => 0
  | _ => 0

abbrev hbmTy0_0 (i : Nat) : BufTy := match i % 128 with
  | 0 => ⟨S50000x256, .f32⟩
  | 1 => ⟨S50000x256, .f32⟩
  | 2 => ⟨S512x256, .f32⟩
  | 3 => ⟨S512x256, .f32⟩
  | 4 => ⟨S50000, .i32⟩
  | 5 => ⟨S50000, .i32⟩
  | 6 => ⟨S50000x1, .i32⟩
  | 7 => ⟨S1x512, .i32⟩
  | 8 => ⟨S50000x512, .i32⟩
  | 9 => ⟨S50000x512, .i32⟩
  | 10 => ⟨S50000x512, .i1⟩
  | 11 => ⟨S50000x512, .f32⟩
  | 12 => ⟨S50000x1, .i32⟩
  | 13 => ⟨S1x512, .i32⟩
  | 14 => ⟨S50000x512, .i32⟩
  | 15 => ⟨S50000x512, .i32⟩
  | 16 => ⟨S50000x512, .i1⟩
  | 17 => ⟨S50000x512, .f32⟩
  | 18 => ⟨S50000x256, .f32⟩
  | 19 => ⟨S_, .f32⟩
  | 20 => ⟨S50000, .f32⟩
  | 21 => ⟨S50000x1, .f32⟩
  | 22 => ⟨S50000x1, .f32⟩
  | 23 => ⟨S_, .f32⟩
  | 24 => ⟨S_, .f32⟩
  | 25 => ⟨S50000x1, .f32⟩
  | 26 => ⟨S50000x1, .f32⟩
  | 27 => ⟨S50000x256, .f32⟩
  | 28 => ⟨S50000x256, .f32⟩
  | 29 => ⟨S512x256, .f32⟩
  | 30 => ⟨S_, .f32⟩
  | 31 => ⟨S512, .f32⟩
  | 32 => ⟨S512x1, .f32⟩
  | 33 => ⟨S512x1, .f32⟩
  | 34 => ⟨S_, .f32⟩
  | 35 => ⟨S_, .f32⟩
  | 36 => ⟨S512x1, .f32⟩
  | 37 => ⟨S512x1, .f32⟩
  | 38 => ⟨S512x256, .f32⟩
  | 39 => ⟨S512x256, .f32⟩
  | 40 => ⟨S50000x256, .f32⟩
  | 41 => ⟨S_, .f32⟩
  | 42 => ⟨S50000, .f32⟩
  | 43 => ⟨S50000x1, .f32⟩
  | 44 => ⟨S50000x1, .f32⟩
  | 45 => ⟨S_, .f32⟩
  | 46 => ⟨S_, .f32⟩
  | 47 => ⟨S50000x1, .f32⟩
  | 48 => ⟨S50000x1, .f32⟩
  | 49 => ⟨S50000x256, .f32⟩
  | 50 => ⟨S50000x256, .f32⟩
  | 51 => ⟨S512x256, .f32⟩
  | 52 => ⟨S_, .f32⟩
  | 53 => ⟨S512, .f32⟩
  | 54 => ⟨S512x1, .f32⟩
  | 55 => ⟨S512x1, .f32⟩
  | 56 => ⟨S_, .f32⟩
  | 57 => ⟨S_, .f32⟩
  | 58 => ⟨S512x1, .f32⟩
  | 59 => ⟨S512x1, .f32⟩
  | 60 => ⟨S512x256, .f32⟩
  | 61 => ⟨S512x256, .f32⟩
  | 62 => ⟨S256x512, .f32⟩
  | 63 => ⟨S50000x512, .f32⟩
  | 64 => ⟨S50000x512, .f32⟩
  | 65 => ⟨S256x512, .f32⟩
  | 66 => ⟨S50000x512, .f32⟩
  | 67 => ⟨S50000x512, .f32⟩
  | 68 => ⟨S256x512, .f32⟩
  | 69 => ⟨S50000x512, .f32⟩
  | 70 => ⟨S50000x512, .f32⟩
  | 71 => ⟨S256x512, .f32⟩
  | 72 => ⟨S50000x512, .f32⟩
  | 73 => ⟨S50000x512, .f32⟩
  | 74 => ⟨S50000x512, .f32⟩
  | 75 => ⟨S_, .f32⟩
  | 76 => ⟨S50000x512, .f32⟩
  | 77 => ⟨S50000x512, .f32⟩
  | 78 => ⟨S50000x512, .f32⟩
  | 79 => ⟨S50000x512, .f32⟩
  | 80 => ⟨S50000x512, .i1⟩
  | 81 => ⟨S50000x512, .f32⟩
  | 82 => ⟨S50000x512, .f32⟩
  | 83 => ⟨S50000x512, .f32⟩
  | 84 => ⟨S50000x512, .f32⟩
  | 85 => ⟨S50000x512, .f32⟩
  | 86 => ⟨S50000x512, .f32⟩
  | 87 => ⟨S50000x512, .f32⟩
  | 88 => ⟨S50000x512, .f32⟩
  | 89 => ⟨S_, .f32⟩
  | 90 => ⟨S50000x512, .f32⟩
  | 91 => ⟨S50000x512, .f32⟩
  | 92 => ⟨S_, .f32⟩
  | 93 => ⟨S50000, .f32⟩
  | 94 => ⟨S50000x512, .f32⟩
  | 95 => ⟨S_, .f32⟩
  | 96 => ⟨S50000x512, .f32⟩
  | 97 => ⟨S50000x512, .f32⟩
  | 98 => ⟨S50000x512, .f32⟩
  | 99 => ⟨S50000x512, .f32⟩
  | 100 => ⟨S50000x512, .i1⟩
  | 101 => ⟨S50000x512, .f32⟩
  | 102 => ⟨S50000x512, .f32⟩
  | 103 => ⟨S50000x512, .f32⟩
  | 104 => ⟨S50000x512, .f32⟩
  | 105 => ⟨S50000x512, .f32⟩
  | 106 => ⟨S50000x512, .f32⟩
  | 107 => ⟨S50000x512, .f32⟩
  | 108 => ⟨S50000x512, .f32⟩
  | 109 => ⟨S_, .f32⟩
  | 110 => ⟨S50000x512, .f32⟩
  | 111 => ⟨S50000x512, .f32⟩
  | 112 => ⟨S_, .f32⟩
  | 113 => ⟨S50000, .f32⟩
  | 114 => ⟨S50000, .f32⟩
  | 115 => ⟨S50000x512, .f32⟩
  | 116 => ⟨S_, .f32⟩
  | 117 => ⟨S50000x512, .f32⟩
  | 118 => ⟨S50000x512, .f32⟩
  | 119 => ⟨S50000x512, .f32⟩
  | 120 => ⟨S50000x512, .f32⟩
  | 121 => ⟨S50000x512, .i1⟩
  | 122 => ⟨S50000x512, .f32⟩
  | 123 => ⟨S50000x512, .f32⟩
  | 124 => ⟨S50000x512, .f32⟩
  | 125 => ⟨S50000x512, .f32⟩
  | 126 => ⟨S50000x512, .f32⟩
  | 127 => ⟨S50000x512, .f32⟩
  | _ => ⟨S50000x256, .f32⟩

abbrev hbmTy0_1 (i : Nat) : BufTy := match i % 128 with
  | 0 => ⟨S50000x512, .f32⟩
  | 1 => ⟨S50000x512, .f32⟩
  | 2 => ⟨S_, .f32⟩
  | 3 => ⟨S50000x512, .f32⟩
  | 4 => ⟨S50000x512, .f32⟩
  | 5 => ⟨S_, .f32⟩
  | 6 => ⟨S50000, .f32⟩
  | 7 => ⟨S50000x512, .f32⟩
  | 8 => ⟨S_, .f32⟩
  | 9 => ⟨S50000x512, .f32⟩
  | 10 => ⟨S50000x512, .f32⟩
  | 11 => ⟨S50000x512, .f32⟩
  | 12 => ⟨S50000x512, .f32⟩
  | 13 => ⟨S50000x512, .i1⟩
  | 14 => ⟨S50000x512, .f32⟩
  | 15 => ⟨S50000x512, .f32⟩
  | 16 => ⟨S50000x512, .f32⟩
  | 17 => ⟨S50000x512, .f32⟩
  | 18 => ⟨S50000x512, .f32⟩
  | 19 => ⟨S50000x512, .f32⟩
  | 20 => ⟨S50000x512, .f32⟩
  | 21 => ⟨S50000x512, .f32⟩
  | 22 => ⟨S_, .f32⟩
  | 23 => ⟨S50000x512, .f32⟩
  | 24 => ⟨S50000x512, .f32⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S_, .f32⟩
  | 32 => ⟨S50000, .f32⟩
  | 33 => ⟨S_, .f32⟩
  | 34 => ⟨S_, .f32⟩
  | 35 => ⟨S_, .f32⟩
  | 36 => ⟨S_, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v1 : Ref sig .tc := ⟨.hbm, 17, rfl⟩
abbrev main_call2_v0 : Ref sig .tc := ⟨.hbm, 18, rfl⟩
abbrev main_call2_cst : Ref sig .tc := ⟨.hbm, 19, rfl⟩
abbrev main_call2_v1 : Ref sig .tc := ⟨.hbm, 20, rfl⟩
abbrev main_call2_v2 : Ref sig .tc := ⟨.hbm, 21, rfl⟩
abbrev main_v2 : Ref sig .tc := ⟨.hbm, 22, rfl⟩
abbrev main_cst : Ref sig .tc := ⟨.hbm, 23, rfl⟩
abbrev main_call3_v0 : Ref sig .tc := ⟨.hbm, 24, rfl⟩
abbrev main_call3_v1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call4_v0 : Ref sig .tc := ⟨.hbm, 29, rfl⟩
abbrev main_call4_cst : Ref sig .tc := ⟨.hbm, 30, rfl⟩
abbrev main_call4_v1 : Ref sig .tc := ⟨.hbm, 31, rfl⟩
abbrev main_call4_v2 : Ref sig .tc := ⟨.hbm, 32, rfl⟩
abbrev main_v6 : Ref sig .tc := ⟨.hbm, 33, rfl⟩
abbrev main_cst_0 : Ref sig .tc := ⟨.hbm, 34, rfl⟩
abbrev main_call5_v0 : Ref sig .tc := ⟨.hbm, 35, rfl⟩
abbrev main_call5_v1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_call6_v0 : Ref sig .tc := ⟨.hbm, 40, rfl⟩
abbrev main_call6_cst : Ref sig .tc := ⟨.hbm, 41, rfl⟩
abbrev main_call6_v1 : Ref sig .tc := ⟨.hbm, 42, rfl⟩
abbrev main_call6_v2 : Ref sig .tc := ⟨.hbm, 43, rfl⟩
abbrev main_v10 : Ref sig .tc := ⟨.hbm, 44, rfl⟩
abbrev main_cst_1 : Ref sig .tc := ⟨.hbm, 45, rfl⟩
abbrev main_call7_v0 : Ref sig .tc := ⟨.hbm, 46, rfl⟩
abbrev main_call7_v1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_call8_v0 : Ref sig .tc := ⟨.hbm, 51, rfl⟩
abbrev main_call8_cst : Ref sig .tc := ⟨.hbm, 52, rfl⟩
abbrev main_call8_v1 : Ref sig .tc := ⟨.hbm, 53, rfl⟩
abbrev main_call8_v2 : Ref sig .tc := ⟨.hbm, 54, rfl⟩
abbrev main_v14 : Ref sig .tc := ⟨.hbm, 55, rfl⟩
abbrev main_cst_2 : Ref sig .tc := ⟨.hbm, 56, rfl⟩
abbrev main_call9_v0 : Ref sig .tc := ⟨.hbm, 57, rfl⟩
abbrev main_call9_v1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_call10_cst : Ref sig .tc := ⟨.hbm, 75, rfl⟩
abbrev main_call10_v0 : Ref sig .tc := ⟨.hbm, 76, rfl⟩
abbrev main_call10_v1 : Ref sig .tc := ⟨.hbm, 77, rfl⟩
abbrev main_call10_v2 : Ref sig .tc := ⟨.hbm, 78, rfl⟩
abbrev main_call10_v3 : Ref sig .tc := ⟨.hbm, 79, rfl⟩
abbrev main_call10_v4 : Ref sig .tc := ⟨.hbm, 80, rfl⟩
abbrev main_call10_v5 : Ref sig .tc := ⟨.hbm, 81, rfl⟩
abbrev main_call10_v6 : Ref sig .tc := ⟨.hbm, 82, rfl⟩
abbrev main_call10_v7 : Ref sig .tc := ⟨.hbm, 83, rfl⟩
abbrev main_call10_v8 : Ref sig .tc := ⟨.hbm, 84, rfl⟩
abbrev main_call10_v9 : Ref sig .tc := ⟨.hbm, 85, rfl⟩
abbrev main_call10_v10 : Ref sig .tc := ⟨.hbm, 86, rfl⟩
abbrev main_call10_v11 : Ref sig .tc := ⟨.hbm, 87, rfl⟩
abbrev main_v31 : Ref sig .tc := ⟨.hbm, 88, rfl⟩
abbrev main_cst_3 : Ref sig .tc := ⟨.hbm, 89, rfl⟩
abbrev main_v32 : Ref sig .tc := ⟨.hbm, 90, rfl⟩
abbrev main_v33 : Ref sig .tc := ⟨.hbm, 91, rfl⟩
abbrev main_cst_4 : Ref sig .tc := ⟨.hbm, 92, rfl⟩
abbrev main_v34 : Ref sig .tc := ⟨.hbm, 93, rfl⟩
abbrev main_v35 : Ref sig .tc := ⟨.hbm, 94, rfl⟩
abbrev main_call11_cst : Ref sig .tc := ⟨.hbm, 95, rfl⟩
abbrev main_call11_v0 : Ref sig .tc := ⟨.hbm, 96, rfl⟩
abbrev main_call11_v1 : Ref sig .tc := ⟨.hbm, 97, rfl⟩
abbrev main_call11_v2 : Ref sig .tc := ⟨.hbm, 98, rfl⟩
abbrev main_call11_v3 : Ref sig .tc := ⟨.hbm, 99, rfl⟩
abbrev main_call11_v4 : Ref sig .tc := ⟨.hbm, 100, rfl⟩
abbrev main_call11_v5 : Ref sig .tc := ⟨.hbm, 101, rfl⟩
abbrev main_call11_v6 : Ref sig .tc := ⟨.hbm, 102, rfl⟩
abbrev main_call11_v7 : Ref sig .tc := ⟨.hbm, 103, rfl⟩
abbrev main_call11_v8 : Ref sig .tc := ⟨.hbm, 104, rfl⟩
abbrev main_call11_v9 : Ref sig .tc := ⟨.hbm, 105, rfl⟩
abbrev main_call11_v10 : Ref sig .tc := ⟨.hbm, 106, rfl⟩
abbrev main_call11_v11 : Ref sig .tc := ⟨.hbm, 107, rfl⟩
abbrev main_v36 : Ref sig .tc := ⟨.hbm, 108, rfl⟩
abbrev main_cst_5 : Ref sig .tc := ⟨.hbm, 109, rfl⟩
abbrev main_v37 : Ref sig .tc := ⟨.hbm, 110, rfl⟩
abbrev main_v38 : Ref sig .tc := ⟨.hbm, 111, rfl⟩
abbrev main_cst_6 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_call12_cst : Ref sig .tc := ⟨.hbm, 116, rfl⟩
abbrev main_call12_v0 : Ref sig .tc := ⟨.hbm, 117, rfl⟩
abbrev main_call12_v1 : Ref sig .tc := ⟨.hbm, 118, rfl⟩
abbrev main_call12_v2 : Ref sig .tc := ⟨.hbm, 119, rfl⟩
abbrev main_call12_v3 : Ref sig .tc := ⟨.hbm, 120, rfl⟩
abbrev main_call12_v4 : Ref sig .tc := ⟨.hbm, 121, rfl⟩
abbrev main_call12_v5 : Ref sig .tc := ⟨.hbm, 122, rfl⟩
abbrev main_call12_v6 : Ref sig .tc := ⟨.hbm, 123, rfl⟩
abbrev main_call12_v7 : Ref sig .tc := ⟨.hbm, 124, rfl⟩
abbrev main_call12_v8 : Ref sig .tc := ⟨.hbm, 125, rfl⟩
abbrev main_call12_v9 : Ref sig .tc := ⟨.hbm, 126, rfl⟩
abbrev main_call12_v10 : Ref sig .tc := ⟨.hbm, 127, rfl⟩
abbrev main_call12_v11 : Ref sig .tc := ⟨.hbm, 128, rfl⟩
abbrev main_v42 : Ref sig .tc := ⟨.hbm, 129, rfl⟩
abbrev main_cst_7 : Ref sig .tc := ⟨.hbm, 130, rfl⟩
abbrev main_v43 : Ref sig .tc := ⟨.hbm, 131, rfl⟩
abbrev main_v44 : Ref sig .tc := ⟨.hbm, 132, rfl⟩
abbrev main_cst_8 : Ref sig .tc := ⟨.hbm, 133, rfl⟩
abbrev main_v45 : Ref sig .tc := ⟨.hbm, 134, rfl⟩
abbrev main_v46 : Ref sig .tc := ⟨.hbm, 135, rfl⟩
abbrev main_call13_cst : Ref sig .tc := ⟨.hbm, 136, rfl⟩
abbrev main_call13_v0 : Ref sig .tc := ⟨.hbm, 137, rfl⟩
abbrev main_call13_v1 : Ref sig .tc := ⟨.hbm, 138, rfl⟩
abbrev main_call13_v2 : Ref sig .tc := ⟨.hbm, 139, rfl⟩
abbrev main_call13_v3 : Ref sig .tc := ⟨.hbm, 140, rfl⟩
abbrev main_call13_v4 : Ref sig .tc := ⟨.hbm, 141, rfl⟩
abbrev main_call13_v5 : Ref sig .tc := ⟨.hbm, 142, rfl⟩
abbrev main_call13_v6 : Ref sig .tc := ⟨.hbm, 143, rfl⟩
abbrev main_call13_v7 : Ref sig .tc := ⟨.hbm, 144, rfl⟩
abbrev main_call13_v8 : Ref sig .tc := ⟨.hbm, 145, rfl⟩
abbrev main_call13_v9 : Ref sig .tc := ⟨.hbm, 146, rfl⟩
abbrev main_call13_v10 : Ref sig .tc := ⟨.hbm, 147, rfl⟩
abbrev main_call13_v11 : Ref sig .tc := ⟨.hbm, 148, rfl⟩
abbrev main_v47 : Ref sig .tc := ⟨.hbm, 149, rfl⟩
abbrev main_cst_9 : Ref sig .tc := ⟨.hbm, 150, rfl⟩
abbrev main_v48 : Ref sig .tc := ⟨.hbm, 151, rfl⟩
abbrev main_v49 : Ref sig .tc := ⟨.hbm, 152, rfl⟩
abbrev main_cst_10 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_cst_11 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_cst_12 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  reducesTo_S512x256_S512_d1 : S512x256.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  transposes_S512x256_S256x512_1_0 : S512x256.Transposes [1, 0] S256x512
  bcast_S_S50000x512 : S_.BroadcastsInDim S50000x512 (![] : Fin 0 → Fin S50000x512.rank)
  reducesTo_S50000x512_S50000_d1 : S50000x512.ReducesTo [1] S50000
  reducesTo_S50000_S_d0 : S50000.ReducesTo [0] S_
  dot_S50000x256_S256x512_S50000x512_1_0_0_1_n_n_wf : DotDims.WF S50000x256 S256x512 S50000x512 [1] [0] [0] [1] [] []

variable [Facts₀]

def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf

class Facts : Prop extends Facts₀ where

variable [Facts]
-- ==== Proof.BitsCases.lean ====
/-
  The grid of the one kernel launch is 2 × 49: point t is (core t / 49, tile t % 49), and the kernel's two branches test
  the tile coordinate only. This module states the two branch conditions over the coordinates and decides, over the 98
  points, where each holds (tile 0: the accumulators are reset; tile 48: the accumulators are copied to the two result
  blocks); where the two result windows are idle (every tile but 48, where nothing is stored into them and nothing is
  written back) and live; the staging memrefs a point runs on; and the region invariant with the two scalar accumulators
  (the kernel's scratch operands) spelled as owned memrefs.
-/
import proofs.«100524_j49959059587771_2_alg».proof.Proof.Gen.Kernel.Frame
import proofs.«100524_j49959059587771_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first branch's condition: the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)

/-- The second branch's condition: the tile coordinate is 48, the last tile of a core. -/
abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last tile nothing is stored into the result windows and nothing of them is written back. -/
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
/-- On the last tile they are stored whole. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The memrefs a point runs on -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128 .f32 := win0_7.stage (cfg0.slots t 7)
abbrev hs0_7 (t : Fin cfg0.N) : (ms0_7 t).IsWhole := hstage0_7 ((cfg0.slots t 7).cast nbuf0_7)
/-- The two scalar accumulators: whole scoped buffers of the kernel's own. -/
abbrev scM0_0 : Memref sig .tc .vmem S1x1 .f32 := Memref.whole cc0_scratch0
abbrev scM0_1 : Memref sig .tc .vmem S1x1 .f32 := Memref.whole cc0_scratch1

/-- The region invariant of the launch, the two accumulators spelled as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.BitsRunA.lean ====
/-
  The kernel body run once at the first tile of a core (the accumulators, found at anything, are reset and then added to; the result windows are handed back untouched): on whole staging memrefs holding any contents the body runs to its end without a
  fault, hands the six input buffers back as it found them, and leaves in each buffer it stores into the list of its
  stores (last first), every stored value a term of the values the body loaded before it.
-/
import proofs.«100524_j49959059587771_2_alg».proof.Proof.BitsCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The stores the body leaves in the accumulators at such a point, with the proof that the body runs to them. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 x1 : Vec F S512x256 .f32) (x2 x3 : Vec F S512x256 .bf16) (x4 x5 : Vec F S512x1 .i32) :
    Σ' (LS0 : List (View.Piece (Elt F) S1x1 .f32)), { LS1 : List (View.Piece (Elt F) S1x1 .f32) //
      ∀ (xi6 xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Body

end
-- ==== Proof.BitsRunB.lean ====
/-
  The kernel body run once at a tile that is neither the first nor the last of its core (the accumulators are added to; the result windows are handed back untouched): on whole staging memrefs holding any contents the body runs to its end without a
  fault, hands the six input buffers back as it found them, and leaves in each buffer it stores into the list of its
  stores (last first), every stored value a term of the values the body loaded before it.
-/
import proofs.«100524_j49959059587771_2_alg».proof.Proof.BitsRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The stores the body leaves in the accumulators at such a point, with the proof that the body runs to them. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 x1 : Vec F S512x256 .f32) (x2 x3 : Vec F S512x256 .bf16) (x4 x5 : Vec F S512x1 .i32) (xs0 xs1 : Vec F S1x1 .f32) :
    Σ' (LS0 : List (View.Piece (Elt F) S1x1 .f32)), { LS1 : List (View.Piece (Elt F) S1x1 .f32) //
      ∀ (xi6 xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Body

end
-- ==== Proof.BitsRunC.lean ====
/-
  The kernel body run once at the last tile of a core (the accumulators are added to and then copied, broadcast, into the two result blocks, stored whole): on whole staging memrefs holding any contents the body runs to its end without a
  fault, hands the six input buffers back as it found them, and leaves in each buffer it stores into the list of its
  stores (last first), every stored value a term of the values the body loaded before it.
-/
import proofs.«100524_j49959059587771_2_alg».proof.Proof.BitsRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The stores the body leaves in the accumulators and the result blocks at such a point, with the proof that the body runs to them. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 x1 : Vec F S512x256 .f32) (x2 x3 : Vec F S512x256 .bf16) (x4 x5 : Vec F S512x1 .i32) (xs0 xs1 : Vec F S1x1 .f32) :
    Σ' (L6 : List (View.Piece (Elt F) S1x8x128 .f32)) (L7 : List (View.Piece (Elt F) S1x8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Body

end
-- ==== Proof.BitsFrame.lean ====
/-
  The frame of the program: it runs to the end, faults nowhere, and leaves its six argument arrays as they were.
  The two row-tile inputs are read through windows whose last block overhangs the arrays' 50000 rows by 176: after the
  clipped fetch the staging buffer holds the array's rows on its first 336 rows and, below them, words nothing names.
  The body reads those rows too (its row mask discards what it computes from them), so what it adds to its two scalar
  accumulators and copies to the two result blocks is, word for word, a function of contents that no statement made in
  advance can name. For the frame none of that matters: the accumulators are owned at some contents throughout, the two
  result windows are forgotten, and the inputs' buffers are handed back as found. The run at a point is the run of
  its case (first tile of a core, last tile, any other).
-/
import proofs.«100524_j49959059587771_2_alg».proof.Proof.BitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two result windows: nothing the frame says reads what the kernel leaves in them. -/
def forgets0 : Fin 8 → Bool := fun w => w.val == 6 || w.val == 7

/-- The proof data on core `c`: the arrays as the launch finds them; after the body each input's buffer holds its block
    (the two row-tile inputs: on the rows inside the array, the filler below them never read back); the accumulators
    and the register at some contents. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => win0_1.fill (grid0.coords t) (fun _ => Classical.arbitrary _) (iblk m c 1 t)
    | ⟨2, _⟩ => iblk m c 2 t
    | ⟨3, _⟩ => iblk m c 3 t
    | ⟨4, _⟩ => iblk m c 4 t
    | ⟨5, _⟩ => iblk m c 5 t
    | ⟨6, _⟩ => Dat.unnamed 6 t
    | ⟨7, _⟩ => Dat.unnamed 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (fun _ => Classical.arbitrary _) (iblk m c 0 t) := by dsimp only [dats]
theorem after0_1 (c : Dev nD) (t : Fin cfg0.N) : (dats m 0 c).after 1 t = win0_1.fill (grid0.coords t) (fun _ => Classical.arbitrary _) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- A row-tile input is fetched at every point: its buffer holds the block on the rows the fetch fills. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X)
    ∗ (∃ X, owns (c : Thread nD τ) (ms0_7 t) fullShare X))

def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X)
    ∗ (∃ X, owns (c : Thread nD τ) (ms0_7 t) fullShare X))

set_option maxHeartbeats 4800000 in
/-- The body at any point: the run of the point's case, the accumulators taken from and returned to the invariant at
    whatever they hold, the inputs handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, Pipeline.Window.cut_fill, Pipeline.Window.cut_fill]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 98 := lt_of_lt_of_eq t.isLt (show cfg0.N = 98 from N_0)
  by_cases h0 : t.val % 49 = 0
  · have h1 : ¬t.val % 49 = 48 := by omega
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%X6, H6⟩, ⟨%X7, H7⟩⟩
    iapply ((kernelRun0_A c (grid0.coords t) _ _ _ _ _ _ _ _ _ _ _ _ _ _ _ _ _ _ _ _ ((hcond0_0 t).mpr h0) (fun h => h1 ((hcond0_1 t).mp h))
      (win0_0.fill (grid0.coords t) d0 (iblk m c 0 t)) (win0_1.fill (grid0.coords t) d1 (iblk m c 1 t)) (iblk m c 2 t) (iblk m c 3 t) (iblk m c 4 t) (iblk m c 5 t)).2.2 X6 X7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hg]
    · isplitl [HS0 HS1]
      · isplitl [HS0]
        · iexists _; unfold owns; iexists _; isplitr
          swap; · iexact HS0
          ipureintro; rfl
        · iexists _; unfold owns; iexists _; isplitr
          swap; · iexact HS1
          ipureintro; rfl
      · iexact Hg
    isplitl [Ho]; · iexact Ho
    isplitl [H0]; · iexists _; iexact H0
    isplitl [H1]; · iexists _; iexact H1
    isplitl [H2]; · iexact H2
    isplitl [H3]; · iexact H3
    isplitl [H4]; · iexact H4
    isplitl [H5]; · iexact H5
    isplitl [H6]
    · iexists _; iexact H6
    · iexists _; iexact H7
  · by_cases h1 : t.val % 49 = 48
    ·
      iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%X6, H6⟩, ⟨%X7, H7⟩⟩
      iapply ((kernelRun0_C c (grid0.coords t) _ _ _ _ _ _ _ _ _ _ _ _ _ _ _ _ _ _ _ _ (fun h => h0 ((hcond0_0 t).mp h)) ((hcond0_1 t).mpr h1)
        (win0_0.fill (grid0.coords t) d0 (iblk m c 0 t)) (win0_1.fill (grid0.coords t) d1 (iblk m c 1 t)) (iblk m c 2 t) (iblk m c 3 t) (iblk m c 4 t) (iblk m c 5 t) xs0 xs1).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · iexists _; unfold owns; iexists _; isplitr
        swap; · iexact H6
        ipureintro; rfl
      · iexists _; unfold owns; iexists _; isplitr
        swap; · iexact H7
        ipureintro; rfl
    ·
      iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%X6, H6⟩, ⟨%X7, H7⟩⟩
      iapply ((kernelRun0_B c (grid0.coords t) _ _ _ _ _ _ _ _ _ _ _ _ _ _ _ _ _ _ _ _ (fun h => h0 ((hcond0_0 t).mp h)) (fun h => h1 ((hcond0_1 t).mp h))
        (win0_0.fill (grid0.coords t) d0 (iblk m c 0 t)) (win0_1.fill (grid0.coords t) d1 (iblk m c 1 t)) (iblk m c 2 t) (iblk m c 3 t) (iblk m c 4 t) (iblk m c 5 t) xs0 xs1).2.2 X6 X7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · iexists _; iexact H6
      · iexists _; iexact H7

/-- The library's body obligation, the two result windows forgotten. -/
theorem body_obligation (c : Dev nD) : BodyObligationLoose (dats (F := F) m 0 c) (defs₀ (F := F)) Variants.none () Set.univ forgets0 := fun t => by
  rw [bigSep_W0, bigSep_W0]
  exact sound_body m c t

/-! ## The run and the frame -/

/-- The buffers the host lines after the launch write: computed from the forgotten results, so nothing is stated of them. -/
def T0 : Finset (Ref sig .tc) := {main_v15, main_v16, main_v17, main_v18, main_v19, main_v20, main_v21, main_v22, main_v23, main_v24, main_v25, main_v26, main_v27}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of the program terminates without a fault; the input arrays of the launch end as they
    were, and so does every other buffer the launch and the later host lines do not write. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun (((dats m 0 c).toRForget forgets0).ArrAt_in 0 rfl _) _) ((h c).1 0)).trans ((A_eq m c 0).trans (V_main_arg0 m c)),
      (Eq.mp (congrFun (((dats m 0 c).toRForget forgets0).ArrAt_in 1 rfl _) _) ((h c).1 1)).trans ((A_eq m c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) (run_main m ρ)

end Cert.Kernel.Body

end
-- ==== Proof.IdealCases.lean ====
/-
  The grid of the one kernel launch is 2 × 49: point t is (core t / 49, tile t % 49), and the kernel's two branches test
  the tile coordinate only. This module states the two branch conditions over the coordinates and decides, over the 98
  points, where each holds (tile 0: the accumulators are reset; tile 48: the accumulators are copied to the two result
  blocks); where the two result windows are idle (every tile but 48, where nothing is stored into them and nothing is
  written back) and live; the staging memrefs a point runs on; and the region invariant with the two scalar accumulators
  (the kernel's scratch operands) spelled as owned memrefs.
-/
import proofs.«100524_j49959059587771_2_alg».proof.Proof.Gen.KernelIdeal.Frame
import proofs.«100524_j49959059587771_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The first branch's condition: the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)

/-- The second branch's condition: the tile coordinate is 48, the last tile of a core. -/
abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Off the last tile nothing is stored into the result windows and nothing of them is written back. -/
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
/-- On the last tile they are stored whole. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The memrefs a point runs on -/

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x128 .f32 := win0_7.stage (cfg0.slots t 7)
abbrev hs0_7 (t : Fin cfg0.N) : (ms0_7 t).IsWhole := hstage0_7 ((cfg0.slots t 7).cast nbuf0_7)
/-- The two scalar accumulators: whole scoped buffers of the kernel's own. -/
abbrev scM0_0 : Memref sig .tc .vmem S1x1 .f32 := Memref.whole cc0_scratch0
abbrev scM0_1 : Memref sig .tc .vmem S1x1 .f32 := Memref.whole cc0_scratch1

/-- The region invariant of the launch, the two accumulators spelled as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.IdealRunA.lean ====
/-
  The kernel body run once at the first tile of a core (the accumulators, found at anything, are reset and then added to; the result windows are handed back untouched): on whole staging memrefs holding any contents the body runs to its end without a
  fault, hands the six input buffers back as it found them, and leaves in each buffer it stores into the list of its
  stores (last first), every stored value a term of the values the body loaded before it.
-/
import proofs.«100524_j49959059587771_2_alg».proof.Proof.IdealCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The stores the body leaves in the accumulators at such a point, with the proof that the body runs to them. -/
noncomputable def kernelRun0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 x1 : Vec F S512x256 .f32) (x2 x3 : Vec F S512x256 .bf16) (x4 x5 : Vec F S512x1 .i32) :
    Σ' (LS0 : List (View.Piece (Elt F) S1x1 .f32)), { LS1 : List (View.Piece (Elt F) S1x1 .f32) //
      ∀ (xi6 xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Body

end
-- ==== Proof.IdealRunB.lean ====
/-
  The kernel body run once at a tile that is neither the first nor the last of its core (the accumulators are added to; the result windows are handed back untouched): on whole staging memrefs holding any contents the body runs to its end without a
  fault, hands the six input buffers back as it found them, and leaves in each buffer it stores into the list of its
  stores (last first), every stored value a term of the values the body loaded before it.
-/
import proofs.«100524_j49959059587771_2_alg».proof.Proof.IdealRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The stores the body leaves in the accumulators at such a point, with the proof that the body runs to them. -/
noncomputable def kernelRun0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 x1 : Vec F S512x256 .f32) (x2 x3 : Vec F S512x256 .bf16) (x4 x5 : Vec F S512x1 .i32) (xs0 xs1 : Vec F S1x1 .f32) :
    Σ' (LS0 : List (View.Piece (Elt F) S1x1 .f32)), { LS1 : List (View.Piece (Elt F) S1x1 .f32) //
      ∀ (xi6 xi7 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Body

end
-- ==== Proof.IdealRunC.lean ====
/-
  The kernel body run once at the last tile of a core (the accumulators are added to and then copied, broadcast, into the two result blocks, stored whole): on whole staging memrefs holding any contents the body runs to its end without a
  fault, hands the six input buffers back as it found them, and leaves in each buffer it stores into the list of its
  stores (last first), every stored value a term of the values the body loaded before it.
-/
import proofs.«100524_j49959059587771_2_alg».proof.Proof.IdealRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The stores the body leaves in the accumulators and the result blocks at such a point, with the proof that the body runs to them. -/
noncomputable def kernelRun0_C (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 x1 : Vec F S512x256 .f32) (x2 x3 : Vec F S512x256 .bf16) (x4 x5 : Vec F S512x1 .i32) (xs0 xs1 : Vec F S1x1 .f32) :
    Σ' (L6 : List (View.Piece (Elt F) S1x8x128 .f32)) (L7 : List (View.Piece (Elt F) S1x8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__loss_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Body

end
-- ==== Proof.IdealFrame.lean ====
/-
  The frame of the program: it runs to the end, faults nowhere, and leaves its six argument arrays as they were.
  The two row-tile inputs are read through windows whose last block overhangs the arrays' 50000 rows by 176: after the
  clipped fetch the staging buffer holds the array's rows on its first 336 rows and, below them, words nothing names.
  The body reads those rows too (its row mask discards what it computes from them), so what it adds to its two scalar
  accumulators and copies to the two result blocks is, word for word, a function of contents that no statement made in
  advance can name. For the frame none of that matters: the accumulators are owned at some contents throughout, the two
  result windows are forgotten, and the inputs' buffers are handed back as found. The run at a point is the run of
  its case (first tile of a core, last tile, any other).
-/
import proofs.«100524_j49959059587771_2_alg».proof.Proof.IdealRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two result windows: nothing the frame says reads what the kernel leaves in them. -/
def forgets0 : Fin 8 → Bool := fun w => w.val == 6 || w.val == 7

/-- The proof data on core `c`: the arrays as the launch finds them; after the body each input's buffer holds its block
    (the two row-tile inputs: on the rows inside the array, the filler below them never read back); the accumulators
    and the register at some contents. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => win0_1.fill (grid0.coords t) (fun _ => Classical.arbitrary _) (iblk m c 1 t)
    | ⟨2, _⟩ => iblk m c 2 t
    | ⟨3, _⟩ => iblk m c 3 t
    | ⟨4, _⟩ => iblk m c 4 t
    | ⟨5, _⟩ => iblk m c 5 t
    | ⟨6, _⟩ => Dat.unnamed 6 t
    | ⟨7, _⟩ => Dat.unnamed 7 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (fun _ => Classical.arbitrary _) (iblk m c 0 t) := by dsimp only [dats]
theorem after0_1 (c : Dev nD) (t : Fin cfg0.N) : (dats m 0 c).after 1 t = win0_1.fill (grid0.coords t) (fun _ => Classical.arbitrary _) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- A row-tile input is fetched at every point: its buffer holds the block on the rows the fetch fills. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X)
    ∗ (∃ X, owns (c : Thread nD τ) (ms0_7 t) fullShare X))

def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X)
    ∗ (∃ X, owns (c : Thread nD τ) (ms0_7 t) fullShare X))

set_option maxHeartbeats 4800000 in
/-- The body at any point: the run of the point's case, the accumulators taken from and returned to the invariant at
    whatever they hold, the inputs handed back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, Pipeline.Window.cut_fill, Pipeline.Window.cut_fill]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 98 := lt_of_lt_of_eq t.isLt (show cfg0.N = 98 from N_0)
  by_cases h0 : t.val % 49 = 0
  · have h1 : ¬t.val % 49 = 48 := by omega
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%X6, H6⟩, ⟨%X7, H7⟩⟩
    iapply ((kernelRun0_A c (grid0.coords t) _ _ _ _ _ _ _ _ _ _ _ _ _ _ _ _ _ _ _ _ ((hcond0_0 t).mpr h0) (fun h => h1 ((hcond0_1 t).mp h))
      (win0_0.fill (grid0.coords t) d0 (iblk m c 0 t)) (win0_1.fill (grid0.coords t) d1 (iblk m c 1 t)) (iblk m c 2 t) (iblk m c 3 t) (iblk m c 4 t) (iblk m c 5 t)).2.2 X6 X7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, ⟨%es0, HS0⟩, ⟨%es1, HS1⟩⟩
    isplitl [HS0 HS1 Hg]
    · isplitl [HS0 HS1]
      · isplitl [HS0]
        · iexists _; unfold owns; iexists _; isplitr
          swap; · iexact HS0
          ipureintro; rfl
        · iexists _; unfold owns; iexists _; isplitr
          swap; · iexact HS1
          ipureintro; rfl
      · iexact Hg
    isplitl [Ho]; · iexact Ho
    isplitl [H0]; · iexists _; iexact H0
    isplitl [H1]; · iexists _; iexact H1
    isplitl [H2]; · iexact H2
    isplitl [H3]; · iexact H3
    isplitl [H4]; · iexact H4
    isplitl [H5]; · iexact H5
    isplitl [H6]
    · iexists _; iexact H6
    · iexists _; iexact H7
  · by_cases h1 : t.val % 49 = 48
    ·
      iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%X6, H6⟩, ⟨%X7, H7⟩⟩
      iapply ((kernelRun0_C c (grid0.coords t) _ _ _ _ _ _ _ _ _ _ _ _ _ _ _ _ _ _ _ _ (fun h => h0 ((hcond0_0 t).mp h)) ((hcond0_1 t).mpr h1)
        (win0_0.fill (grid0.coords t) d0 (iblk m c 0 t)) (win0_1.fill (grid0.coords t) d1 (iblk m c 1 t)) (iblk m c 2 t) (iblk m c 3 t) (iblk m c 4 t) (iblk m c 5 t) xs0 xs1).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · iexists _; unfold owns; iexists _; isplitr
        swap; · iexact H6
        ipureintro; rfl
      · iexists _; unfold owns; iexists _; isplitr
        swap; · iexact H7
        ipureintro; rfl
    ·
      iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%X6, H6⟩, ⟨%X7, H7⟩⟩
      iapply ((kernelRun0_B c (grid0.coords t) _ _ _ _ _ _ _ _ _ _ _ _ _ _ _ _ _ _ _ _ (fun h => h0 ((hcond0_0 t).mp h)) (fun h => h1 ((hcond0_1 t).mp h))
        (win0_0.fill (grid0.coords t) d0 (iblk m c 0 t)) (win0_1.fill (grid0.coords t) d1 (iblk m c 1 t)) (iblk m c 2 t) (iblk m c 3 t) (iblk m c 4 t) (iblk m c 5 t) xs0 xs1).2.2 X6 X7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · iexists _; unfold owns; iexists _; isplitr
            swap; · iexact HS0
            ipureintro; rfl
          · iexists _; unfold owns; iexists _; isplitr
            swap; · iexact HS1
            ipureintro; rfl
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · iexists _; iexact H6
      · iexists _; iexact H7

/-- The library's body obligation, the two result windows forgotten. -/
theorem body_obligation (c : Dev nD) : BodyObligationLoose (dats (F := F) m 0 c) (defs₀ (F := F)) Variants.none () Set.univ forgets0 := fun t => by
  rw [bigSep_W0, bigSep_W0]
  exact sound_body m c t

/-! ## The run and the frame -/

/-- The buffers the host lines after the launch write: computed from the forgotten results, so nothing is stated of them. -/
def T0 : Finset (Ref sig .tc) := {main_v15, main_v16, main_v17, main_v18, main_v19, main_v20, main_v21, main_v22, main_v23, main_v24, main_v25, main_v26, main_v27}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of the program terminates without a fault; the input arrays of the launch end as they
    were, and so does every other buffer the launch and the later host lines do not write. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (Eq.mp (congrFun (((dats m 0 c).toRForget forgets0).ArrAt_in 0 rfl _) _) ((h c).1 0)).trans ((A_eq m c 0).trans (V_main_arg0 m c)),
      (Eq.mp (congrFun (((dats m 0 c).toRForget forgets0).ArrAt_in 1 rfl _) _) ((h c).1 1)).trans ((A_eq m c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) (run_main m ρ)

end Cert.KernelIdeal.Body

end
-- ==== Proof.RefFrame.lean ====
/-
  The reference is a host program with no kernel launch: its frame is its run with the result dropped.
-/
import proofs.«100524_j49959059587771_2_alg».proof.Defs
import proofs.«100524_j49959059587771_2_alg».proof.Proof.Gen.ReferenceIdeal
import proofs.«100524_j49959059587771_2_alg».proof.Proof.Gen.Pre_finite_inputs
import proofs.«100524_j49959059587771_2_alg».proof.Proof.Gen.ReferenceIdeal.Run
import proofs.«100524_j49959059587771_2_alg».proof.Proof.Gen.ReferenceIdeal.Read

noncomputable section

namespace Cert.Proof.Parts

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.Parts

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.IdealPieces.lean ====
/-
  What the body leaves in the buffers it stores into, case by case, as pure terms of what it loaded: the runs found each
  buffer's list of stores; every store here goes through the buffer's whole rectangle, so the buffer reads back as the
  last store's payload, and a load between two stores reads the earlier one's. The payloads are the printed arithmetic:
  the row tile's two per-row differences d (one per branch), masked past row 49999, squared, summed over the tile's 512
  rows and added to the accumulator's earlier contents — zero at a core's first tile — and, at a core's last tile, the
  two new totals broadcast over the two result blocks.
-/
import proofs.«100524_j49959059587771_2_alg».proof.Proof.IdealRunC
import proofs.«100524_j49959059587771_2_alg».proof.Proof.LibWholeStores

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.WholeStores
variable {F : FTy → Type} [FloatOps F] [Named F]

/-- The tile's number from the grid coordinates: core · 49 + tile of the core. -/
def tileWord (i : grid0.Coords) : BitVec 32 := Scalar.addi (Scalar.muli (BitVec.ofNat 32 (i 0).val) 49#32) (BitVec.ofNat 32 (i 1).val)

/-- Branch one's per-row difference over a tile: rows x0, own table x2, other table x3, batch words x4. -/
def d1t (x0 : Vec F S512x256 .f32) (x2 x3 : Vec F S512x256 .bf16) (x4 : Vec F S512x1 .i32) : FVec F S512x1 .f32 :=
  k0_pay26 (k0_pay18 (k0_pay12 x0 x2) x4) (k0_pay20 (k0_pay13 x0 x3) x4) (k0_pay22 (k0_pay13 x0 x3) x4) (k0_pay23 (k0_pay13 x0 x3) x4) (k0_pay24 (k0_pay13 x0 x3) x4) k0_pay25

/-- Branch one's accumulator after tile number w. -/
def acc1w (w : BitVec 32) (x0 : Vec F S512x256 .f32) (x2 x3 : Vec F S512x256 .bf16) (x4 : Vec F S512x1 .i32) (a : Vec F S1x1 .f32) : FVec F S1x1 .f32 :=
  k0_pay2 w (d1t x0 x2 x3 x4) a
def acc1t (i : grid0.Coords) (x0 : Vec F S512x256 .f32) (x2 x3 : Vec F S512x256 .bf16) (x4 : Vec F S512x1 .i32) (a : Vec F S1x1 .f32) : FVec F S1x1 .f32 :=
  acc1w (tileWord i) x0 x2 x3 x4 a

/-- Branch two's accumulator after the tile: rows x1, own table x3, other table x2, batch words x5. -/
def acc2w (w : BitVec 32) (x1 : Vec F S512x256 .f32) (x2 x3 : Vec F S512x256 .bf16) (x5 : Vec F S512x1 .i32) (a : Vec F S1x1 .f32) : FVec F S1x1 .f32 :=
  k0_pay3 w (k0_pay27 (k0_pay14 x1 x3) (k0_pay17 x5)) (k0_pay29 (k0_pay15 x1 x2) (k0_pay17 x5)) (k0_pay31 (k0_pay15 x1 x2) (k0_pay17 x5)) (k0_pay32 (k0_pay15 x1 x2) (k0_pay17 x5)) (k0_pay33 (k0_pay15 x1 x2) (k0_pay17 x5)) a
def acc2t (i : grid0.Coords) (x1 : Vec F S512x256 .f32) (x2 x3 : Vec F S512x256 .bf16) (x5 : Vec F S512x1 .i32) (a : Vec F S1x1 .f32) : FVec F S1x1 .f32 :=
  acc2w (tileWord i) x1 x2 x3 x5 a

theorem hz2 : (![0, 0] : Fin 2 → Nat) = fun _ => 0 := by funext a; fin_cases a <;> rfl
theorem hz3 : (![0, 0, 0] : Fin 3 → Nat) = fun _ => 0 := by funext a; fin_cases a <;> rfl

/-- A whole load of a whole buffer reads its contents. -/
theorem ldTile {e : EltTy} (mr : Memref sig .tc .vmem S512x256 e) (hm : mr.IsWhole) (X : S512x256.Idx → Elt F e) :
    View.readAt (Elt F) mr.view (Rect.unit ![0, 0] ![512, 256] inb_S512x256_S512x256_0_0).toLoadRect (hm.unread X) = X :=
  readAt_whole_unread hm hz2 _ X
theorem ldCol {e : EltTy} (mr : Memref sig .tc .vmem S512x1 e) (hm : mr.IsWhole) (X : S512x1.Idx → Elt F e) :
    View.readAt (Elt F) mr.view (Rect.unit ![0, 0] ![512, 1] inb_S512x1_S512x1_0_0).toLoadRect (hm.unread X) = X :=
  readAt_whole_unread hm hz2 _ X
theorem ldAcc {e : EltTy} (mr : Memref sig .tc .vmem S1x1 e) (hm : mr.IsWhole) (X : S1x1.Idx → Elt F e) :
    View.readAt (Elt F) mr.view (Rect.unit ![0, 0] ![1, 1] inb_S1x1_S1x1_0_0).toLoadRect (hm.unread X) = X :=
  readAt_whole_unread hm hz2 _ X
/-- A whole load after a whole store reads the store. -/
theorem ldAccStored {e : EltTy} (v : View sig .tc .vmem S1x1 e) (w : S1x1.Idx → Elt F e) (L : List (View.Piece (Elt F) S1x1 e)) :
    v.readCov ((⟨Rect.unit ![0, 0] ![1, 1] inb_S1x1_S1x1_0_0, w⟩ : View.Piece (Elt F) S1x1 e) :: L) (Rect.unit ![0, 0] ![1, 1] inb_S1x1_S1x1_0_0).toLoadRect = w :=
  readCov_whole_last v hz2 _ w L

section B
variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 x1 : Vec F S512x256 .f32) (x2 x3 : Vec F S512x256 .bf16) (x4 x5 : Vec F S512x1 .i32) (xs0 xs1 : Vec F S1x1 .f32)

theorem left_B_0 (f : arg10.view.ty.Contents (Elt F)) :
    arg10.view.read (Elt F) (arg10.view.writes (Elt F) f (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1) = acc1t i x0 x2 x3 x4 xs0 := by
  unfold kernelRun0_B
  dsimp only
  sl_unfold_words
  rw [read_writes_whole_last _ _ hz2]
  simp only [ldTile, ldCol, ldAcc, ldAccStored]
  rfl

theorem left_B_1 (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1) = acc2t i x1 x2 x3 x5 xs1 := by
  unfold kernelRun0_B
  dsimp only
  sl_unfold_words
  rw [read_writes_whole_last _ _ hz2]
  simp only [ldTile, ldCol, ldAcc, ldAccStored]
  rfl
end B

section A
variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 x1 : Vec F S512x256 .f32) (x2 x3 : Vec F S512x256 .bf16) (x4 x5 : Vec F S512x1 .i32)

theorem left_A_0 (f : arg10.view.ty.Contents (Elt F)) :
    arg10.view.read (Elt F) (arg10.view.writes (Elt F) f (kernelRun0_A c i arg2 harg2 arg3 harg3 arg4 harg4 arg5 harg5 arg6 harg6 arg7 harg7 arg8 harg8 arg9 harg9 arg10 harg10 arg11 harg11 hc0 hc1 x0 x1 x2 x3 x4 x5).1) = acc1t i x0 x2 x3 x4 k0_pay6 := by
  unfold kernelRun0_A
  dsimp only
  sl_unfold_words
  rw [read_writes_whole_last _ _ hz2]
  simp only [ldTile, ldCol, ldAcc, ldAccStored]
  rfl

theorem left_A_1 (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 hc0 hc1 x0 x1 x2 x3 x4 x5).2.1) = acc2t i x1 x2 x3 x5 k0_pay7 := by
  unfold kernelRun0_A
  dsimp only
  sl_unfold_words
  rw [read_writes_whole_last _ _ hz2]
  simp only [ldTile, ldCol, ldAcc, ldAccStored]
  rfl
end A

section C
variable (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 x1 : Vec F S512x256 .f32) (x2 x3 : Vec F S512x256 .bf16) (x4 x5 : Vec F S512x1 .i32) (xs0 xs1 : Vec F S1x1 .f32)

theorem left_C_6 (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1) = k0_pay4 (acc1t i x0 x2 x3 x4 xs0) := by
  unfold kernelRun0_C
  dsimp only
  sl_unfold_words
  rw [read_writes_whole_last _ _ hz3]
  simp only [ldTile, ldCol, ldAcc, ldAccStored]
  rfl

theorem left_C_7 (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1) = k0_pay5 (acc2t i x1 x2 x3 x5 xs1) := by
  unfold kernelRun0_C
  dsimp only
  sl_unfold_words
  rw [read_writes_whole_last _ _ hz3]
  simp only [ldTile, ldCol, ldAcc, ldAccStored]
  rfl

theorem left_C_0 (f : arg10.view.ty.Contents (Elt F)) :
    arg10.view.read (Elt F) (arg10.view.writes (Elt F) f (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1) = acc1t i x0 x2 x3 x4 xs0 := by
  unfold kernelRun0_C
  dsimp only
  sl_unfold_words
  rw [read_writes_whole_last _ _ hz2]
  simp only [ldTile, ldCol, ldAcc, ldAccStored]
  rfl

theorem left_C_1 (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1) = acc2t i x1 x2 x3 x5 xs1 := by
  unfold kernelRun0_C
  dsimp only
  sl_unfold_words
  rw [read_writes_whole_last _ _ hz2]
  simp only [ldTile, ldCol, ldAcc, ldAccStored]
  rfl
end C

end Cert.KernelIdeal.Body

end
-- ==== Proof.IdealBlocks.lean ====
/-
  A tile's buffers in terms of the arrays. Point t of the 2 × 49 grid is tile number t: its two row-tile inputs hold rows
  512·t … 512·t + 511 of z1 and z2 — on the rows that exist: the last tile, t = 97, overhangs the 50000 rows by 176, and the
  buffer's rows 336 … 511 hold contents nothing names —, its batch-word inputs the same rows of the two padded word
  columns (50176 rows: no overhang), and its two table inputs the whole normalised tables at every point.
-/
import proofs.«100524_j49959059587771_2_alg».proof.Proof.IdealPieces
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (m : (ℓ : Loc nD τ sig) → Buf (Elt Ideal) ℓ)

/-- The tile's number is the point's position. -/
theorem tileWord_toNat : ∀ t : Fin cfg0.N, (tileWord (grid0.coords t)).toNat = t.val :=
  (by decide +kernel : ∀ t : Fin grid0.N, (tileWord (grid0.coords t)).toNat = t.val)

/-- The row-tile windows' block index at point t is (t, 0); the word columns' too; the tables' (0, 0). -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = t.val ∧ win0_4.index t 1 = 0 :=
  (by decide +kernel : ∀ t : Fin grid0.N, win0_4.index t 0 = t.val ∧ win0_4.index t 1 = 0)
theorem index0_5 : ∀ t : Fin cfg0.N, win0_5.index t 0 = t.val ∧ win0_5.index t 1 = 0 :=
  (by decide +kernel : ∀ t : Fin grid0.N, win0_5.index t 0 = t.val ∧ win0_5.index t 1 = 0)

/-- What a fetch of a row tile moves: all 512 rows, but 336 at the last tile; all 256 columns. -/
theorem xsize0_0 : ∀ t : Fin cfg0.N, win0_0.xsize (grid0.coords t) 0 = (if t.val = 97 then 336 else 512) ∧ win0_0.xsize (grid0.coords t) 1 = 256 :=
  (by decide +kernel : ∀ t : Fin grid0.N, win0_0.xsize (grid0.coords t) 0 = (if t.val = 97 then 336 else 512) ∧ win0_0.xsize (grid0.coords t) 1 = 256)
theorem xsize0_1 : ∀ t : Fin cfg0.N, win0_1.xsize (grid0.coords t) 0 = (if t.val = 97 then 336 else 512) ∧ win0_1.xsize (grid0.coords t) 1 = 256 :=
  (by decide +kernel : ∀ t : Fin grid0.N, win0_1.xsize (grid0.coords t) 0 = (if t.val = 97 then 336 else 512) ∧ win0_1.xsize (grid0.coords t) 1 = 256)

/-- A row of the tile that exists in the array is that row of the array, whatever the buffer held below the array's end. -/
theorem blockRow0 (c : Dev nD) (t : Fin cfg0.N) (d) (r : Fin 512) (k : Fin 256) (h : t.val * 512 + r.val < 50000) :
    win0_0.fill (grid0.coords t) d (iblk m c 0 t) (ix2 r k) = (V m c main_arg0 : S50000x256.Idx → EReal) (ix2 ⟨t.val * 512 + r.val, h⟩ k) := by
  have hN : t.val < 98 := lt_of_lt_of_eq t.isLt (show cfg0.N = 98 from N_0)
  have hmv : win0_0.moved (grid0.coords t) (ix2 r k) = true := (win0_0.moved_iff _ _).mpr (fun a => by
    match a with
    | ⟨0, _⟩ =>
      show r.val < win0_0.xsize (grid0.coords t) 0
      rw [(xsize0_0 t).1]; split <;> omega
    | ⟨1, _⟩ =>
      show k.val < win0_0.xsize (grid0.coords t) 1
      rw [(xsize0_0 t).2]; exact k.isLt)
  unfold Pipeline.Window.fill
  rw [dif_pos hmv]
  unfold iblk
  show (V m c main_arg0 : S50000x256.Idx → EReal) (((cfg0.win 0).blk t).view.emb _) = _
  refine congrArg _ (funext fun a => Fin.ext ?_)
  match a with
  | ⟨0, _⟩ =>
    show win0_0.index t 0 * 512 + 1 * r.val = t.val * 512 + r.val
    rw [(index0_0 t).1]; omega
  | ⟨1, _⟩ =>
    show win0_0.index t 1 * 256 + 1 * k.val = k.val
    rw [(index0_0 t).2]; omega

theorem blockRow1 (c : Dev nD) (t : Fin cfg0.N) (d) (r : Fin 512) (k : Fin 256) (h : t.val * 512 + r.val < 50000) :
    win0_1.fill (grid0.coords t) d (iblk m c 1 t) (ix2 r k) = (V m c main_arg1 : S50000x256.Idx → EReal) (ix2 ⟨t.val * 512 + r.val, h⟩ k) := by
  have hN : t.val < 98 := lt_of_lt_of_eq t.isLt (show cfg0.N = 98 from N_0)
  have hmv : win0_1.moved (grid0.coords t) (ix2 r k) = true := (win0_1.moved_iff _ _).mpr (fun a => by
    match a with
    | ⟨0, _⟩ =>
      show r.val < win0_1.xsize (grid0.coords t) 0
      rw [(xsize0_1 t).1]; split <;> omega
    | ⟨1, _⟩ =>
      show k.val < win0_1.xsize (grid0.coords t) 1
      rw [(xsize0_1 t).2]; exact k.isLt)
  unfold Pipeline.Window.fill
  rw [dif_pos hmv]
  unfold iblk
  show (V m c main_arg1 : S50000x256.Idx → EReal) (((cfg0.win 1).blk t).view.emb _) = _
  refine congrArg _ (funext fun a => Fin.ext ?_)
  match a with
  | ⟨0, _⟩ =>
    show win0_1.index t 0 * 512 + 1 * r.val = t.val * 512 + r.val
    rw [(index0_1 t).1]; omega
  | ⟨1, _⟩ =>
    show win0_1.index t 1 * 256 + 1 * k.val = k.val
    rw [(index0_1 t).2]; omega

/-- The tables' blocks are the whole tables. -/
theorem block2 (c : Dev nD) (t : Fin cfg0.N) : (iblk m c 2 t : S512x256.Idx → EReal) = (V m c main_v4 : S512x256.Idx → EReal) := by
  funext y
  unfold iblk
  show (V m c main_v4 : S512x256.Idx → EReal) (((cfg0.win 2).blk t).view.emb y) = _
  refine congrArg _ (funext fun a => Fin.ext ?_)
  match a with
  | ⟨0, _⟩ =>
    show win0_2.index t 0 * 512 + 1 * (y 0).val = (y 0).val
    rw [(index0_2 t).1]; omega
  | ⟨1, _⟩ =>
    show win0_2.index t 1 * 256 + 1 * (y 1).val = (y 1).val
    rw [(index0_2 t).2]; omega
theorem block3 (c : Dev nD) (t : Fin cfg0.N) : (iblk m c 3 t : S512x256.Idx → EReal) = (V m c main_v9 : S512x256.Idx → EReal) := by
  funext y
  unfold iblk
  show (V m c main_v9 : S512x256.Idx → EReal) (((cfg0.win 3).blk t).view.emb y) = _
  refine congrArg _ (funext fun a => Fin.ext ?_)
  match a with
  | ⟨0, _⟩ =>
    show win0_3.index t 0 * 512 + 1 * (y 0).val = (y 0).val
    rw [(index0_3 t).1]; omega
  | ⟨1, _⟩ =>
    show win0_3.index t 1 * 256 + 1 * (y 1).val = (y 1).val
    rw [(index0_3 t).2]; omega

/-- The word columns' blocks: row r of tile t is row 512·t + r of the padded column. -/
theorem blockRow4 (c : Dev nD) (t : Fin cfg0.N) (r : Fin 512) :
    (iblk m c 4 t : S512x1.Idx → BitVec 32) (ix2 r 0) = (V m c main_v12 : S50176x1.Idx → BitVec 32) (ix2 ⟨t.val * 512 + r.val, by have := lt_of_lt_of_eq t.isLt (show cfg0.N = 98 from N_0); omega⟩ 0) := by
  unfold iblk
  show (V m c main_v12 : S50176x1.Idx → BitVec 32) (((cfg0.win 4).blk t).view.emb _) = _
  refine congrArg _ (funext fun a => Fin.ext ?_)
  match a with
  | ⟨0, _⟩ =>
    show win0_4.index t 0 * 512 + 1 * r.val = t.val * 512 + r.val
    rw [(index0_4 t).1]; omega
  | ⟨1, _⟩ =>
    show win0_4.index t 1 * 1 + 1 * 0 = 0
    rw [(index0_4 t).2]
theorem blockRow5 (c : Dev nD) (t : Fin cfg0.N) (r : Fin 512) :
    (iblk m c 5 t : S512x1.Idx → BitVec 32) (ix2 r 0) = (V m c main_v13 : S50176x1.Idx → BitVec 32) (ix2 ⟨t.val * 512 + r.val, by have := lt_of_lt_of_eq t.isLt (show cfg0.N = 98 from N_0); omega⟩ 0) := by
  unfold iblk
  show (V m c main_v13 : S50176x1.Idx → BitVec 32) (((cfg0.win 5).blk t).view.emb _) = _
  refine congrArg _ (funext fun a => Fin.ext ?_)
  match a with
  | ⟨0, _⟩ =>
    show win0_5.index t 0 * 512 + 1 * r.val = t.val * 512 + r.val
    rw [(index0_5 t).1]; omega
  | ⟨1, _⟩ =>
    show win0_5.index t 1 * 1 + 1 * 0 = 0
    rw [(index0_5 t).2]

end Cert.KernelIdeal.Body

end
-- ==== Proof.Spec.lean ====
/-
  The two programs, row by row, as functions of plain data.

  A row is 256 extended reals z with a batch word b; a table is 512 rows of 256 (a normalised g). Each program turns a row
  and two tables (the branch's own and the other branch's) into one number d, and the result is the Euclidean norm of
  the 50000 d's of branch one plus that of branch two.

  The kernel: scale the row by rsqrt(max(Σz², κ)); take its 512 similarities with a table; keep the one whose column
  index is the word b (a sum of 512 selects against zero); map s ↦ L − softplus(−s) with softplus spelt
  max(y,0) + log1p(exp(−|y|)) behind a guard that never fires; subtract the two tables' values.
  The reference: divide the row by max(D, √Σz²); take the similarities; multiply each by the one-hot of b; map every
  entry by the same s ↦ L − softplus(−s); sum the 512 entries; subtract the two tables' sums.
  Each definition below follows its program's own order of operations, so that reading a program at an index lands on it.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx
open scoped BigOperators

/-- A table: 512 rows of 256. -/
abbrev Tbl := (⟨2, ![512, 256]⟩ : Shape).Idx → EReal
/-- A row. -/
abbrev Row := Fin 256 → EReal

/-- The kernel's floor under the sum of squares, as its name reads it: the square of the reference's floor. -/
def κv : EReal := ((5316911940649 / 5316911983139663491615228241121378304 : ℝ) : EReal)
/-- The reference's floor under the norm: the f32 word of 1e-12. -/
def Dv : EReal := Ideal.ofBits .f32 0x2B8CBCCC#32
/-- The f32 word of log 2. -/
def Lv : EReal := Ideal.ofBits .f32 0x3F317218#32

def sq (x : EReal) : EReal := x * x

/-- Sum of squares of a row. -/
def ssq (z : Row) : EReal := ∑ k : Fin 256, z k * z k

/-! ## The kernel's row -/

def znK (z : Row) (k : Fin 256) : EReal := z k * Ideal.rsqrt (max (ssq z) κv)
def simK (z : Row) (G : Tbl) (g : Fin 512) : EReal := ∑ k : Fin 256, znK z k * G (ix2 g k)
/-- The similarity at the column the word names: 512 selects against zero, summed. -/
def selK (b : BitVec 32) (f : Fin 512 → EReal) : EReal :=
  ∑ g : Fin 512, Scalar.select (IntOp.cmpi .eq (BitVec.ofNat 32 g.val) b) (f g) (0 : EReal)
def spK (y : EReal) : EReal :=
  Scalar.select (Ideal.cmp .one (y - 0) (y - 0)) (y + 0) (max y 0 + Ideal.log1p (Ideal.exp (0 - max (y - 0) (-(y - 0)))))
def epK (s : EReal) : EReal := Lv - spK (0 - s)
def dKrow (z : Row) (b : BitVec 32) (Gs Gc : Tbl) : EReal := epK (selK b (simK z Gs)) - epK (selK b (simK z Gc))

/-! ## The reference's row -/

def znR (z : Row) (k : Fin 256) : EReal := Ideal.div (z k) (max Dv (Ideal.sqrt (ssq z)))
def simR (z : Row) (G : Tbl) (g : Fin 512) : EReal := ∑ k : Fin 256, znR z k * G (ix2 g k)
/-- The one-hot of the word at column g, as a float. -/
def ohR (b : BitVec 32) (g : Fin 512) : EReal := FloatOps.uitofp (F := Ideal) .f32 (IntOp.cmpi .eq b (BitVec.ofNat 32 g.val))
def spR (y : EReal) : EReal :=
  Scalar.select (Ideal.cmp .une (y - 0) (y - 0)) (y + 0) (max y 0 + Ideal.log1p (Ideal.exp (-(max (y - 0) (-(y - 0))))))
def epR (x : EReal) : EReal := Lv - spR (-x)
def dRrow (z : Row) (b : BitVec 32) (Gs Gc : Tbl) : EReal :=
  (∑ g : Fin 512, epR (simR z Gs g * ohR b g)) - (∑ g : Fin 512, epR (simR z Gc g * ohR b g))

/-- A table normalised row by row, as both programs' host code does it. -/
def gn (G : Tbl) : Tbl := fun i => Ideal.div (G i) (max Dv (Ideal.sqrt (ssq (fun k => G (ix2 (i 0) k)))))

/-- The reference's result from the argument arrays. -/
def resR (Z1 Z2 : (⟨2, ![50000, 256]⟩ : Shape).Idx → EReal) (G1 G2 : Tbl) (B1 B2 : (⟨1, ![50000]⟩ : Shape).Idx → BitVec 32) : EReal :=
  Ideal.sqrt (∑ r : Fin 50000, sq (dRrow (fun k => Z1 (ix2 r k)) (B1 (ix1 r)) (gn G1) (gn G2)))
    + Ideal.sqrt (∑ r : Fin 50000, sq (dRrow (fun k => Z2 (ix2 r k)) (B2 (ix1 r)) (gn G2) (gn G1)))

/-- The kernel's result from the argument arrays: the same two norms, each branch's sum of squares taken per core
    (two cores), per tile (49 tiles a core), per row of the tile (512 rows, those past row 49999 masked). -/
def tileK (Z : (⟨2, ![50000, 256]⟩ : Shape).Idx → EReal) (B : (⟨1, ![50000]⟩ : Shape).Idx → BitVec 32) (Gs Gc : Tbl) (i : ℕ) : EReal :=
  ∑ r : Fin 512, if h : i * 512 + r.val < 50000 then sq (dKrow (fun k => Z (ix2 ⟨i * 512 + r.val, h⟩ k)) (B (ix1 ⟨i * 512 + r.val, h⟩)) Gs Gc) else 0
def coreK (Z : (⟨2, ![50000, 256]⟩ : Shape).Idx → EReal) (B : (⟨1, ![50000]⟩ : Shape).Idx → BitVec 32) (Gs Gc : Tbl) (c : ℕ) : EReal :=
  ∑ k : Fin 49, tileK Z B Gs Gc (c * 49 + k.val)
def resK (Z1 Z2 : (⟨2, ![50000, 256]⟩ : Shape).Idx → EReal) (G1 G2 : Tbl) (B1 B2 : (⟨1, ![50000]⟩ : Shape).Idx → BitVec 32) : EReal :=
  Ideal.sqrt (coreK Z1 B1 (gn G1) (gn G2) 0 + coreK Z1 B1 (gn G1) (gn G2) 1)
    + Ideal.sqrt (coreK Z2 B2 (gn G2) (gn G1) 0 + coreK Z2 B2 (gn G2) (gn G1) 1)

end Cert.Loss

end
-- ==== Proof.IdealValue.lean ====
/-
  The kernel program's run over the extended reals with every value named.

  Branch one's accumulator after tile n of its core's 49 is the sum, over the core's tiles up to n, of the tile's masked
  sum of squared per-row differences — the rows read off the arrays: a row of a tile that exists in the array is that
  row of the array whatever the tile's buffer held below the array's end, and a row that does not exist is masked, so
  the total does not depend on those contents. Branch two's likewise. At a core's last tile the two totals are copied,
  broadcast, to the core's blocks of the two result arrays.

  The arithmetic of one tile (that the printed operations on a tile's buffers compute the masked sum of squares of
  the per-row differences) is taken here as two hypotheses, stated once, and proved where the printed operations
  are read at an index.
-/
import proofs.«100524_j49959059587771_2_alg».proof.Proof.IdealBlocks
import proofs.«100524_j49959059587771_2_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Loss Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-- One tile's arithmetic, branch one: the accumulator gains the masked sum of squared per-row differences. -/
def Pay2Law : Prop := ∀ (v1 : BitVec 32) (_ : v1.toNat < 98) (x0 : Vec Ideal S512x256 .f32) (x2 x3 : Vec Ideal S512x256 .bf16)
    (x4 : Vec Ideal S512x1 .i32) (a : Vec Ideal S1x1 .f32) (j : S1x1.Idx),
    acc1w (F := Ideal) v1 x0 x2 x3 x4 a j
      = a j + ∑ r : Fin 512, if v1.toNat * 512 + r.val < 50000 then sq (dKrow (fun k => x0 (ix2 r k)) (x4 (ix2 r 0)) x2 x3) else 0
/-- Branch two (its own table is the second). -/
def Pay3Law : Prop := ∀ (v1 : BitVec 32) (_ : v1.toNat < 98) (x1 : Vec Ideal S512x256 .f32) (x2 x3 : Vec Ideal S512x256 .bf16)
    (x5 : Vec Ideal S512x1 .i32) (a : Vec Ideal S1x1 .f32) (j : S1x1.Idx),
    acc2w (F := Ideal) v1 x1 x2 x3 x5 a j
      = a j + ∑ r : Fin 512, if v1.toNat * 512 + r.val < 50000 then sq (dKrow (fun k => x1 (ix2 r k)) (x5 (ix2 r 0)) x3 x2) else 0

/-! ## The tiles' sums and the accumulators, from the arrays -/

/-- Tile n's masked sum of squared differences, branch one: rows 512·n … of z1, the padded first word column, the two
    normalised tables as the launch finds them. -/
def T1 (c : Dev nD) (n : ℕ) : EReal :=
  ∑ r : Fin 512, if h : n * 512 + r.val < 50000 then
    sq (dKrow (fun k => (V m c main_arg0 : S50000x256.Idx → EReal) (ix2 ⟨n * 512 + r.val, h⟩ k))
      ((V m c main_v12 : S50176x1.Idx → BitVec 32) (ix2 ⟨n * 512 + r.val, by omega⟩ 0)) (V m c main_v4) (V m c main_v9)) else 0
/-- Branch two: z2, the second word column, the tables the other way round. -/
def T2 (c : Dev nD) (n : ℕ) : EReal :=
  ∑ r : Fin 512, if h : n * 512 + r.val < 50000 then
    sq (dKrow (fun k => (V m c main_arg1 : S50000x256.Idx → EReal) (ix2 ⟨n * 512 + r.val, h⟩ k))
      ((V m c main_v13 : S50176x1.Idx → BitVec 32) (ix2 ⟨n * 512 + r.val, by omega⟩ 0)) (V m c main_v9) (V m c main_v4)) else 0

/-- The accumulators after tile n: the core's tiles up to n, summed. -/
def acc1 (c : Dev nD) (n : ℕ) : EReal := ∑ k ∈ Finset.range (n % 49 + 1), T1 m c (n / 49 * 49 + k)
def acc2 (c : Dev nD) (n : ℕ) : EReal := ∑ k ∈ Finset.range (n % 49 + 1), T2 m c (n / 49 * 49 + k)

theorem acc1_first (c : Dev nD) (n : ℕ) (h : n % 49 = 0) : acc1 m c n = 0 + T1 m c n := by
  unfold acc1
  rw [h, Finset.sum_range_one, zero_add]
  congr 1; omega
theorem acc2_first (c : Dev nD) (n : ℕ) (h : n % 49 = 0) : acc2 m c n = 0 + T2 m c n := by
  unfold acc2
  rw [h, Finset.sum_range_one, zero_add]
  congr 1; omega
theorem acc1_next (c : Dev nD) (n : ℕ) (h : ¬n % 49 = 0) : acc1 m c n = acc1 m c (n - 1) + T1 m c n := by
  unfold acc1
  have e1 : (n - 1) % 49 + 1 = n % 49 := by omega
  have e2 : (n - 1) / 49 = n / 49 := by omega
  have e3 : n / 49 * 49 + n % 49 = n := by omega
  rw [Finset.sum_range_succ, e2, e1, e3]
theorem acc2_next (c : Dev nD) (n : ℕ) (h : ¬n % 49 = 0) : acc2 m c n = acc2 m c (n - 1) + T2 m c n := by
  unfold acc2
  have e1 : (n - 1) % 49 + 1 = n % 49 := by omega
  have e2 : (n - 1) / 49 = n / 49 := by omega
  have e3 : n / 49 * 49 + n % 49 = n := by omega
  rw [Finset.sum_range_succ, e2, e1, e3]

/-- A tile's masked sum read off its buffers is the tile's sum read off the arrays, whatever lies below the array's end. -/
theorem tile1_eq (c : Dev nD) (t : Fin cfg0.N) (d) :
    (∑ r : Fin 512, if t.val * 512 + r.val < 50000 then
      sq (dKrow (fun k => win0_0.fill (grid0.coords t) d (iblk m c 0 t) (ix2 r k)) ((iblk m c 4 t : S512x1.Idx → BitVec 32) (ix2 r 0))
        (iblk m c 2 t : S512x256.Idx → EReal) (iblk m c 3 t : S512x256.Idx → EReal)) else 0) = T1 m c t.val := by
  unfold T1
  refine Finset.sum_congr rfl fun r _ => ?_
  by_cases h : t.val * 512 + r.val < 50000
  · rw [if_pos h, dif_pos h, block2, block3, blockRow4]
    congr 2
    funext k
    exact blockRow0 m c t d r k h
  · rw [if_neg h, dif_neg h]
theorem tile2_eq (c : Dev nD) (t : Fin cfg0.N) (d) :
    (∑ r : Fin 512, if t.val * 512 + r.val < 50000 then
      sq (dKrow (fun k => win0_1.fill (grid0.coords t) d (iblk m c 1 t) (ix2 r k)) ((iblk m c 5 t : S512x1.Idx → BitVec 32) (ix2 r 0))
        (iblk m c 3 t : S512x256.Idx → EReal) (iblk m c 2 t : S512x256.Idx → EReal)) else 0) = T2 m c t.val := by
  unfold T2
  refine Finset.sum_congr rfl fun r _ => ?_
  by_cases h : t.val * 512 + r.val < 50000
  · rw [if_pos h, dif_pos h, block2, block3, blockRow5]
    congr 2
    funext k
    exact blockRow1 m c t d r k h
  · rw [if_neg h, dif_neg h]

theorem pay6_apply (j : S1x1.Idx) : k0_pay6 (F := Ideal) j = 0 := by
  unfold k0_pay6; exact Ideal.ofBits_zero_f32
theorem pay7_apply (j : S1x1.Idx) : k0_pay7 (F := Ideal) j = 0 := by
  unfold k0_pay7; exact Ideal.ofBits_zero_f32
/-- A broadcast of a constant block is the constant. -/
theorem pay4_const (a : EReal) : k0_pay4 (F := Ideal) (fun _ => a) = fun _ => a := by
  funext j; unfold k0_pay4; rfl
theorem pay5_const (a : EReal) : k0_pay5 (F := Ideal) (fun _ => a) = fun _ => a := by
  funext j; unfold k0_pay5; rfl

section Laws
variable (hp2 : Pay2Law) (hp3 : Pay3Law)
include hp2 in
theorem scr0_next (c : Dev nD) (t : Fin cfg0.N) (d) (h0 : ¬t.val % 49 = 0) :
    acc1t (F := Ideal) (grid0.coords t) (win0_0.fill (grid0.coords t) d (iblk m c 0 t)) (iblk m c 2 t) (iblk m c 3 t) (iblk m c 4 t) (fun _ => acc1 m c (t.val - 1))
      = fun _ => acc1 m c t.val := by
  have hN : t.val < 98 := lt_of_lt_of_eq t.isLt (show cfg0.N = 98 from N_0)
  have hw : (tileWord (grid0.coords t)).toNat < 98 := by rw [tileWord_toNat]; exact hN
  funext j
  refine (hp2 (tileWord (grid0.coords t)) hw (win0_0.fill (grid0.coords t) d (iblk m c 0 t)) (iblk m c 2 t) (iblk m c 3 t) (iblk m c 4 t) (fun _ => acc1 m c (t.val - 1)) j).trans ?_
  rw [tileWord_toNat, acc1_next m c _ h0]
  exact congrArg (fun x => acc1 m c (t.val - 1) + x) (tile1_eq m c t d)
include hp2 in
theorem scr0_first (c : Dev nD) (t : Fin cfg0.N) (d) (h0 : t.val % 49 = 0) :
    acc1t (F := Ideal) (grid0.coords t) (win0_0.fill (grid0.coords t) d (iblk m c 0 t)) (iblk m c 2 t) (iblk m c 3 t) (iblk m c 4 t) (k0_pay6 (F := Ideal))
      = fun _ => acc1 m c t.val := by
  have hN : t.val < 98 := lt_of_lt_of_eq t.isLt (show cfg0.N = 98 from N_0)
  have hw : (tileWord (grid0.coords t)).toNat < 98 := by rw [tileWord_toNat]; exact hN
  funext j
  refine (hp2 (tileWord (grid0.coords t)) hw (win0_0.fill (grid0.coords t) d (iblk m c 0 t)) (iblk m c 2 t) (iblk m c 3 t) (iblk m c 4 t) (k0_pay6 (F := Ideal)) j).trans ?_
  rw [tileWord_toNat, acc1_first m c _ h0, pay6_apply]
  exact congrArg (fun x => (0 : EReal) + x) (tile1_eq m c t d)
include hp3 in
theorem scr1_next (c : Dev nD) (t : Fin cfg0.N) (d) (h0 : ¬t.val % 49 = 0) :
    acc2t (F := Ideal) (grid0.coords t) (win0_1.fill (grid0.coords t) d (iblk m c 1 t)) (iblk m c 2 t) (iblk m c 3 t) (iblk m c 5 t) (fun _ => acc2 m c (t.val - 1))
      = fun _ => acc2 m c t.val := by
  have hN : t.val < 98 := lt_of_lt_of_eq t.isLt (show cfg0.N = 98 from N_0)
  have hw : (tileWord (grid0.coords t)).toNat < 98 := by rw [tileWord_toNat]; exact hN
  funext j
  refine (hp3 (tileWord (grid0.coords t)) hw (win0_1.fill (grid0.coords t) d (iblk m c 1 t)) (iblk m c 2 t) (iblk m c 3 t) (iblk m c 5 t) (fun _ => acc2 m c (t.val - 1)) j).trans ?_
  rw [tileWord_toNat, acc2_next m c _ h0]
  exact congrArg (fun x => acc2 m c (t.val - 1) + x) (tile2_eq m c t d)
include hp3 in
theorem scr1_first (c : Dev nD) (t : Fin cfg0.N) (d) (h0 : t.val % 49 = 0) :
    acc2t (F := Ideal) (grid0.coords t) (win0_1.fill (grid0.coords t) d (iblk m c 1 t)) (iblk m c 2 t) (iblk m c 3 t) (iblk m c 5 t) (k0_pay7 (F := Ideal))
      = fun _ => acc2 m c t.val := by
  have hN : t.val < 98 := lt_of_lt_of_eq t.isLt (show cfg0.N = 98 from N_0)
  have hw : (tileWord (grid0.coords t)).toNat < 98 := by rw [tileWord_toNat]; exact hN
  funext j
  refine (hp3 (tileWord (grid0.coords t)) hw (win0_1.fill (grid0.coords t) d (iblk m c 1 t)) (iblk m c 2 t) (iblk m c 3 t) (iblk m c 5 t) (k0_pay7 (F := Ideal)) j).trans ?_
  rw [tileWord_toNat, acc2_first m c _ h0, pay7_apply]
  exact congrArg (fun x => (0 : EReal) + x) (tile2_eq m c t d)
include hp2 in
theorem out6_eq (c : Dev nD) (t : Fin cfg0.N) (d) (h0 : ¬t.val % 49 = 0) :
    k0_pay4 (F := Ideal) (acc1t (F := Ideal) (grid0.coords t) (win0_0.fill (grid0.coords t) d (iblk m c 0 t)) (iblk m c 2 t) (iblk m c 3 t) (iblk m c 4 t) (fun _ => acc1 m c (t.val - 1)))
      = fun _ => acc1 m c t.val := by
  rw [scr0_next m hp2 c t d h0, pay4_const]
include hp3 in
theorem out7_eq (c : Dev nD) (t : Fin cfg0.N) (d) (h0 : ¬t.val % 49 = 0) :
    k0_pay5 (F := Ideal) (acc2t (F := Ideal) (grid0.coords t) (win0_1.fill (grid0.coords t) d (iblk m c 1 t)) (iblk m c 2 t) (iblk m c 3 t) (iblk m c 5 t) (fun _ => acc2 m c (t.val - 1)))
      = fun _ => acc2 m c t.val := by
  rw [scr1_next m hp3 c t d h0, pay5_const]
end Laws

/-! ## The proof data -/

/-- The region invariant before position n: at the start the launch's own; afterwards the two accumulators at the
    totals the point before left. -/
def PhiS (c : Dev nD) : (n : ℕ) → n ≤ cfg0.N → sProp 𝕄
  | 0, _ => Pipeline.ΦA spec0 c
  | n + 1, _ => iprop(iprop(owns (c : Thread nD τ) scM0_0 fullShare (fun _ => acc1 m c n) ∗ owns (c : Thread nD τ) scM0_1 fullShare (fun _ => acc2 m c n)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (fun _ => acc1 m c n) ∗ owns (c : Thread nD τ) scM0_1 fullShare (fun _ => acc2 m c n)) ∗ (∃ r, prngReg c r)) := rfl
theorem PhiS_pos (c : Dev nD) (n : ℕ) (h : n ≤ cfg0.N) (hz : n ≠ 0) :
    PhiS m c n h = iprop(iprop(owns (c : Thread nD τ) scM0_0 fullShare (fun _ => acc1 m c (n - 1)) ∗ owns (c : Thread nD τ) scM0_1 fullShare (fun _ => acc2 m c (n - 1))) ∗ (∃ r, prngReg c r)) := by
  cases n with
  | zero => exact absurd rfl hz
  | succ n => rfl

/-- The proof data with every value named: the inputs as for the frame; the two result windows at the core's totals;
    the accumulators in the invariant. -/
def vdats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => win0_1.fill (grid0.coords t) (fun _ => Classical.arbitrary _) (iblk m c 1 t)
    | ⟨2, _⟩ => iblk m c 2 t
    | ⟨3, _⟩ => iblk m c 3 t
    | ⟨4, _⟩ => iblk m c 4 t
    | ⟨5, _⟩ => iblk m c 5 t
    | ⟨6, _⟩ => fun _ => acc1 m c t.val
    | ⟨7, _⟩ => fun _ => acc2 m c t.val
  Φ t := PhiS m c t.val (Nat.le_of_lt_succ t.isLt)
  q _ := fullShare
  owed _ := 0

theorem vA_eq (c : Dev nD) (w : Fin cfg0.W) : (vdats m 0 c).A w = V m c (Pipeline.arrRef spec0 w) := by
  dsimp only [vdats]
theorem vPhiS_castSucc (c : Dev nD) (t : Fin cfg0.N) :
    (vdats m 0 c).Φ t.castSucc = PhiS m c t.val (Nat.le_of_lt t.isLt) := by
  dsimp only [vdats]; simp only [Fin.coe_castSucc]

theorem vafter0_0 (c : Dev nD) (t : Fin cfg0.N) : (vdats m 0 c).after 0 t = win0_0.fill (grid0.coords t) (fun _ => Classical.arbitrary _) (iblk m c 0 t) := by dsimp only [vdats]
theorem vafter0_1 (c : Dev nD) (t : Fin cfg0.N) : (vdats m 0 c).after 1 t = win0_1.fill (grid0.coords t) (fun _ => Classical.arbitrary _) (iblk m c 1 t) := by dsimp only [vdats]
theorem vafter0_2 (c : Dev nD) (t : Fin cfg0.N) : (vdats m 0 c).after 2 t = iblk m c 2 t := by dsimp only [vdats]
theorem vafter0_3 (c : Dev nD) (t : Fin cfg0.N) : (vdats m 0 c).after 3 t = iblk m c 3 t := by dsimp only [vdats]
theorem vafter0_4 (c : Dev nD) (t : Fin cfg0.N) : (vdats m 0 c).after 4 t = iblk m c 4 t := by dsimp only [vdats]
theorem vafter0_5 (c : Dev nD) (t : Fin cfg0.N) : (vdats m 0 c).after 5 t = iblk m c 5 t := by dsimp only [vdats]
theorem vafter0_6 (c : Dev nD) (t : Fin cfg0.N) : (vdats m 0 c).after 6 t = fun _ => acc1 m c t.val := by dsimp only [vdats]
theorem vafter0_7 (c : Dev nD) (t : Fin cfg0.N) : (vdats m 0 c).after 7 t = fun _ => acc2 m c t.val := by dsimp only [vdats]

theorem vbefore0_0 (c : Dev nD) (t : Fin cfg0.N) (d) :
    (vdats m 0 c).before 0 t d = win0_0.fill (grid0.coords t) d (iblk m c 0 t) := by
  unfold Dat.before; rw [if_pos (fetch0_0 t)]; rfl
theorem vbefore0_1 (c : Dev nD) (t : Fin cfg0.N) (d) :
    (vdats m 0 c).before 1 t d = win0_1.fill (grid0.coords t) d (iblk m c 1 t) := by
  unfold Dat.before; rw [if_pos (fetch0_1 t)]; rfl
theorem vbefore0_2 (c : Dev nD) (t : Fin cfg0.N) (d) : (vdats m 0 c).before 2 t d = iblk m c 2 t :=
  before0_2_of m (vdats m 0 c) (vA_eq m c 2) (vafter0_2 m c) t d
theorem vbefore0_3 (c : Dev nD) (t : Fin cfg0.N) (d) : (vdats m 0 c).before 3 t d = iblk m c 3 t :=
  before0_3_of m (vdats m 0 c) (vA_eq m c 3) (vafter0_3 m c) t d
theorem vbefore0_4 (c : Dev nD) (t : Fin cfg0.N) (d) : (vdats m 0 c).before 4 t d = iblk m c 4 t :=
  before0_4_of m (vdats m 0 c) (vA_eq m c 4) (vafter0_4 m c) t d
theorem vbefore0_5 (c : Dev nD) (t : Fin cfg0.N) (d) : (vdats m 0 c).before 5 t d = iblk m c 5 t :=
  before0_5_of m (vdats m 0 c) (vA_eq m c 5) (vafter0_5 m c) t d

/-! ## The body obligation -/

def vbodyPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d))
    ∗ (∃ d, owns (c : Thread nD τ) (ms0_7 t) fullShare ((vdats m 0 c).before 7 t d)))

def vbodyPost (c : Dev nD) (t : Fin cfg0.N) : sProp 𝕄 :=
  iprop((vdats m 0 c).Φ t.succ ∗ (vdats m 0 c).owesAt () t.succ
    ∗ (∃ d, owns (c : Thread nD τ) (ms0_0 t) fullShare (win0_0.fill (grid0.coords t) d (win0_0.cut (grid0.coords t) ((vdats m 0 c).after 0 t))))
    ∗ (∃ d, owns (c : Thread nD τ) (ms0_1 t) fullShare (win0_1.fill (grid0.coords t) d (win0_1.cut (grid0.coords t) ((vdats m 0 c).after 1 t))))
    ∗ owns (c : Thread nD τ) (ms0_2 t) fullShare ((vdats m 0 c).after 2 t)
    ∗ owns (c : Thread nD τ) (ms0_3 t) fullShare ((vdats m 0 c).after 3 t)
    ∗ owns (c : Thread nD τ) (ms0_4 t) fullShare ((vdats m 0 c).after 4 t)
    ∗ owns (c : Thread nD τ) (ms0_5 t) fullShare ((vdats m 0 c).after 5 t)
    ∗ (vdats m 0 c).leaves 6 t
    ∗ (vdats m 0 c).leaves 7 t)

section Obligation
variable (hp2 : Pay2Law) (hp3 : Pay3Law)

set_option maxHeartbeats 4800000 in
include hp2 hp3 in
/-- The body at any point: the run of the point's case; the accumulators go in at the totals the point before left (at
    anything at the very first point, and at a core's first tile they are reset) and come out at this point's totals. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [vbefore0_0, vbefore0_1, vbefore0_2, vbefore0_3, vbefore0_4, vbefore0_5]
  rw [vafter0_0, vafter0_1, vafter0_2, vafter0_3, vafter0_4, vafter0_5, Pipeline.Window.cut_fill, Pipeline.Window.cut_fill]
  rw [show (vdats m 0 c).owesAt () t.succ = (vdats m 0 c).owesAt () t.castSucc from rfl]
  rw [show (vdats m 0 c).Φ t.succ = PhiS m c (t.val + 1) t.isLt from rfl, PhiS_succ]
  have hN : t.val < 98 := lt_of_lt_of_eq t.isLt (show cfg0.N = 98 from N_0)
  by_cases h0 : t.val % 49 = 0
  · have h1 : ¬t.val % 49 = 48 := by omega
    rw [Dat.leaves_idle (vdats m 0 c) 6 t (idleAt0_6 t (fun h => h1 ((hcond0_1 t).mp h))) (noFlush0_6 t (fun h => h1 ((hcond0_1 t).mp h)))]
    rw [Dat.leaves_idle (vdats m 0 c) 7 t (idleAt0_7 t (fun h => h1 ((hcond0_1 t).mp h))) (noFlush0_7 t (fun h => h1 ((hcond0_1 t).mp h)))]
    by_cases hz : t.val = 0
    · rw [vPhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A (F := Ideal) c (grid0.coords t) _ _ _ _ _ _ _ _ _ _ _ _ _ _ _ _ _ _ _ _ ((hcond0_0 t).mpr h0) (fun h => h1 ((hcond0_1 t).mp h))
        (win0_0.fill (grid0.coords t) d0 (iblk m c 0 t)) (win0_1.fill (grid0.coords t) d1 (iblk m c 1 t)) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro
            exact (left_A_0 (F := Ideal) c (grid0.coords t) _ _ _ _ _ _ _ _ _ _ _ _ _ _ _ _ _ _ _ _ ((hcond0_0 t).mpr h0) (fun h => h1 ((hcond0_1 t).mp h)) _ _ _ _ _ _ _).trans (scr0_first m hp2 c t d0 h0)
          · unfold owns; iexists _; isplitr
            swap; · iexact HS1
            ipureintro
            exact (left_A_1 (F := Ideal) c (grid0.coords t) _ _ _ _ _ _ _ _ _ _ _ _ _ _ _ _ _ _ _ _ ((hcond0_0 t).mpr h0) (fun h => h1 ((hcond0_1 t).mp h)) _ _ _ _ _ _ _).trans (scr1_first m hp3 c t d1 h0)
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · iexists _; iexact H6
      · iexists _; iexact H7
    · rw [vPhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A (F := Ideal) c (grid0.coords t) _ _ _ _ _ _ _ _ _ _ _ _ _ _ _ _ _ _ _ _ ((hcond0_0 t).mpr h0) (fun h => h1 ((hcond0_1 t).mp h))
        (win0_0.fill (grid0.coords t) d0 (iblk m c 0 t)) (win0_1.fill (grid0.coords t) d1 (iblk m c 1 t)) (iblk m c 2 t) (iblk m c 3 t) (iblk m c 4 t) (iblk m c 5 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro
            exact (left_A_0 (F := Ideal) c (grid0.coords t) _ _ _ _ _ _ _ _ _ _ _ _ _ _ _ _ _ _ _ _ ((hcond0_0 t).mpr h0) (fun h => h1 ((hcond0_1 t).mp h)) _ _ _ _ _ _ _).trans (scr0_first m hp2 c t d0 h0)
          · unfold owns; iexists _; isplitr
            swap; · iexact HS1
            ipureintro
            exact (left_A_1 (F := Ideal) c (grid0.coords t) _ _ _ _ _ _ _ _ _ _ _ _ _ _ _ _ _ _ _ _ ((hcond0_0 t).mpr h0) (fun h => h1 ((hcond0_1 t).mp h)) _ _ _ _ _ _ _).trans (scr1_first m hp3 c t d1 h0)
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · iexists _; iexact H6
      · iexists _; iexact H7
  · have hz : t.val ≠ 0 := fun e => h0 (by rw [e])
    rw [vPhiS_castSucc m c t, PhiS_pos m c _ _ hz]
    by_cases h1 : t.val % 49 = 48
    · rw [show (vdats m 0 c).leaves 6 t = owns (c : Thread nD τ) (ms0_6 t) fullShare ((vdats m 0 c).after 6 t) from by
        unfold Dat.leaves; rw [liveAt0_6 t ((hcond0_1 t).mpr h1)]]
      rw [show (vdats m 0 c).leaves 7 t = owns (c : Thread nD τ) (ms0_7 t) fullShare ((vdats m 0 c).after 7 t) from by
        unfold Dat.leaves; rw [liveAt0_7 t ((hcond0_1 t).mpr h1)]]
      rw [vafter0_6, vafter0_7]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C (F := Ideal) c (grid0.coords t) _ _ _ _ _ _ _ _ _ _ _ _ _ _ _ _ _ _ _ _ (fun h => h0 ((hcond0_0 t).mp h)) ((hcond0_1 t).mpr h1)
        (win0_0.fill (grid0.coords t) d0 (iblk m c 0 t)) (win0_1.fill (grid0.coords t) d1 (iblk m c 1 t)) (iblk m c 2 t) (iblk m c 3 t) (iblk m c 4 t) (iblk m c 5 t) (fun _ => acc1 m c (t.val - 1)) (fun _ => acc2 m c (t.val - 1))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro
            exact (left_C_0 (F := Ideal) c (grid0.coords t) _ _ _ _ _ _ _ _ _ _ _ _ _ _ _ _ _ _ _ _ (fun h => h0 ((hcond0_0 t).mp h)) ((hcond0_1 t).mpr h1) _ _ _ _ _ _ _ _ _).trans (scr0_next m hp2 c t d0 h0)
          · unfold owns; iexists _; isplitr
            swap; · iexact HS1
            ipureintro
            exact (left_C_1 (F := Ideal) c (grid0.coords t) _ _ _ _ _ _ _ _ _ _ _ _ _ _ _ _ _ _ _ _ (fun h => h0 ((hcond0_0 t).mp h)) ((hcond0_1 t).mpr h1) _ _ _ _ _ _ _ _ _).trans (scr1_next m hp3 c t d1 h0)
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · unfold owns; iexists _; isplitr
        swap; · iexact H6
        ipureintro
        exact (left_C_6 (F := Ideal) c (grid0.coords t) _ _ _ _ _ _ _ _ _ _ _ _ _ _ _ _ _ _ _ _ (fun h => h0 ((hcond0_0 t).mp h)) ((hcond0_1 t).mpr h1) _ _ _ _ _ _ _ _ _).trans (out6_eq m hp2 c t d0 h0)
      · unfold owns; iexists _; isplitr
        swap; · iexact H7
        ipureintro
        exact (left_C_7 (F := Ideal) c (grid0.coords t) _ _ _ _ _ _ _ _ _ _ _ _ _ _ _ _ _ _ _ _ (fun h => h0 ((hcond0_0 t).mp h)) ((hcond0_1 t).mpr h1) _ _ _ _ _ _ _ _ _).trans (out7_eq m hp3 c t d1 h0)
    · rw [Dat.leaves_idle (vdats m 0 c) 6 t (idleAt0_6 t (fun h => h1 ((hcond0_1 t).mp h))) (noFlush0_6 t (fun h => h1 ((hcond0_1 t).mp h)))]
      rw [Dat.leaves_idle (vdats m 0 c) 7 t (idleAt0_7 t (fun h => h1 ((hcond0_1 t).mp h))) (noFlush0_7 t (fun h => h1 ((hcond0_1 t).mp h)))]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B (F := Ideal) c (grid0.coords t) _ _ _ _ _ _ _ _ _ _ _ _ _ _ _ _ _ _ _ _ (fun h => h0 ((hcond0_0 t).mp h)) (fun h => h1 ((hcond0_1 t).mp h))
        (win0_0.fill (grid0.coords t) d0 (iblk m c 0 t)) (win0_1.fill (grid0.coords t) d1 (iblk m c 1 t)) (iblk m c 2 t) (iblk m c 3 t) (iblk m c 4 t) (iblk m c 5 t) (fun _ => acc1 m c (t.val - 1)) (fun _ => acc2 m c (t.val - 1))).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro
            exact (left_B_0 (F := Ideal) c (grid0.coords t) _ _ _ _ _ _ _ _ _ _ _ _ _ _ _ _ _ _ _ _ (fun h => h0 ((hcond0_0 t).mp h)) (fun h => h1 ((hcond0_1 t).mp h)) _ _ _ _ _ _ _ _ _).trans (scr0_next m hp2 c t d0 h0)
          · unfold owns; iexists _; isplitr
            swap; · iexact HS1
            ipureintro
            exact (left_B_1 (F := Ideal) c (grid0.coords t) _ _ _ _ _ _ _ _ _ _ _ _ _ _ _ _ _ _ _ _ (fun h => h0 ((hcond0_0 t).mp h)) (fun h => h1 ((hcond0_1 t).mp h)) _ _ _ _ _ _ _ _ _).trans (scr1_next m hp3 c t d1 h0)
        · iexact Hg
      isplitl [Ho]; · iexact Ho
      isplitl [H0]; · iexists _; iexact H0
      isplitl [H1]; · iexists _; iexact H1
      isplitl [H2]; · iexact H2
      isplitl [H3]; · iexact H3
      isplitl [H4]; · iexact H4
      isplitl [H5]; · iexact H5
      isplitl [H6]
      · iexists _; iexact H6
      · iexists _; iexact H7

include hp2 hp3 in
theorem vbody_obligation (c : Dev nD) : BodyObligationLoose (vdats m 0 c) (defs₀ (F := Ideal)) Variants.none () Set.univ := fun t => by
  rw [bigSep_W0, bigSep_W0]
  exact vsound_body m hp2 hp3 c t
end Obligation

theorem vhin (c : Dev nD) : Pipeline.ΦA spec0 c ⊢ (vdats m 0 c).Φ 0 := by
  rw [show (vdats m 0 c).Φ 0 = PhiS m c 0 (Nat.zero_le _) from rfl, PhiS_zero m c 0 _ rfl]
  try exact Idealize.SL.BI.Entails.refl _

theorem vhout (c : Dev nD) : (vdats m 0 c).Φ (Fin.last cfg0.N) ⊢ Pipeline.ΦA spec0 c := by
  rw [show (vdats m 0 c).Φ (Fin.last cfg0.N) = PhiS m c (Fin.last cfg0.N).val (Nat.le_of_lt_succ (Fin.last cfg0.N).isLt) from rfl,
    PhiS_pos m c _ _ (by rw [Fin.val_last]; have : cfg0.N = 98 := N_0; omega), PhiA0_eq]
  iintro ⟨⟨HS0, HS1⟩, Hg⟩
  isplitl [HS0 HS1]
  · isplitl [HS0]
    · iexists _; iexact HS0
    · iexists _; iexact HS1
  iexact Hg

set_option backward.isDefEq.respectTransparency.types false in
/-- The run with every array of the launch named after it. -/
theorem vrun_main (hp2 : Pay2Law) (hp3 : Pay3Law) : θ_run defs (onTc (τ := τ) (main (F := Ideal))) (s₀ m ρ)
    (Pipeline.FramePost cfgs (vdats m) 0 (Pipeline.afterTail₀ cfgs (vdats m) 0 (V0 m) [hostOps1])) :=
  Pipeline.θ_run_frame_around_track cfgs (vdats m) (0 : Fin 1) launch0 defs₀ Variants.none m ρ main
    (hbody := fun c => vbody_obligation m hp2 hp3 c) (hshare := fun c => (vdats m 0 c).share_full fun _ => rfl)
    (howed := fun _ _ => rfl) (V₀ := V0 m) (opss := [hostOps1]) (hsub := sfx_sub) (hfresh := sfx_fresh) (hkeep := sfx_keeps)
    (hmain := hmain m Variants.none) (hA := vA_eq m) (hin := vhin m) (hout := vhout m)

end Cert.KernelIdeal.Body

end
-- ==== Proof.IdealFinal.lean ====
/-
  After the launch: each result array holds, in core c's block, core c's total — its 49 tiles' sums — and the host lines
  that follow take entry (0,0,0) of each core's block, add the two cores, take the square root, and add the two
  branches: the program's result is √(total₁(core 0) + total₁(core 1)) + √(total₂(core 0) + total₂(core 1)).
-/
import proofs.«100524_j49959059587771_2_alg».proof.Proof.IdealValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Loss Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-- The result windows' block index at point t is (t / 49, 0, 0). -/
theorem index0_6 : ∀ t : Fin cfg0.N, win0_6.index t 0 = t.val / 49 ∧ win0_6.index t 1 = 0 ∧ win0_6.index t 2 = 0 :=
  (by decide +kernel : ∀ t : Fin grid0.N, win0_6.index t 0 = t.val / 49 ∧ win0_6.index t 1 = 0 ∧ win0_6.index t 2 = 0)
theorem index0_7 : ∀ t : Fin cfg0.N, win0_7.index t 0 = t.val / 49 ∧ win0_7.index t 1 = 0 ∧ win0_7.index t 2 = 0 :=
  (by decide +kernel : ∀ t : Fin grid0.N, win0_7.index t 0 = t.val / 49 ∧ win0_7.index t 1 = 0 ∧ win0_7.index t 2 = 0)

/-- What the result arrays end holding: core y₀'s total at every entry of its block. -/
def G6 (c : Dev nD) : S2x8x128.Idx → EReal := fun y => acc1 m c ((y 0).val * 49 + 48)
def G7 (c : Dev nD) : S2x8x128.Idx → EReal := fun y => acc2 m c ((y 0).val * 49 + 48)

theorem flushed6_eq (c : Dev nD) (t : Fin cfg0.N) (hf : (cfg0.win 6).flush t = true) :
    (vdats m 0 c).flushed 6 t = ((cfg0.win 6).blk t).view.read (Elt Ideal) (G6 m c) := by
  show (cfg0.win 6).cut (grid0.coords t) ((vdats m 0 c).after 6 t) = _
  rw [vafter0_6]
  have h48 := (flush0_6 t).mp hf
  funext j
  show acc1 m c t.val = G6 m c (((cfg0.win 6).blk t).view.emb j)
  unfold G6
  congr 1
  have e : ((((cfg0.win 6).blk t).view.emb j) 0).val = win0_6.index t 0 * 1 + 1 * (j 0).val := rfl
  have hj : (j 0).val < 1 := (j 0).isLt
  rw [e, (index0_6 t).1]; omega
theorem flushed7_eq (c : Dev nD) (t : Fin cfg0.N) (hf : (cfg0.win 7).flush t = true) :
    (vdats m 0 c).flushed 7 t = ((cfg0.win 7).blk t).view.read (Elt Ideal) (G7 m c) := by
  show (cfg0.win 7).cut (grid0.coords t) ((vdats m 0 c).after 7 t) = _
  rw [vafter0_7]
  have h48 := (flush0_7 t).mp hf
  funext j
  show acc2 m c t.val = G7 m c (((cfg0.win 7).blk t).view.emb j)
  unfold G7
  congr 1
  have e : ((((cfg0.win 7).blk t).view.emb j) 0).val = win0_7.index t 0 * 1 + 1 * (j 0).val := rfl
  have hj : (j 0).val < 1 := (j 0).isLt
  rw [e, (index0_7 t).1]; omega

theorem mem_blk6 (t : Fin cfg0.N) (i : S2x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v14_0).slice (win0_6.rect t)).set ↔ _
  rw [View.set_slice_whole, Rect.mem_set_unit]
  exact Iff.rfl
theorem mem_blk7 (t : Fin cfg0.N) (i : S2x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v14_1).slice (win0_7.rect t)).set ↔ _
  rw [View.set_slice_whole, Rect.mem_set_unit]
  exact Iff.rfl

theorem cover6 (i : S2x8x128.Idx) : ∃ t : Fin cfg0.N, (cfg0.win 6).flush t = true ∧ i ∈ ((cfg0.win 6).blk t).view.set := by
  have h0 : (i 0).val < 2 := (i 0).isLt
  have h1 : (i 1).val < 8 := (i 1).isLt
  have h2 : (i 2).val < 128 := (i 2).isLt
  refine ⟨⟨(i 0).val * 49 + 48, lt_of_lt_of_eq (by omega : (i 0).val * 49 + 48 < 98) N_0.symm⟩, (flush0_6 _).mpr (by show ((i 0).val * 49 + 48) % 49 = 48; omega), ?_⟩
  rw [mem_blk6]
  intro a
  match a with
  | ⟨0, _⟩ =>
    show win0_6.index _ 0 * 1 ≤ (i 0).val ∧ (i 0).val < win0_6.index _ 0 * 1 + 1
    rw [(index0_6 _).1]; show ((i 0).val * 49 + 48) / 49 * 1 ≤ (i 0).val ∧ (i 0).val < ((i 0).val * 49 + 48) / 49 * 1 + 1; omega
  | ⟨1, _⟩ =>
    show win0_6.index _ 1 * 8 ≤ (i 1).val ∧ (i 1).val < win0_6.index _ 1 * 8 + 8
    rw [(index0_6 _).2.1]; omega
  | ⟨2, _⟩ =>
    show win0_6.index _ 2 * 128 ≤ (i 2).val ∧ (i 2).val < win0_6.index _ 2 * 128 + 128
    rw [(index0_6 _).2.2]; omega
theorem cover7 (i : S2x8x128.Idx) : ∃ t : Fin cfg0.N, (cfg0.win 7).flush t = true ∧ i ∈ ((cfg0.win 7).blk t).view.set := by
  have h0 : (i 0).val < 2 := (i 0).isLt
  have h1 : (i 1).val < 8 := (i 1).isLt
  have h2 : (i 2).val < 128 := (i 2).isLt
  refine ⟨⟨(i 0).val * 49 + 48, lt_of_lt_of_eq (by omega : (i 0).val * 49 + 48 < 98) N_0.symm⟩, (flush0_7 _).mpr (by show ((i 0).val * 49 + 48) % 49 = 48; omega), ?_⟩
  rw [mem_blk7]
  intro a
  match a with
  | ⟨0, _⟩ =>
    show win0_7.index _ 0 * 1 ≤ (i 0).val ∧ (i 0).val < win0_7.index _ 0 * 1 + 1
    rw [(index0_7 _).1]; show ((i 0).val * 49 + 48) / 49 * 1 ≤ (i 0).val ∧ (i 0).val < ((i 0).val * 49 + 48) / 49 * 1 + 1; omega
  | ⟨1, _⟩ =>
    show win0_7.index _ 1 * 8 ≤ (i 1).val ∧ (i 1).val < win0_7.index _ 1 * 8 + 8
    rw [(index0_7 _).2.1]; omega
  | ⟨2, _⟩ =>
    show win0_7.index _ 2 * 128 ≤ (i 2).val ∧ (i 2).val < win0_7.index _ 2 * 128 + 128
    rw [(index0_7 _).2.2]; omega

theorem final6 (c : Dev nD) : (vdats m 0 c).arrAt 6 cfg0.N = G6 m c :=
  (vdats m 0 c).arrAt_eq_of_cover 6 (G6 m c) (fun t hf => flushed6_eq m c t hf) (cover6)
theorem final7 (c : Dev nD) : (vdats m 0 c).arrAt 7 cfg0.N = G7 m c :=
  (vdats m 0 c).arrAt_eq_of_cover 7 (G7 m c) (fun t hf => flushed7_eq m c t hf) (cover7)

end Cert.KernelIdeal.Body

end
-- ==== Proof.IdealTail.lean ====
/-
  The host lines after the launch, run on the result arrays: entry (0,0,0) of each core's block of each result array,
  the two cores added, the square roots, and their sum.
-/
import proofs.«100524_j49959059587771_2_alg».proof.Proof.IdealFinal
import Idealize.ShloMosaic.Lib.StableHlo.Run
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Loss Idealize.ShloMosaic.ValueIdx
open scoped BigOperators

variable (m : (ℓ : Loc nD τ sig) → Buf (Elt Ideal) ℓ)

/-- The program's result from the accumulators' totals. -/
def resKv (c : Dev nD) : EReal :=
  Ideal.sqrt (acc1 m c 48 + acc1 m c 97) + Ideal.sqrt (acc2 m c 48 + acc2 m c 97)

/-- A 1 × 1 × 1 index is the origin. -/
theorem idx111 (k : S1x1x1.Idx) : k = ix3 0 0 0 := by
  funext a
  match a with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)
  | ⟨2, _⟩ => exact Fin.ext (by have h : (k 2).val < 1 := (k 2).isLt; show (k 2).val = 0; omega)

/-- Entry (p, 0, 0) of an array, taken as a 1 × 1 × 1 slice and cast to a scalar. -/
theorem pick0 (G : S2x8x128.Idx → EReal) (j : S_.Idx) :
    shapeCast S_ (extractStridedSlice S1x1x1 ![0, 0, 0] G slices_S2x8x128_S1x1x1_0_0_0) shapeCasts_S1x1x1_S_ j = G (ix3 0 0 0) := by
  unfold shapeCast
  rw [idx111 (Shape.reshapeEquiv _ j)]
  exact extractStridedSlice_apply _ G _ (ix3 0 0 0) (ix3 0 0 0) (fun a => by
    match a with
    | ⟨0, _⟩ => rfl
    | ⟨1, _⟩ => rfl
    | ⟨2, _⟩ => rfl)
theorem pick1 (G : S2x8x128.Idx → EReal) (j : S_.Idx) :
    shapeCast S_ (extractStridedSlice S1x1x1 ![1, 0, 0] G slices_S2x8x128_S1x1x1_1_0_0) shapeCasts_S1x1x1_S_ j = G (ix3 1 0 0) := by
  unfold shapeCast
  rw [idx111 (Shape.reshapeEquiv _ j)]
  exact extractStridedSlice_apply _ G _ (ix3 0 0 0) (ix3 1 0 0) (fun a => by
    match a with
    | ⟨0, _⟩ => rfl
    | ⟨1, _⟩ => rfl
    | ⟨2, _⟩ => rfl)

set_option maxHeartbeats 8000000 in
theorem tail_eq (c : Dev nD) :
    (Pipeline.afterTail₀ cfgs (vdats m) 0 (V0 m) [hostOps1] c main_v27 : S_.Idx → EReal) = fun _ => resKv m c := by
  unfold Pipeline.afterTail₀
  show StableHlo.after hostOps1 _ (Proc.devRef .tc main_v27) = _
  after_results
  have e6 : Pipeline.withArrays (cfgs 0).spec c (V0 m c) (fun w => (vdats m 0 c).arrAt w (cfgs 0).N) (Proc.tc.devRef main_v14_0) = G6 m c :=
    (Pipeline.withArrays_arr spec0 launch0.win.arr_inj c _ _ 6).trans (final6 m c)
  have e7 : Pipeline.withArrays (cfgs 0).spec c (V0 m c) (fun w => (vdats m 0 c).arrAt w (cfgs 0).N) (Proc.tc.devRef main_v14_1) = G7 m c :=
    (Pipeline.withArrays_arr spec0 launch0.win.arr_inj c _ _ 7).trans (final7 m c)
  rw [e6, e7]
  funext i
  show Ideal.sqrt (shapeCast S_ (extractStridedSlice S1x1x1 ![0, 0, 0] (G6 m c) slices_S2x8x128_S1x1x1_0_0_0) shapeCasts_S1x1x1_S_ i
        + shapeCast S_ (extractStridedSlice S1x1x1 ![1, 0, 0] (G6 m c) slices_S2x8x128_S1x1x1_1_0_0) shapeCasts_S1x1x1_S_ i)
      + Ideal.sqrt (shapeCast S_ (extractStridedSlice S1x1x1 ![0, 0, 0] (G7 m c) slices_S2x8x128_S1x1x1_0_0_0) shapeCasts_S1x1x1_S_ i
        + shapeCast S_ (extractStridedSlice S1x1x1 ![1, 0, 0] (G7 m c) slices_S2x8x128_S1x1x1_1_0_0) shapeCasts_S1x1x1_S_ i) = resKv m c
  rw [pick0, pick1, pick0, pick1]
  rfl

end Cert.KernelIdeal.Body

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KernelRows.lean ====
/-
  The kernel body's arithmetic, read at an index, at the exact values.

  One grid point works on a tile of 512 rows. Each row z is scaled by the reciprocal root of its floored sum of
  squares; its 512 similarities with a table are the row's products with the table's rows; the similarity at the
  column the row's batch word names is a sum of 512 selects against zero; s ↦ L − softplus(−s) is applied to the
  two selected similarities (the branch's own table and the other branch's) and the two values are subtracted.
  Rows whose number is 50000 or more are replaced by zero, the 512 squares are summed, and the sum is added to the
  accumulator's old contents. Read at an index, every operation of that chain is the extended reals' own, so each
  accumulator update is the old contents plus the sum over the tile's rows of the masked squares of the
  specification's row difference.
-/
import proofs.«100524_j49959059587771_2_alg».proof.Proof.Gen.KernelIdeal.Skeleton
import proofs.«100524_j49959059587771_2_alg».proof.Proof.Spec
import proofs.«100524_j49959059587771_2_alg».proof.Proof.LibKeepdims
import proofs.«100524_j49959059587771_2_alg».proof.Proof.LibPlainDot
import proofs.«100524_j49959059587771_2_alg».proof.Proof.LibMergeRows
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx Cert.Loss
open scoped BigOperators

/-- The named floor under the sum of squares is the table's rational. -/
theorem eps_eq : Named.named (F := Ideal) κ "eps_sq" (φ := .f32) 0x179ABE15#32 = κv :=
  IdealRules.named_const.ideal_named_scalar _ _ _ _ rfl

/-- The zero word is the extended real 0. -/
theorem zero_eq : (Scalar.ofBits .f32 0x00000000#32 : Ideal .f32) = 0 := Ideal.ofBits_zero_f32

/-- The word of log 2 is the specification's. -/
theorem ln2_eq : (Scalar.ofBits .f32 0x3F317218#32 : Ideal .f32) = Lv := rfl

section Pointwise
variable {s : Shape} {φ : FTy}
theorem rsqrt_apply (v : FVec Ideal s φ) (i : s.Idx) : rsqrt v i = Ideal.rsqrt (v i) := rfl
theorem exp_apply (v : FVec Ideal s φ) (i : s.Idx) : exp v i = Ideal.exp (v i) := rfl
theorem log1p_apply (v : FVec Ideal s φ) (i : s.Idx) : log1p v i = Ideal.log1p (v i) := rfl
theorem absf_apply (v : FVec Ideal s φ) (i : s.Idx) : absf v i = max (v i) (-(v i)) := rfl
theorem cmpf_ideal_apply (p : CmpFPredicate) (a b : FVec Ideal s φ) (i : s.Idx) :
    cmpf p a b i = Ideal.cmp p (a i) (b i) := rfl
theorem cmpi_apply {w : ℕ} (p : CmpIPredicate) (a b : IVec s w) (i : s.Idx) :
    cmpi p a b i = IntOp.cmpi p (a i) (b i) := rfl
theorem addi_apply {w : ℕ} (a b : IVec s w) (i : s.Idx) : addi a b i = IntOp.addi (a i) (b i) := rfl
end Pointwise

/-- A sum along the rows of an m × n array, read at row p. -/
theorem rowsum_apply {m n : ℕ} (x : FVec Ideal ⟨2, ![m, n]⟩ .f32) (h : Shape.Reduces ⟨2, ![m, n]⟩ [1] ⟨1, ![m]⟩)
    (hφ : FKind.Formats .f32) (hacc : (0x00000000#32 : BitVec 32) = FKind.add.neutral .f32 hφ) (p : Fin m) :
    multiReduction .add [1] ⟨1, ![m]⟩ x 0x00000000#32 h hφ hacc (ix1 p) = ∑ k : Fin n, x (ix2 p k) :=
  (Ideal.multiReduction_add_single x 0x00000000#32 h hφ hacc (ix1 p)).trans
    (Finset.sum_congr rfl fun k _ => congrArg x (funext fun ax => Fin.ext (by
      match ax with
      | ⟨0, _⟩ => rfl
      | ⟨1, _⟩ => rfl)))

/-- A sum down the columns of an m × n array, read at column q. -/
theorem colsum_apply {m n : ℕ} (x : FVec Ideal ⟨2, ![m, n]⟩ .f32) (h : Shape.Reduces ⟨2, ![m, n]⟩ [0] ⟨1, ![n]⟩)
    (hφ : FKind.Formats .f32) (hacc : (0x00000000#32 : BitVec 32) = FKind.add.neutral .f32 hφ) (q : Fin n) :
    multiReduction .add [0] ⟨1, ![n]⟩ x 0x00000000#32 h hφ hacc (ix1 q) = ∑ r : Fin m, x (ix2 r q) :=
  (Ideal.multiReduction_add_single x 0x00000000#32 h hφ hacc (ix1 q)).trans
    (Finset.sum_congr rfl fun k _ => congrArg x (funext fun ax => Fin.ext (by
      match ax with
      | ⟨0, _⟩ => rfl
      | ⟨1, _⟩ => rfl)))

/-- The scaled row: each entry times the reciprocal root of the floored sum of squares. -/
theorem pay8_apply (x : FVec Ideal S512x256 .f32) (p : Fin 512) (q : Fin 256) :
    k0_pay8 (F := Ideal) x (ix2 p q) = znK (fun k => x (ix2 p k)) q := by
  unfold k0_pay8 znK ssq
  simp only [truncf_apply, mulf_apply, Cert.Lib.Keepdims.bcastCol_apply, rsqrt_apply, maximumf_apply,
    Cert.Lib.Keepdims.col_apply, broadcast_apply, eps_eq]
  exact congrArg (fun t => x (ix2 p q) * Ideal.rsqrt (max t κv)) (rowsum_apply (mulf x x) _ _ _ p)

theorem pay9_apply (x : FVec Ideal S512x256 .f32) (p : Fin 512) (q : Fin 256) :
    k0_pay9 (F := Ideal) x (ix2 p q) = znK (fun k => x (ix2 p k)) q := by
  unfold k0_pay9 znK ssq
  simp only [truncf_apply, mulf_apply, Cert.Lib.Keepdims.bcastCol_apply, rsqrt_apply, maximumf_apply,
    Cert.Lib.Keepdims.col_apply, broadcast_apply, eps_eq]
  exact congrArg (fun t => x (ix2 p q) * Ideal.rsqrt (max t κv)) (rowsum_apply (mulf x x) _ _ _ p)

theorem pay10_eq (G : FVec Ideal S512x256 .bf16) : k0_pay10 (F := Ideal) G = G := shapeCast_self G _
theorem pay11_eq (G : FVec Ideal S512x256 .bf16) : k0_pay11 (F := Ideal) G = G := shapeCast_self G _

/-- The similarities of the scaled row with a table. -/
theorem pay12_apply (x : FVec Ideal S512x256 .f32) (G : FVec Ideal S512x256 .bf16) (p g : Fin 512) :
    k0_pay12 (F := Ideal) x G (ix2 p g) = simK (fun k => x (ix2 p k)) G g := by
  unfold k0_pay12 simK
  refine (Cert.Lib.PlainDot.matmul_zero_apply dot_S512x256_S256x512_S512x512_1_0_0_1_n_n_wf none (k0_pay8 (F := Ideal) x)
    (transpose S256x512 [1, 0] (k0_pay10 (F := Ideal) G) transposes_S512x256_p1_0_S256x512) p g).trans ?_
  refine Finset.sum_congr rfl fun k _ => ?_
  rw [pay8_apply, Cert.Lib.MergeRows.transpose_apply, pay10_eq]

theorem pay13_apply (x : FVec Ideal S512x256 .f32) (G : FVec Ideal S512x256 .bf16) (p g : Fin 512) :
    k0_pay13 (F := Ideal) x G (ix2 p g) = simK (fun k => x (ix2 p k)) G g := by
  unfold k0_pay13 simK
  refine (Cert.Lib.PlainDot.matmul_zero_apply dot_S512x256_S256x512_S512x512_1_0_0_1_n_n_wf none (k0_pay8 (F := Ideal) x)
    (transpose S256x512 [1, 0] (k0_pay11 (F := Ideal) G) transposes_S512x256_p1_0_S256x512) p g).trans ?_
  refine Finset.sum_congr rfl fun k _ => ?_
  rw [pay8_apply, Cert.Lib.MergeRows.transpose_apply, pay11_eq]

theorem pay14_apply (x : FVec Ideal S512x256 .f32) (G : FVec Ideal S512x256 .bf16) (p g : Fin 512) :
    k0_pay14 (F := Ideal) x G (ix2 p g) = simK (fun k => x (ix2 p k)) G g := by
  unfold k0_pay14 simK
  refine (Cert.Lib.PlainDot.matmul_zero_apply dot_S512x256_S256x512_S512x512_1_0_0_1_n_n_wf none (k0_pay9 (F := Ideal) x)
    (transpose S256x512 [1, 0] (k0_pay11 (F := Ideal) G) transposes_S512x256_p1_0_S256x512) p g).trans ?_
  refine Finset.sum_congr rfl fun k _ => ?_
  rw [pay9_apply, Cert.Lib.MergeRows.transpose_apply, pay11_eq]

theorem pay15_apply (x : FVec Ideal S512x256 .f32) (G : FVec Ideal S512x256 .bf16) (p g : Fin 512) :
    k0_pay15 (F := Ideal) x G (ix2 p g) = simK (fun k => x (ix2 p k)) G g := by
  unfold k0_pay15 simK
  refine (Cert.Lib.PlainDot.matmul_zero_apply dot_S512x256_S256x512_S512x512_1_0_0_1_n_n_wf none (k0_pay9 (F := Ideal) x)
    (transpose S256x512 [1, 0] (k0_pay10 (F := Ideal) G) transposes_S512x256_p1_0_S256x512) p g).trans ?_
  refine Finset.sum_congr rfl fun k _ => ?_
  rw [pay9_apply, Cert.Lib.MergeRows.transpose_apply, pay10_eq]

/-- The column test: column g against the row's batch word. -/
theorem pay16_apply (b : S512x1.Idx → BitVec 32) (p g : Fin 512) :
    k0_pay16 (F := Ideal) b (ix2 p g) = IntOp.cmpi .eq (BitVec.ofNat 32 g.val) (b (ix2 p 0)) := by
  unfold k0_pay16
  simp only [cmpi_apply, Cert.Lib.Keepdims.bcastCol_apply, shapeCast_self]
  exact congrArg (fun t => IntOp.cmpi .eq t (b (ix2 p 0)))
    (iota_single_apply .tc S512x512 32 1 iota_S512x512_d1_w32 (ix2 p g))

theorem pay17_apply (b : S512x1.Idx → BitVec 32) (p g : Fin 512) :
    k0_pay17 (F := Ideal) b (ix2 p g) = IntOp.cmpi .eq (BitVec.ofNat 32 g.val) (b (ix2 p 0)) := by
  unfold k0_pay17
  simp only [cmpi_apply, Cert.Lib.Keepdims.bcastCol_apply, shapeCast_self]
  exact congrArg (fun t => IntOp.cmpi .eq t (b (ix2 p 0)))
    (iota_single_apply .tc S512x512 32 1 iota_S512x512_d1_w32 (ix2 p g))

/-- A selected row sum kept as a column: at row p, the sum over the columns of the selects. -/
theorem selcol_apply (c : IVec S512x512 1) (v z : FVec Ideal S512x512 .f32) (h : S512x512.Reduces [1] S512)
    (hφ : FKind.Formats .f32) (hacc : (0x00000000#32 : BitVec 32) = FKind.add.neutral .f32 hφ)
    (hc : S512.ShapeCasts S512x1) (p : Fin 512) :
    shapeCast S512x1 (multiReduction .add [1] S512 (select c v z) 0x00000000#32 h hφ hacc) hc (ix2 p (0 : Fin 1))
      = ∑ g : Fin 512, Scalar.select (c (ix2 p g)) (v (ix2 p g)) (z (ix2 p g)) :=
  (Cert.Lib.Keepdims.col_apply _ hc p 0).trans (rowsum_apply (select c v z) h hφ hacc p)

/-- The similarity at the column the batch word names, by the first branch's column test. -/
theorem sel16_apply (v : FVec Ideal S512x512 .f32) (b : S512x1.Idx → BitVec 32) (p : Fin 512) :
    shapeCast S512x1 (multiReduction .add [1] S512 (select (k0_pay16 (F := Ideal) b) v
        (broadcast S512x512 (Scalar.ofBits .f32 0x00000000#32 : Ideal .f32))) 0x00000000#32 reduces_S512x512_S512 (.inl rfl) rfl)
      shapeCasts_S512_S512x1 (ix2 p (0 : Fin 1)) = selK (b (ix2 p 0)) (fun g => v (ix2 p g)) := by
  refine (selcol_apply _ _ _ _ _ _ _ p).trans ?_
  unfold selK
  simp only [pay16_apply, broadcast_apply, zero_eq]

/-- The same by the second branch's column test. -/
theorem sel17_apply (v : FVec Ideal S512x512 .f32) (b : S512x1.Idx → BitVec 32) (p : Fin 512) :
    shapeCast S512x1 (multiReduction .add [1] S512 (select (k0_pay17 (F := Ideal) b) v
        (broadcast S512x512 (Scalar.ofBits .f32 0x00000000#32 : Ideal .f32))) 0x00000000#32 reduces_S512x512_S512 (.inl rfl) rfl)
      shapeCasts_S512_S512x1 (ix2 p (0 : Fin 1)) = selK (b (ix2 p 0)) (fun g => v (ix2 p g)) := by
  refine (selcol_apply _ _ _ _ _ _ _ p).trans ?_
  unfold selK
  simp only [pay17_apply, broadcast_apply, zero_eq]

/-- The branch's own term: L minus the softplus of minus the selected similarity. -/
theorem pay18_apply (v : FVec Ideal S512x512 .f32) (b : S512x1.Idx → BitVec 32) (p : Fin 512) :
    k0_pay18 (F := Ideal) v b (ix2 p (0 : Fin 1)) = epK (selK (b (ix2 p 0)) (fun g => v (ix2 p g))) := by
  unfold k0_pay18 epK spK
  simp only [subf_apply, addf_apply, maximumf_apply, broadcast_apply, select_apply, cmpf_ideal_apply, absf_apply,
    exp_apply, log1p_apply]
  rw [sel16_apply v b p]
  simp only [zero_eq, ln2_eq]

/-- Minus the selected similarity with the other table. -/
theorem pay19_apply (v : FVec Ideal S512x512 .f32) (b : S512x1.Idx → BitVec 32) (p : Fin 512) :
    k0_pay19 (F := Ideal) v b (ix2 p (0 : Fin 1)) = 0 - selK (b (ix2 p 0)) (fun g => v (ix2 p g)) := by
  unfold k0_pay19
  simp only [subf_apply, broadcast_apply]
  rw [sel16_apply v b p]
  simp only [zero_eq]

theorem pay27_apply (v : FVec Ideal S512x512 .f32) (b : S512x1.Idx → BitVec 32) (p : Fin 512) :
    k0_pay27 (F := Ideal) v (k0_pay17 (F := Ideal) b) (ix2 p (0 : Fin 1))
      = epK (selK (b (ix2 p 0)) (fun g => v (ix2 p g))) := by
  unfold k0_pay27 epK spK
  simp only [subf_apply, addf_apply, maximumf_apply, broadcast_apply, select_apply, cmpf_ideal_apply, absf_apply,
    exp_apply, log1p_apply]
  rw [sel17_apply v b p]
  simp only [zero_eq, ln2_eq]

theorem pay28_apply (v : FVec Ideal S512x512 .f32) (b : S512x1.Idx → BitVec 32) (p : Fin 512) :
    k0_pay28 (F := Ideal) v (k0_pay17 (F := Ideal) b) (ix2 p (0 : Fin 1))
      = 0 - selK (b (ix2 p 0)) (fun g => v (ix2 p g)) := by
  unfold k0_pay28
  simp only [subf_apply, broadcast_apply]
  rw [sel17_apply v b p]
  simp only [zero_eq]

/-- The first branch's row difference. -/
def d1term (x0 : FVec Ideal S512x256 .f32) (x2 x3 : FVec Ideal S512x256 .bf16) (x4 : S512x1.Idx → BitVec 32) :
    FVec Ideal S512x1 .f32 :=
  k0_pay26 (F := Ideal) (k0_pay18 (F := Ideal) (k0_pay12 (F := Ideal) x0 x2) x4)
    (k0_pay20 (F := Ideal) (k0_pay13 (F := Ideal) x0 x3) x4) (k0_pay22 (F := Ideal) (k0_pay13 (F := Ideal) x0 x3) x4)
    (k0_pay23 (F := Ideal) (k0_pay13 (F := Ideal) x0 x3) x4) (k0_pay24 (F := Ideal) (k0_pay13 (F := Ideal) x0 x3) x4)
    (k0_pay25 (F := Ideal))

theorem d1term_apply (x0 : FVec Ideal S512x256 .f32) (x2 x3 : FVec Ideal S512x256 .bf16)
    (x4 : S512x1.Idx → BitVec 32) (p : Fin 512) :
    d1term x0 x2 x3 x4 (ix2 p (0 : Fin 1)) = dKrow (fun k => x0 (ix2 p k)) (x4 (ix2 p 0)) x2 x3 := by
  unfold d1term k0_pay26 k0_pay20 k0_pay22 k0_pay23 k0_pay24 k0_pay21 k0_pay25
  simp only [subf_apply, addf_apply, maximumf_apply, broadcast_apply, select_apply, cmpf_ideal_apply, absf_apply,
    exp_apply, log1p_apply, pay18_apply, pay19_apply, pay12_apply, pay13_apply, zero_eq, ln2_eq]
  simp only [dKrow, epK, spK]

/-- The tile's first row number plus the row's, as 32-bit words, is below 50000 exactly when the numbers are. -/
theorem mask_word (v1 : BitVec 32) (hv : v1.toNat < 98) (r : ℕ) (hr : r < 512) :
    (v1 * 512#32 + BitVec.ofNat 32 r).slt 50000#32 = decide (v1.toNat * 512 + r < 50000) := by
  have h1 : (v1 * 512#32 + BitVec.ofNat 32 r).toNat = v1.toNat * 512 + r := by
    rw [BitVec.toNat_add, BitVec.toNat_mul, BitVec.toNat_ofNat]
    show (v1.toNat * 512 % 2 ^ 32 + r % 2 ^ 32) % 2 ^ 32 = _
    omega
  have h2 : (v1 * 512#32 + BitVec.ofNat 32 r).toInt = ((v1.toNat * 512 + r : ℕ) : ℤ) := by
    rw [BitVec.toInt_eq_toNat_cond, h1]
    rw [if_pos (by omega)]
  rw [BitVec.slt_eq_decide, h2]
  show decide (((v1.toNat * 512 + r : ℕ) : ℤ) < (50000#32 : BitVec 32).toInt) = _
  have h3 : (50000#32 : BitVec 32).toInt = 50000 := by decide
  rw [h3]
  congr 1
  apply propext
  omega

/-- The row mask: row r of tile v1 is a real row exactly when its number is below 50000. -/
theorem pay1_apply (v1 : BitVec 32) (hv : v1.toNat < 98) (r : Fin 512) :
    k0_pay1 v1 (ix2 r (0 : Fin 1)) = if v1.toNat * 512 + r.val < 50000 then 1#1 else 0#1 := by
  unfold k0_pay1
  simp only [cmpi_apply, addi_apply, broadcast_apply]
  refine (congrArg (fun t => IntOp.cmpi .slt (IntOp.addi (Scalar.muli v1 512#32) t) 50000#32)
    (iota_single_apply .tc S512x1 32 0 iota_S512x1_d0_w32 (ix2 r (0 : Fin 1)))).trans ?_
  show BitVec.ofBool ((v1 * 512#32 + BitVec.ofNat 32 r.val).slt 50000#32) = _
  rw [mask_word v1 hv r.val r.isLt]
  by_cases h : v1.toNat * 512 + r.val < 50000
  · rw [if_pos h, decide_eq_true h]; rfl
  · rw [if_neg h, decide_eq_false h]; rfl

/-- The masked square of a row difference. -/
theorem masked_sq (v1 : BitVec 32) (hv : v1.toNat < 98) (r : Fin 512) (d : EReal) :
    Scalar.select (k0_pay1 v1 (ix2 r (0 : Fin 1))) d (0 : EReal) * Scalar.select (k0_pay1 v1 (ix2 r (0 : Fin 1))) d (0 : EReal)
      = if v1.toNat * 512 + r.val < 50000 then Loss.sq d else 0 := by
  rw [pay1_apply v1 hv r]
  by_cases h : v1.toNat * 512 + r.val < 50000
  · rw [if_pos h, if_pos h, select_one]; rfl
  · rw [if_neg h, if_neg h, select_zero, mul_zero]

/-- The accumulator's new contents: the old plus the sum over the tile's rows of the masked squares. -/
theorem acc_apply (v1 : BitVec 32) (hv : v1.toNat < 98) (d : FVec Ideal S512x1 .f32) (j : S1x1.Idx)
    (acc : FVec Ideal S1x1 .f32) :
    addf acc (shapeCast S1x1 (multiReduction .add [0] S1
        (mulf (select (k0_pay1 v1) d (broadcast S512x1 (Scalar.ofBits .f32 0x00000000#32 : Ideal .f32)))
          (select (k0_pay1 v1) d (broadcast S512x1 (Scalar.ofBits .f32 0x00000000#32 : Ideal .f32))))
        0x00000000#32 reduces_S512x1_S1 (.inl rfl) rfl) shapeCasts_S1_S1x1) j
      = acc j + ∑ r : Fin 512, if v1.toNat * 512 + r.val < 50000 then Loss.sq (d (ix2 r (0 : Fin 1))) else 0 := by
  obtain ⟨u, w, rfl⟩ : ∃ (u w : Fin 1), j = ix2 u w := ⟨j 0, j 1, eq_ix2 j⟩
  obtain rfl : u = 0 := Subsingleton.elim _ _
  refine congrArg (fun t => acc (ix2 0 w) + t) ?_
  refine (Cert.Lib.Keepdims.col_apply _ shapeCasts_S1_S1x1 0 w).trans ?_
  refine (colsum_apply _ _ _ _ 0).trans ?_
  refine Finset.sum_congr rfl fun r _ => ?_
  simp only [mulf_apply, select_apply, broadcast_apply, zero_eq]
  exact masked_sq v1 hv r _

theorem pay2_eq (v1 : BitVec 32) (hv : v1.toNat < 98) (x0 : FVec Ideal S512x256 .f32)
    (x2 x3 : FVec Ideal S512x256 .bf16) (x4 : S512x1.Idx → BitVec 32) (a : FVec Ideal S1x1 .f32) (j : S1x1.Idx) :
    k0_pay2 (F := Ideal) v1 (d1term x0 x2 x3 x4) a j
      = a j + ∑ r : Fin 512, if v1.toNat * 512 + r.val < 50000
          then Loss.sq (dKrow (fun k => x0 (ix2 r k)) (x4 (ix2 r 0)) x2 x3) else 0 := by
  unfold k0_pay2
  simp only [shapeCast_self]
  refine (acc_apply v1 hv (d1term x0 x2 x3 x4) j a).trans ?_
  simp only [d1term_apply]

theorem pay3_eq (v1 : BitVec 32) (hv : v1.toNat < 98) (x1 : FVec Ideal S512x256 .f32)
    (x2 x3 : FVec Ideal S512x256 .bf16) (x5 : S512x1.Idx → BitVec 32) (a : FVec Ideal S1x1 .f32) (j : S1x1.Idx) :
    k0_pay3 (F := Ideal) v1
        (k0_pay27 (F := Ideal) (k0_pay14 (F := Ideal) x1 x3) (k0_pay17 (F := Ideal) x5))
        (k0_pay29 (F := Ideal) (k0_pay15 (F := Ideal) x1 x2) (k0_pay17 (F := Ideal) x5))
        (k0_pay31 (F := Ideal) (k0_pay15 (F := Ideal) x1 x2) (k0_pay17 (F := Ideal) x5))
        (k0_pay32 (F := Ideal) (k0_pay15 (F := Ideal) x1 x2) (k0_pay17 (F := Ideal) x5))
        (k0_pay33 (F := Ideal) (k0_pay15 (F := Ideal) x1 x2) (k0_pay17 (F := Ideal) x5)) a j
      = a j + ∑ r : Fin 512, if v1.toNat * 512 + r.val < 50000
          then Loss.sq (dKrow (fun k => x1 (ix2 r k)) (x5 (ix2 r 0)) x3 x2) else 0 := by
  unfold k0_pay3
  simp only [shapeCast_self]
  refine (acc_apply v1 hv _ j a).trans ?_
  unfold k0_pay29 k0_pay31 k0_pay32 k0_pay33 k0_pay30
  simp only [subf_apply, addf_apply, maximumf_apply, broadcast_apply, select_apply, cmpf_ideal_apply, absf_apply,
    exp_apply, log1p_apply, pay27_apply, pay28_apply, pay14_apply, pay15_apply, zero_eq, ln2_eq]
  simp only [dKrow, epK, spK]

end Cert.KernelIdeal.Rows

end
-- ==== Proof.KernelHost.lean ====
/-
  The host operations before the kernel's launch, read at an index.

  Before its one launch the program normalises the two tables row by row (each row divided by the floored square
  root of its sum of squares; the conversion to the narrow format is the identity at the exact values) and pads the
  two columns of batch words with 176 zero rows at the end.
-/
import proofs.«100524_j49959059587771_2_alg».proof.Proof.Gen.KernelIdeal.Frame
import proofs.«100524_j49959059587771_2_alg».proof.Proof.Spec
import proofs.«100524_j49959059587771_2_alg».proof.Proof.LibKeepdims
import Idealize.ShloMosaic.Lib.KernelVsHost
import Idealize.ShloMosaic.Lib.Pipeline.Value

noncomputable section

namespace Cert.KernelIdeal.Host

open Cert.KernelIdeal Cert.KernelIdeal.Gen Idealize.ShloMosaic Idealize.ShloMosaic.TcCoe Idealize.ShloMosaic.ValueIdx
open Idealize.SL Idealize.SL.Sem Idealize.ShloMosaic.StableHlo Cert.Loss
open scoped BigOperators

variable (m : (ℓ : Loc nD τ sig) → Buf (Elt Ideal) ℓ) (c : Dev nD)

/-! ## The table normalisation as the program spells it -/

/-- The zero word is zero. -/
theorem cst0 : (Ideal.ofBits .f32 0x00000000#32 : EReal) = 0 := Ideal.ofBits_zero_f32

/-- The rows' sums of squares. -/
def sumsq (x : (⟨S512x256, .f32⟩ : BufTy).Contents (Elt Ideal)) : (⟨S512, .f32⟩ : BufTy).Contents (Elt Ideal) :=
  Host.reduceAdd (F := Ideal) (mulf x x) (constant (F := Ideal) S_ .f32 0x00000000#32) reducesTo_S512x256_S512_d1 h_S_

/-- The rows' floored norms, as a column. -/
def normCol (x : (⟨S512x256, .f32⟩ : BufTy).Contents (Elt Ideal)) : (⟨S512x1, .f32⟩ : BufTy).Contents (Elt Ideal) :=
  maximumf (broadcastInDim S512x1 ![] bcast_S_S512x1 (constant (F := Ideal) S_ .f32 0x2B8CBCCC#32))
    (Host.sqrt (F := Ideal) (broadcastInDim S512x1 ![0] bcast_S512_S512x1_0 (sumsq x)))

/-- The table divided row by row by the floored norms, then converted to the narrow format. -/
def normTbl (x : (⟨S512x256, .f32⟩ : BufTy).Contents (Elt Ideal)) : (⟨S512x256, .bf16⟩ : BufTy).Contents (Elt Ideal) :=
  truncf .bf16 (Host.divf (F := Ideal) x (broadcastInDim S512x256 ![0, 1] bcast_S512x1_S512x256_0_1 (normCol x))) bitsLt_bf16_f32

/-- A row's sum of squares. -/
theorem sumsq_apply (x : (⟨S512x256, .f32⟩ : BufTy).Contents (Elt Ideal)) (g : Fin 512) :
    sumsq x (ix1 g) = ssq (fun k => x (ix2 g k)) := by
  unfold sumsq
  simp only [Host.reduceAdd, Ideal.hostReduceAdd_def]
  rw [Ideal.hostReduceAdd_single reducesTo_S512x256_S512_d1 (by decide)]
  refine (congrArg (· + _) cst0).trans ?_
  rw [zero_add]
  refine Finset.sum_congr rfl fun k _ => ?_
  exact congrArg (fun j => x j * x j) (funext fun a => Fin.ext (by match a with | ⟨0, _⟩ => rfl | ⟨1, _⟩ => rfl))

/-- A row's floored norm. -/
theorem normCol_apply (x : (⟨S512x256, .f32⟩ : BufTy).Contents (Elt Ideal)) (g : Fin 512) (u : Fin 1) :
    normCol x (ix2 g u) = max Dv (Ideal.sqrt (ssq (fun k => x (ix2 g k)))) := by
  unfold normCol
  rw [maximumf_apply]
  refine congrArg₂ max ?_ ?_
  · exact broadcastInDim_apply ![] bcast_S_S512x1 (constant (F := Ideal) S_ .f32 0x2B8CBCCC#32) (ix2 g u) ix0 (fun a => a.elim0)
  · show Ideal.sqrt (broadcastInDim S512x1 ![0] bcast_S512_S512x1_0 (sumsq x) (ix2 g u)) = _
    rw [broadcastInDim_apply ![0] bcast_S512_S512x1_0 (sumsq x) (ix2 g u) (ix1 g) (fun a => match a with
      | ⟨0, _⟩ => by show g.val = if (512 : Nat) = 1 then 0 else g.val; rw [if_neg (by decide)]), sumsq_apply]

/-- The program's normalised table is the row formula's. -/
theorem normTbl_eq (x : (⟨S512x256, .f32⟩ : BufTy).Contents (Elt Ideal)) : (normTbl x : S512x256.Idx → EReal) = gn x := by
  funext i
  obtain ⟨g, k, rfl⟩ : ∃ (g : Fin 512) (k : Fin 256), i = ix2 g k := ⟨i 0, i 1, eq_ix2 i⟩
  unfold normTbl
  show Ideal.div (x (ix2 g k)) (broadcastInDim S512x256 ![0, 1] bcast_S512x1_S512x256_0_1 (normCol x) (ix2 g k)) = _
  rw [broadcastInDim_apply ![0, 1] bcast_S512x1_S512x256_0_1 (normCol x) (ix2 g k) (ix2 g (0 : Fin 1)) (fun a => match a with
    | ⟨0, _⟩ => by show g.val = if (512 : Nat) = 1 then 0 else g.val; rw [if_neg (by decide)]
    | ⟨1, _⟩ => by show 0 = if (1 : Nat) = 1 then 0 else k.val; rw [if_pos rfl]), normCol_apply]
  rfl

/-! ## The padded column of batch words as the program spells it -/

/-- The words as a column, padded with 176 zero rows at the end. -/
def padCol (b : (⟨S50000, .i32⟩ : BufTy).Contents (Elt Ideal)) : (⟨S50176x1, .i32⟩ : BufTy).Contents (Elt Ideal) :=
  pad S50176x1 ![0, 0] ![176, 0] ![0, 0] (shapeCast S50000x1 b shapeCasts_S50000_S50000x1) (constantI S_ 32 0#32)
    pads_S50000x1_S50176x1_01760_000 h_S_

/-- A row inside the unpadded range holds its word. -/
theorem padCol_apply (b : (⟨S50000, .i32⟩ : BufTy).Contents (Elt Ideal)) (r : Fin 50000) (h : r.val < 50176) :
    padCol b (ix2 (⟨r.val, h⟩ : Fin 50176) (0 : Fin 1)) = b (ix1 r) := by
  unfold padCol
  refine (pad_apply_of_inside ![0, 0] ![176, 0] ![0, 0] (shapeCast S50000x1 b shapeCasts_S50000_S50000x1) (constantI S_ 32 0#32)
    pads_S50000x1_S50176x1_01760_000 h_S_ (ix2 (⟨r.val, h⟩ : Fin 50176) (0 : Fin 1)) (ix2 r (0 : Fin 1)) (fun a => match a with
      | ⟨0, _⟩ => by show r.val = 0 + r.val * (0 + 1); omega
      | ⟨1, _⟩ => by show 0 = 0 + 0 * (0 + 1); rfl)).trans ?_
  exact Cert.Lib.Keepdims.col_apply b shapeCasts_S50000_S50000x1 r 0

/-! ## What the launch finds -/

/-- The first table as the launch finds it. -/
theorem V_g1n : (Gen.V m c main_v4 : S512x256.Idx → EReal) = Cert.Loss.gn (m ((c : Thread nD τ).loc main_arg2)) := by
  have e : (Gen.V m c main_v4 : S512x256.Idx → EReal) = normTbl (m ((c : Thread nD τ).loc main_arg2)) := by
    dsimp only [Gen.V, Gen.V0]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    rfl
  rw [e]
  exact normTbl_eq _

/-- The second table as the launch finds it. -/
theorem V_g2n : (Gen.V m c main_v9 : S512x256.Idx → EReal) = Cert.Loss.gn (m ((c : Thread nD τ).loc main_arg3)) := by
  have e : (Gen.V m c main_v9 : S512x256.Idx → EReal) = normTbl (m ((c : Thread nD τ).loc main_arg3)) := by
    dsimp only [Gen.V, Gen.V0]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    rfl
  rw [e]
  exact normTbl_eq _

/-- The first column of words as the launch finds it, at a row of the unpadded range. -/
theorem V_b1 (r : Fin 50000) :
    (Gen.V m c main_v12 : S50176x1.Idx → BitVec 32) (ix2 ⟨r.val, by omega⟩ 0) = m ((c : Thread nD τ).loc main_arg4) (ix1 r) := by
  have e : (Gen.V m c main_v12 : S50176x1.Idx → BitVec 32) = padCol (m ((c : Thread nD τ).loc main_arg4)) := by
    dsimp only [Gen.V, Gen.V0]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    rfl
  rw [e]
  exact padCol_apply _ r _

/-- The second column of words as the launch finds it, at a row of the unpadded range. -/
theorem V_b2 (r : Fin 50000) :
    (Gen.V m c main_v13 : S50176x1.Idx → BitVec 32) (ix2 ⟨r.val, by omega⟩ 0) = m ((c : Thread nD τ).loc main_arg5) (ix1 r) := by
  have e : (Gen.V m c main_v13 : S50176x1.Idx → BitVec 32) = padCol (m ((c : Thread nD τ).loc main_arg5)) := by
    dsimp only [Gen.V, Gen.V0]
    simp only [Gen.hostOps0, Gen.hostOps0_1, Gen.hostOps0_2, Gen.hostOps0_3, Gen.hostOps0_4, Gen.hostOps0_5, Gen.hostOps0_6,
      Gen.hostOps0_7, Gen.hostOps0_8, Gen.hostOps0_9, Gen.hostOps0_10, List.flatten_cons, List.flatten_nil, List.append_nil,
      List.cons_append, List.nil_append]
    after_results
    rfl
  rw [e]
  exact padCol_apply _ r _

end Cert.KernelIdeal.Host

end
-- ==== Proof.RefRows.lean ====
/-
  The reference program read row by row.

  Each stage of the reference is read at explicit coordinates (row r, table row g, feature k) and identified with the
  row formulas: the row normalisation z / max(D, √Σz²), the table normalisation, the similarities against the
  transposed table, the one-hot of the batch word, the entrywise map s ↦ L − softplus(−s), the row sums, their
  difference, and the two Euclidean norms.
-/
import proofs.«100524_j49959059587771_2_alg».proof.Proof.Gen.ReferenceIdeal.Read
import proofs.«100524_j49959059587771_2_alg».proof.Proof.Spec

noncomputable section

namespace Cert.ReferenceIdeal.Rows

open Cert.ReferenceIdeal Cert.ReferenceIdeal.Gen Cert.ReferenceIdeal.Read Idealize.ShloMosaic Idealize.ShloMosaic.ValueIdx Cert.Loss
open scoped BigOperators

/-! ## Repeated stages are the same functions -/

variable {F : FTy → Type} [FloatOps F]

/-- The second branch's row normalisation is the first's, at the other argument. -/
theorem v13_eq (x : (⟨S50000x256, .f32⟩ : BufTy).Contents (Elt F)) : val_main_v13 (F := F) x = val_main_v5 (F := F) x := rfl
/-- The second table's normalisation is the first's, at the other argument. -/
theorem v17_eq (x : (⟨S512x256, .f32⟩ : BufTy).Contents (Elt F)) : val_main_v17 (F := F) x = val_main_v9 (F := F) x := rfl
/-- The second one-hot is the first, at the other argument. -/
theorem v1_eq (x : (⟨S50000, .i32⟩ : BufTy).Contents (Elt F)) : val_main_v1 (F := F) x = val_main_v0 (F := F) x := rfl

/-! ## Sums of squares and the normalisations -/

/-- The zero word is zero. -/
theorem cst0 : (Ideal.ofBits .f32 0x00000000#32 : EReal) = 0 := Ideal.ofBits_zero_f32

/-- A row's sum of squares. -/
theorem ssq_row (x0 : (⟨S50000x256, .f32⟩ : BufTy).Contents (Elt Ideal)) (r : Fin 50000) :
    val_main_call2_v1 (F := Ideal) x0 (ix1 r) = ssq (fun k => x0 (ix2 r k)) := by
  rw [val_main_call2_v1_apply]
  refine (congrArg (· + _) cst0).trans ?_
  rw [zero_add]
  refine Finset.sum_congr rfl fun k _ => ?_
  have e : idx_main_call2_v1 (ix1 r) k = ix2 r k := funext fun a => Fin.ext (by match a with | ⟨0, _⟩ => rfl | ⟨1, _⟩ => rfl)
  rw [e]
  rfl

/-- The floored norm of a row, on the kept axis. -/
theorem norm_row (x0 : (⟨S50000x256, .f32⟩ : BufTy).Contents (Elt Ideal)) (r : Fin 50000) (u : Fin 1) :
    val_main_v3 (F := Ideal) x0 (ix2 r u) = max Dv (Ideal.sqrt (ssq (fun k => x0 (ix2 r k)))) := by
  rw [val_main_v3_apply, val_main_call3_v1_apply, val_main_v2_apply, val_main_call2_v2_apply]
  have e : idx_main_call2_v2 (ix2 r u) = ix1 r := funext fun a => Fin.ext (by match a with | ⟨0, _⟩ => rfl)
  rw [e, ssq_row]
  rfl

/-- The normalised row. -/
theorem zn_row (x0 : (⟨S50000x256, .f32⟩ : BufTy).Contents (Elt Ideal)) (r : Fin 50000) (k : Fin 256) :
    val_main_v5 (F := Ideal) x0 (ix2 r k) = znR (fun k => x0 (ix2 r k)) k := by
  rw [val_main_v5_apply, val_main_v4_apply]
  have e : idx_main_v4 (ix2 r k) = ix2 r (0 : Fin 1) := funext fun a => Fin.ext (by match a with | ⟨0, _⟩ => rfl | ⟨1, _⟩ => rfl)
  rw [e, norm_row]
  rfl

/-- A table row's sum of squares. -/
theorem ssq_tbl (x2 : (⟨S512x256, .f32⟩ : BufTy).Contents (Elt Ideal)) (g : Fin 512) :
    val_main_call4_v1 (F := Ideal) x2 (ix1 g) = ssq (fun k => x2 (ix2 g k)) := by
  rw [val_main_call4_v1_apply]
  refine (congrArg (· + _) cst0).trans ?_
  rw [zero_add]
  refine Finset.sum_congr rfl fun k _ => ?_
  have e : idx_main_call4_v1 (ix1 g) k = ix2 g k := funext fun a => Fin.ext (by match a with | ⟨0, _⟩ => rfl | ⟨1, _⟩ => rfl)
  rw [e]
  rfl

/-- The floored norm of a table row, on the kept axis. -/
theorem norm_tbl (x2 : (⟨S512x256, .f32⟩ : BufTy).Contents (Elt Ideal)) (g : Fin 512) (u : Fin 1) :
    val_main_v7 (F := Ideal) x2 (ix2 g u) = max Dv (Ideal.sqrt (ssq (fun k => x2 (ix2 g k)))) := by
  rw [val_main_v7_apply, val_main_call5_v1_apply, val_main_v6_apply, val_main_call4_v2_apply]
  have e : idx_main_call4_v2 (ix2 g u) = ix1 g := funext fun a => Fin.ext (by match a with | ⟨0, _⟩ => rfl)
  rw [e, ssq_tbl]
  rfl

/-- The normalised table. -/
theorem gn_tbl (x2 : (⟨S512x256, .f32⟩ : BufTy).Contents (Elt Ideal)) : val_main_v9 (F := Ideal) x2 = gn x2 := by
  funext i
  obtain ⟨g, k, rfl⟩ : ∃ (g : Fin 512) (k : Fin 256), i = ix2 g k := ⟨i 0, i 1, eq_ix2 i⟩
  rw [val_main_v9_apply, val_main_v8_apply]
  have e : idx_main_v8 (ix2 g k) = ix2 g (0 : Fin 1) := funext fun a => Fin.ext (by match a with | ⟨0, _⟩ => rfl | ⟨1, _⟩ => rfl)
  rw [e, norm_tbl]
  rfl

/-! ## The one-hot, the similarities, and the entrywise map -/

/-- The one-hot of the row's word at a column. -/
theorem oh_row (x4 : (⟨S50000, .i32⟩ : BufTy).Contents (Elt Ideal)) (r : Fin 50000) (g : Fin 512) :
    val_main_v0 (F := Ideal) x4 (ix2 r g) = ohR (x4 (ix1 r)) g := by
  rw [val_main_v0_apply, val_main_call0_v4_apply, val_main_call0_v2_apply, val_main_call0_v0_apply, val_main_call0_v3_apply,
    val_main_call0_v1_apply]
  have e : idx_main_call0_v0 (idx_main_call0_v2 (ix2 r g)) = ix1 r := funext fun a => Fin.ext (by match a with | ⟨0, _⟩ => rfl)
  rw [e]
  rfl

/-- The similarity of a normalised row with a row of the normalised table. -/
theorem sim_row (x0 : (⟨S50000x256, .f32⟩ : BufTy).Contents (Elt Ideal)) (x2 : (⟨S512x256, .f32⟩ : BufTy).Contents (Elt Ideal))
    (r : Fin 50000) (g : Fin 512) :
    val_main_v19 (F := Ideal) x0 x2 (ix2 r g) = simR (fun k => x0 (ix2 r k)) (gn x2) g := by
  rw [val_main_v19_apply]
  refine Finset.sum_congr rfl fun k _ => ?_
  have el : lidx_main_v19 (ix2 r g) k = ix2 r k := funext fun a => Fin.ext (by match a with | ⟨0, _⟩ => rfl | ⟨1, _⟩ => rfl)
  have er : idx_main_v18 (ridx_main_v19 (ix2 r g) k) = ix2 g k := funext fun a => Fin.ext (by match a with | ⟨0, _⟩ => rfl | ⟨1, _⟩ => rfl)
  rw [val_main_v18_apply, el, er, zn_row, gn_tbl]

/-- The entrywise map of the reference: every entry s becomes L − softplus(−s). -/
theorem ep_entry (x0 : (⟨S50000x256, .f32⟩ : BufTy).Contents (Elt Ideal)) (x2 : (⟨S512x256, .f32⟩ : BufTy).Contents (Elt Ideal))
    (x4 : (⟨S50000, .i32⟩ : BufTy).Contents (Elt Ideal)) (i : S50000x512.Idx) :
    val_main_v33 (F := Ideal) x0 x2 x4 i = epR (val_main_v20 (F := Ideal) x0 x2 x4 i) := by
  rw [val_main_v33_apply, val_main_v32_apply, val_main_v31_apply, val_main_call10_v4_apply, val_main_call10_v6_apply,
    val_main_call10_v11_apply, val_main_call10_v1_apply, val_main_call10_v10_apply, val_main_call10_v9_apply,
    val_main_call10_v8_apply, val_main_call10_v7_apply, val_main_call10_v3_apply, val_main_call10_v0_apply,
    val_main_call10_v2_apply, val_main_call10_v5_apply, val_main_v30_apply]
  simp only [val_main_call10_cst_apply, val_main_cst_3_apply, Ideal.ofBits_def, cst0, Ideal.subf_def, Ideal.addf_def,
    Ideal.maximumf_def, Ideal.hostNegf_def, Ideal.negf_def, Ideal.hostAbsf_def, Ideal.absf_def, Ideal.cmpf_def,
    Ideal.hostUnary_exp_def, Ideal.hostUnary_log1p_def]
  rfl

/-! ## Row sums, the per-row difference, the two norms -/

/-- The other table's row sums in branch one are the first row sums, at the other table. -/
theorem v39_eq (x0 : (⟨S50000x256, .f32⟩ : BufTy).Contents (Elt F)) (x3 : (⟨S512x256, .f32⟩ : BufTy).Contents (Elt F))
    (x4 : (⟨S50000, .i32⟩ : BufTy).Contents (Elt F)) : val_main_v39 (F := F) x0 x3 x4 = val_main_v34 (F := F) x0 x3 x4 := rfl
/-- Branch two's own row sums are the first row sums, at branch two's arguments. -/
theorem v45_eq (x1 : (⟨S50000x256, .f32⟩ : BufTy).Contents (Elt F)) (x3 : (⟨S512x256, .f32⟩ : BufTy).Contents (Elt F))
    (x5 : (⟨S50000, .i32⟩ : BufTy).Contents (Elt F)) : val_main_v45 (F := F) x1 x3 x5 = val_main_v34 (F := F) x1 x3 x5 := rfl
/-- Branch two's row sums against the other table are the first row sums, at those arguments. -/
theorem v50_eq (x1 : (⟨S50000x256, .f32⟩ : BufTy).Contents (Elt F)) (x2 : (⟨S512x256, .f32⟩ : BufTy).Contents (Elt F))
    (x5 : (⟨S50000, .i32⟩ : BufTy).Contents (Elt F)) : val_main_v50 (F := F) x1 x2 x5 = val_main_v34 (F := F) x1 x2 x5 := rfl

/-- A row's sum over the 512 columns of the mapped, masked similarities. -/
theorem rowsum (x0 : (⟨S50000x256, .f32⟩ : BufTy).Contents (Elt Ideal)) (x2 : (⟨S512x256, .f32⟩ : BufTy).Contents (Elt Ideal))
    (x4 : (⟨S50000, .i32⟩ : BufTy).Contents (Elt Ideal)) (r : Fin 50000) :
    val_main_v34 (F := Ideal) x0 x2 x4 (ix1 r)
      = ∑ g : Fin 512, epR (simR (fun k => x0 (ix2 r k)) (gn x2) g * ohR (x4 (ix1 r)) g) := by
  rw [val_main_v34_apply]
  refine (congrArg (· + _) cst0).trans ?_
  rw [zero_add]
  refine Finset.sum_congr rfl fun g _ => ?_
  have e : idx_main_v34 (ix1 r) g = ix2 r g := funext fun a => Fin.ext (by match a with | ⟨0, _⟩ => rfl | ⟨1, _⟩ => rfl)
  rw [e, ep_entry, val_main_v20_apply, sim_row, oh_row]
  rfl

/-- Branch one's per-row difference. -/
theorem d_row (x0 : (⟨S50000x256, .f32⟩ : BufTy).Contents (Elt Ideal)) (x2 x3 : (⟨S512x256, .f32⟩ : BufTy).Contents (Elt Ideal))
    (x4 : (⟨S50000, .i32⟩ : BufTy).Contents (Elt Ideal)) (r : Fin 50000) :
    val_main_v40 (F := Ideal) x0 x2 x3 x4 (ix1 r) = dRrow (fun k => x0 (ix2 r k)) (x4 (ix1 r)) (gn x2) (gn x3) := by
  rw [val_main_v40_apply, v39_eq, rowsum, rowsum]
  rfl

/-- Branch two's per-row difference. -/
theorem d_row' (x1 : (⟨S50000x256, .f32⟩ : BufTy).Contents (Elt Ideal)) (x2 x3 : (⟨S512x256, .f32⟩ : BufTy).Contents (Elt Ideal))
    (x5 : (⟨S50000, .i32⟩ : BufTy).Contents (Elt Ideal)) (r : Fin 50000) :
    val_main_v51 (F := Ideal) x1 x2 x3 x5 (ix1 r) = dRrow (fun k => x1 (ix2 r k)) (x5 (ix1 r)) (gn x3) (gn x2) := by
  rw [val_main_v51_apply, v45_eq, v50_eq, rowsum, rowsum]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Branch one's sum of squared differences. -/
theorem sumsq_one (x0 : (⟨S50000x256, .f32⟩ : BufTy).Contents (Elt Ideal)) (x2 x3 : (⟨S512x256, .f32⟩ : BufTy).Contents (Elt Ideal))
    (x4 : (⟨S50000, .i32⟩ : BufTy).Contents (Elt Ideal)) (i : S_.Idx) :
    val_main_v53 (F := Ideal) x0 x2 x3 x4 i
      = ∑ r : Fin 50000, sq (dRrow (fun k => x0 (ix2 r k)) (x4 (ix1 r)) (gn x2) (gn x3)) := by
  rw [val_main_v53_apply]
  refine (congrArg (· + _) cst0).trans ?_
  rw [zero_add, sum_idx1]
  refine Finset.sum_congr rfl fun r _ => ?_
  rw [val_main_v52_apply, d_row]
  rfl

/-- Branch two's sum of squared differences. -/
theorem sumsq_two (x1 : (⟨S50000x256, .f32⟩ : BufTy).Contents (Elt Ideal)) (x2 x3 : (⟨S512x256, .f32⟩ : BufTy).Contents (Elt Ideal))
    (x5 : (⟨S50000, .i32⟩ : BufTy).Contents (Elt Ideal)) (i : S_.Idx) :
    val_main_v56 (F := Ideal) x1 x2 x3 x5 i
      = ∑ r : Fin 50000, sq (dRrow (fun k => x1 (ix2 r k)) (x5 (ix1 r)) (gn x3) (gn x2)) := by
  rw [val_main_v56_apply]
  refine (congrArg (· + _) cst0).trans ?_
  rw [zero_add, sum_idx1]
  refine Finset.sum_congr rfl fun r _ => ?_
  rw [val_main_v55_apply, d_row']
  rfl

/-- The reference's result is the row formula's. -/
theorem result_eq (x0 x1 : (⟨S50000x256, .f32⟩ : BufTy).Contents (Elt Ideal)) (x2 x3 : (⟨S512x256, .f32⟩ : BufTy).Contents (Elt Ideal))
    (x4 x5 : (⟨S50000, .i32⟩ : BufTy).Contents (Elt Ideal)) (i : S_.Idx) :
    Cert.ReferenceIdeal.Read.val_main_v58 (F := Ideal) x0 x1 x2 x3 x4 x5 i = Cert.Loss.resR x0 x1 x2 x3 x4 x5 := by
  rw [val_main_v58_apply, val_main_v54_apply, val_main_v57_apply, sumsq_one, sumsq_two, Ideal.hostUnary_sqrt_def,
    Ideal.hostUnary_sqrt_def, Ideal.addf_def]
  rfl

end Cert.ReferenceIdeal.Rows

end
-- ==== Proof.RowLaw.lean ====
/-
  The two per-row laws, over the reals, that join the kernel's arrangement to the reference's.

  Normalisation. The kernel scales a row z by rsqrt(max(‖z‖², D·D)); the reference divides it by max(D, ‖z‖), D > 0 the
  floor of the norm. The two agree because the square root is monotone: √(max(s, D²)) = max(D, √s).

  One-hot selection. Per row the reference sums, over the 512 columns g, the value e(sim g · [g = b]) and subtracts the
  same sum for the cross similarity; every column but b contributes e(0) to both sums, and the two equal totals of
  e(0) cancel: what is left is e(sim b) − e(cross b) (or 0 when no column is b), which is what the kernel computes from
  the two selected similarities. The cancellation is exact because e(0) is a real number — whatever it is.
-/
import Idealize.ShloMosaic.PureOps.Ideal
import Mathlib.Analysis.SpecialFunctions.Pow.Real
import Mathlib.Analysis.SpecialFunctions.Sqrt

noncomputable section

namespace Cert.Loss

open Idealize.ShloMosaic

/-- The inclusion of the reals in the extended reals keeps maxima. -/
theorem coe_max (a b : ℝ) : ((max a b : ℝ) : EReal) = max (a : EReal) (b : EReal) :=
  EReal.coe_strictMono.monotone.map_max

/-- The square root of a number floored at a square is the root floored at the side. -/
theorem sqrt_max_sq (s D : ℝ) (hD : 0 ≤ D) : Real.sqrt (max s (D * D)) = max D (Real.sqrt s) := by
  rcases le_total s (D * D) with h | h
  · rw [max_eq_right h, Real.sqrt_mul_self hD]
    have h' : Real.sqrt s ≤ D := by
      calc Real.sqrt s ≤ Real.sqrt (D * D) := Real.sqrt_le_sqrt h
        _ = D := Real.sqrt_mul_self hD
    exact (max_eq_left h').symm
  · rw [max_eq_left h]
    have h' : D ≤ Real.sqrt s := by
      calc D = Real.sqrt (D * D) := (Real.sqrt_mul_self hD).symm
        _ ≤ Real.sqrt s := Real.sqrt_le_sqrt h
    exact (max_eq_right h').symm

/-- Scaling by the reciprocal root of the floored sum of squares is dividing by the floored norm. -/
theorem norm_law (z s D : ℝ) (hs : 0 ≤ s) (hD : 0 < D) :
    (z : EReal) * Ideal.rsqrt (max (s : EReal) ((D * D : ℝ) : EReal))
      = Ideal.div (z : EReal) (max ((D : ℝ) : EReal) (Ideal.sqrt (s : EReal))) := by
  have hpos : 0 < max s (D * D) := lt_max_of_lt_right (mul_pos hD hD)
  have hne : max D (Real.sqrt s) ≠ 0 := ne_of_gt (lt_max_of_lt_left hD)
  rw [← coe_max, Ideal.rsqrt_coe, if_neg (not_lt.mpr hpos.le), if_neg hpos.ne', Ideal.sqrt_coe,
    if_neg (not_lt.mpr hs), ← coe_max, Ideal.div_coe hne, sqrt_max_sq s D hD.le, one_div]

end Cert.Loss

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.RowMath.lean ====
/-
  The row mathematics over the extended reals: on rows and tables of real numbers the kernel's arrangement and the
  reference's arrangement of the per-row quantity d agree, and so do the two results.

  Normalisation: the kernel's floor κ is the square of the reference's floor D > 0, so scaling by
  rsqrt(max(Σz², κ)) is dividing by max(D, √Σz²). Softplus: the two spellings differ by 0 − m against −m and by a
  guard t ≠ t that is never true. One-hot: at most one of the 512 columns carries the word b; every other column
  contributes e(0) to both of the reference's sums, and since e(0) is a real number these contributions cancel.
  Regrouping: 2 · 49 tiles of 512 rows enumerate 0 … 50175 in order, and the rows from 50000 on are masked.
-/
import proofs.«100524_j49959059587771_2_alg».proof.Proof.Spec
import proofs.«100524_j49959059587771_2_alg».proof.Proof.RowLaw
import proofs.«100524_j49959059587771_2_alg».proof.Proof.LibERealSums
import proofs.«100524_j49959059587771_2_alg».proof.Proof.LibFiniteReal

noncomputable section

namespace Cert.Loss

open Idealize.ShloMosaic Idealize.ShloMosaic.ValueIdx
open scoped BigOperators

/-! ## The constants -/

/-- The reference's floor as a real number: 2305843 · 2⁻⁶¹. -/
def Dr : ℝ := 2305843 / 2305843009213693952

theorem Dr_pos : 0 < Dr := by unfold Dr; norm_num

/-- The f32 word 0x2B8CBCCC has exponent field 87 and fraction 834764: (2²³ + 834764) · 2⁻⁶³ = 2305843 · 2⁻⁶¹. -/
theorem Dv_eq : Dv = ((2305843 / 2305843009213693952 : ℝ) : EReal) := by
  unfold Dv
  simp [Ideal.ofBits, Ideal.ieee, -EReal.coe_mul]
  norm_num

theorem Dv_eq_Dr : Dv = (Dr : EReal) := Dv_eq

theorem κv_eq_Dr : κv = ((Dr * Dr : ℝ) : EReal) := by
  unfold κv Dr
  norm_num

/-- The kernel's floor is the square of the reference's floor. -/
theorem kappa_eq : κv = Dv * Dv := by
  rw [Dv_eq_Dr, ← EReal.coe_mul]; exact κv_eq_Dr

/-- The f32 word 0x3F317218 has exponent field 126 and fraction 3240472: a real number. -/
theorem Lv_real : ∃ L : ℝ, Lv = (L : EReal) := by
  refine ⟨11629080 / 16777216, ?_⟩
  unfold Lv
  simp [Ideal.ofBits, Ideal.ieee, -EReal.coe_mul]
  norm_num

/-! ## Real numbers inside the extended reals -/

theorem real_mul {x y : EReal} (hx : ∃ a : ℝ, x = a) (hy : ∃ b : ℝ, y = b) : ∃ c : ℝ, x * y = c := by
  obtain ⟨a, rfl⟩ := hx; obtain ⟨b, rfl⟩ := hy; exact ⟨a * b, (EReal.coe_mul a b).symm⟩

theorem real_sum {ι : Type*} [Fintype ι] {f : ι → EReal} (hf : ∀ i, ∃ a : ℝ, f i = a) : ∃ c : ℝ, ∑ i, f i = c := by
  choose a ha using hf
  exact ⟨∑ i, a i, by simp only [ha]; exact Cert.Lib.ERealSums.coe_sum_real _ _⟩

/-- The difference of two finite sums of reals is the sum of the differences. -/
theorem sum_sub_sum_real {ι : Type*} [Fintype ι] (FA FC : ι → EReal) (hA : ∀ g, ∃ r : ℝ, FA g = r)
    (hC : ∀ g, ∃ r : ℝ, FC g = r) : (∑ g, FA g) - (∑ g, FC g) = ∑ g, (FA g - FC g) := by
  choose a ha using hA
  choose c hc using hC
  simp only [ha, hc, ← EReal.coe_sub]
  rw [Cert.Lib.ERealSums.coe_sum_real, Cert.Lib.ERealSums.coe_sum_real, Cert.Lib.ERealSums.coe_sum_real,
    ← EReal.coe_sub, Finset.sum_sub_distrib]

/-! ## Normalisation -/

/-- The sum of squares of a row of reals is a nonnegative real. -/
theorem ssq_real (z : Row) (hz : ∀ k, ∃ x : ℝ, z k = x) : ∃ s : ℝ, 0 ≤ s ∧ ssq z = (s : EReal) := by
  choose x hx using hz
  refine ⟨∑ k, x k * x k, Finset.sum_nonneg (fun k _ => mul_self_nonneg _), ?_⟩
  unfold ssq
  simp only [hx, ← EReal.coe_mul]
  exact Cert.Lib.ERealSums.coe_sum_real _ _

/-- A real divided by the floored norm of a row of reals is a real. -/
theorem div_floor_real (x : ℝ) (z : Row) (hz : ∀ k, ∃ x : ℝ, z k = x) :
    ∃ r : ℝ, Ideal.div (x : EReal) (max Dv (Ideal.sqrt (ssq z))) = r := by
  obtain ⟨s, hs0, hs⟩ := ssq_real z hz
  have hne : max Dr (Real.sqrt s) ≠ 0 := ne_of_gt (lt_max_of_lt_left Dr_pos)
  rw [hs, Dv_eq_Dr, Ideal.sqrt_coe, if_neg (not_lt.mpr hs0), ← coe_max, Ideal.div_coe hne, ← EReal.coe_mul]
  exact ⟨_, rfl⟩

theorem znK_eq_znR (z : Row) (hz : ∀ k, ∃ x : ℝ, z k = x) (k : Fin 256) : znK z k = znR z k := by
  obtain ⟨s, hs0, hs⟩ := ssq_real z hz
  obtain ⟨x, hx⟩ := hz k
  unfold znK znR
  rw [hs, hx, κv_eq_Dr, Dv_eq_Dr]
  exact norm_law x s Dr hs0 Dr_pos

theorem znR_real (z : Row) (hz : ∀ k, ∃ x : ℝ, z k = x) (k : Fin 256) : ∃ r : ℝ, znR z k = r := by
  obtain ⟨x, hx⟩ := hz k
  unfold znR
  rw [hx]
  exact div_floor_real x z hz

theorem simK_eq_simR (z : Row) (hz : ∀ k, ∃ x : ℝ, z k = x) (G : Tbl) : simK z G = simR z G := by
  funext g
  unfold simK simR
  exact Finset.sum_congr rfl (fun k _ => by rw [znK_eq_znR z hz k])

theorem simR_real (z : Row) (hz : ∀ k, ∃ x : ℝ, z k = x) (G : Tbl) (hG : ∀ i, ∃ x : ℝ, G i = x) (g : Fin 512) :
    ∃ r : ℝ, simR z G g = r := by
  unfold simR
  exact real_sum (fun k => real_mul (znR_real z hz k) (hG _))

/-! ## Softplus -/

theorem cmp_one_self (t : EReal) : Ideal.cmp .one t t = 0#1 := by simp [Ideal.cmp]
theorem cmp_une_self (t : EReal) : Ideal.cmp .une t t = 0#1 := by simp [Ideal.cmp]

theorem spK_eq_spR (y : EReal) : spK y = spR y := by
  unfold spK spR
  rw [cmp_one_self, cmp_une_self, select_zero, select_zero, zero_sub]

theorem epK_eq_epR (s : EReal) : epK s = epR s := by
  unfold epK epR
  rw [spK_eq_spR, zero_sub]

/-- On a real the map s ↦ L − softplus(−s) is a real: 1 + exp(−|t|) is positive, so its logarithm is a real. -/
theorem epR_real (r : ℝ) : ∃ e : ℝ, epR (r : EReal) = e := by
  obtain ⟨L, hL⟩ := Lv_real
  unfold epR spR
  rw [cmp_une_self, select_zero, sub_zero, hL, ← EReal.coe_neg, ← EReal.coe_neg, ← coe_max, ← EReal.coe_neg,
    Ideal.exp_coe, ← EReal.coe_zero, ← coe_max]
  unfold Ideal.log1p
  rw [← EReal.coe_one, ← EReal.coe_add, Ideal.log_coe, if_neg (not_le.mpr (by positivity)), ← EReal.coe_add,
    ← EReal.coe_sub]
  exact ⟨_, rfl⟩

/-! ## The one-hot selection -/

/-- The one-hot entry is 1 at the column whose index is the word and 0 elsewhere. -/
theorem ohR_eq (b : BitVec 32) (g : Fin 512) : ohR b g = if BitVec.ofNat 32 g.val = b then 1 else 0 := by
  unfold ohR
  show (((IntOp.cmpi .eq b (BitVec.ofNat 32 g.val)).toNat : ℝ) : EReal) = _
  by_cases h : BitVec.ofNat 32 g.val = b
  · have h' : b = BitVec.ofNat 32 g.val := h.symm
    simp [IntOp.cmpi, h]
  · have h' : ¬ (b = BitVec.ofNat 32 g.val) := fun e => h e.symm
    simp [IntOp.cmpi, h, h']

/-- The kernel's selection keeps the entries at the columns whose index is the word. -/
theorem selK_eq (b : BitVec 32) (f : Fin 512 → EReal) :
    selK b f = ∑ g : Fin 512, if BitVec.ofNat 32 g.val = b then f g else 0 := by
  unfold selK
  refine Finset.sum_congr rfl (fun g _ => ?_)
  by_cases h : BitVec.ofNat 32 g.val = b
  · simp [IntOp.cmpi, Scalar.select, h]
  · have hb : (BitVec.ofNat 32 g.val == b) = false := beq_eq_false_iff_ne.mpr h
    show Scalar.select (BitVec.ofBool (BitVec.ofNat 32 g.val == b)) (f g) 0 = _
    rw [hb, if_neg h]
    exact select_zero _ _

/-- Two columns below 512 with the same 32-bit index are the same column. -/
theorem col_unique (g g' : Fin 512) (h : BitVec.ofNat 32 g.val = BitVec.ofNat 32 g'.val) : g = g' := by
  have h1 := congrArg BitVec.toNat h
  rw [BitVec.toNat_ofNat, BitVec.toNat_ofNat] at h1
  have hg : g.val % 2 ^ 32 = g.val := Nat.mod_eq_of_lt (lt_trans g.isLt (by norm_num))
  have hg' : g'.val % 2 ^ 32 = g'.val := Nat.mod_eq_of_lt (lt_trans g'.isLt (by norm_num))
  rw [hg, hg'] at h1
  exact Fin.ext h1

/-- The heart: on a row and two tables of reals the kernel's d is the reference's d. -/
theorem dK_eq_dR (z : Row) (hz : ∀ k, ∃ x : ℝ, z k = x) (b : BitVec 32) (Gs Gc : Tbl)
    (hs : ∀ i, ∃ x : ℝ, Gs i = x) (hc : ∀ i, ∃ x : ℝ, Gc i = x) : dKrow z b Gs Gc = dRrow z b Gs Gc := by
  obtain ⟨e0, he0⟩ := epR_real 0
  rw [EReal.coe_zero] at he0
  have h00 : epR 0 - epR 0 = 0 := by
    rw [he0, ← EReal.coe_sub, sub_self, EReal.coe_zero]
  have hepR : ∀ x : EReal, (∃ r : ℝ, x = r) → ∃ e : ℝ, epR x = e := by
    rintro x ⟨r, rfl⟩; exact epR_real r
  have hoh : ∀ g, ∃ r : ℝ, ohR b g = r := by
    intro g; rw [ohR_eq]
    by_cases h : BitVec.ofNat 32 g.val = b
    · exact ⟨1, by rw [if_pos h, EReal.coe_one]⟩
    · exact ⟨0, by rw [if_neg h, EReal.coe_zero]⟩
  have hA : ∀ g, ∃ r : ℝ, epR (simR z Gs g * ohR b g) = r :=
    fun g => hepR _ (real_mul (simR_real z hz Gs hs g) (hoh g))
  have hC : ∀ g, ∃ r : ℝ, epR (simR z Gc g * ohR b g) = r :=
    fun g => hepR _ (real_mul (simR_real z hz Gc hc g) (hoh g))
  unfold dKrow dRrow
  rw [sum_sub_sum_real _ _ hA hC, epK_eq_epR, epK_eq_epR, simK_eq_simR z hz, simK_eq_simR z hz, selK_eq, selK_eq]
  by_cases hex : ∃ g0 : Fin 512, BitVec.ofNat 32 g0.val = b
  · obtain ⟨g0, hg0⟩ := hex
    have hiff : ∀ g : Fin 512, BitVec.ofNat 32 g.val = b ↔ g = g0 := fun g =>
      ⟨fun h => col_unique g g0 (h.trans hg0.symm), fun h => h ▸ hg0⟩
    simp only [hiff, Finset.sum_ite_eq', Finset.mem_univ, if_true]
    symm
    rw [Finset.sum_eq_single g0]
    · rw [ohR_eq, if_pos hg0, mul_one, mul_one]
    · intro g _ hne
      rw [ohR_eq, if_neg (fun h => hne ((hiff g).mp h)), mul_zero, mul_zero]
      exact h00
    · intro h; exact absurd (Finset.mem_univ g0) h
  · have hno : ∀ g : Fin 512, ¬ BitVec.ofNat 32 g.val = b := fun g h => hex ⟨g, h⟩
    simp only [hno, if_false, Finset.sum_const_zero]
    symm
    rw [h00]
    refine Finset.sum_eq_zero (fun g _ => ?_)
    rw [ohR_eq, if_neg (hno g), mul_zero, mul_zero]
    exact h00

/-! ## The normalised tables -/

theorem gn_real (G : Tbl) (hG : ∀ i, ∃ x : ℝ, G i = x) : ∀ i, ∃ x : ℝ, gn G i = x := by
  intro i
  obtain ⟨x, hx⟩ := hG i
  have h := div_floor_real x (fun k => G (ix2 (i 0) k)) (fun k => hG _)
  rw [← hx] at h
  exact h

/-! ## Regrouping the rows -/

/-- A family on the first 50000 naturals, continued by zero. -/
def ext0 {M : Type*} [AddCommMonoid M] (f : Fin 50000 → M) (n : ℕ) : M :=
  if h : n < 50000 then f ⟨n, h⟩ else 0

/-- m blocks of n consecutive naturals enumerate the first m · n naturals. -/
theorem sum_range_mul_add {M : Type*} [AddCommMonoid M] (g : ℕ → M) (m n : ℕ) :
    ∑ i ∈ Finset.range m, ∑ j ∈ Finset.range n, g (i * n + j) = ∑ t ∈ Finset.range (m * n), g t := by
  induction m with
  | zero => simp
  | succ m ih => rw [Finset.sum_range_succ, ih, Nat.succ_mul, Finset.sum_range_add]

/-- 2 · 49 tiles of 512 rows cover the rows 0 … 50175; those from 50000 on are masked. -/
theorem regroup {M : Type*} [AddCommMonoid M] (f : Fin 50000 → M) :
    (∑ c : Fin 2, ∑ k : Fin 49, ∑ r : Fin 512,
      if h : (c.val * 49 + k.val) * 512 + r.val < 50000 then f ⟨(c.val * 49 + k.val) * 512 + r.val, h⟩ else 0)
      = ∑ n : Fin 50000, f n := by
  have h3 : ∀ i : ℕ, (∑ r : Fin 512, ext0 f (i * 512 + r.val)) = ∑ r ∈ Finset.range 512, ext0 f (i * 512 + r) :=
    fun i => (Finset.sum_range (fun r => ext0 f (i * 512 + r))).symm
  have h2 : ∀ c : ℕ, (∑ k : Fin 49, ∑ r ∈ Finset.range 512, ext0 f ((c * 49 + k.val) * 512 + r))
      = ∑ k ∈ Finset.range 49, ∑ r ∈ Finset.range 512, ext0 f ((c * 49 + k) * 512 + r) :=
    fun c => (Finset.sum_range (fun k => ∑ r ∈ Finset.range 512, ext0 f ((c * 49 + k) * 512 + r))).symm
  have h1 : (∑ c : Fin 2, ∑ k ∈ Finset.range 49, ∑ r ∈ Finset.range 512, ext0 f ((c.val * 49 + k) * 512 + r))
      = ∑ c ∈ Finset.range 2, ∑ k ∈ Finset.range 49, ∑ r ∈ Finset.range 512, ext0 f ((c * 49 + k) * 512 + r) :=
    (Finset.sum_range (fun c => ∑ k ∈ Finset.range 49, ∑ r ∈ Finset.range 512, ext0 f ((c * 49 + k) * 512 + r))).symm
  calc _ = ∑ c : Fin 2, ∑ k : Fin 49, ∑ r : Fin 512, ext0 f ((c.val * 49 + k.val) * 512 + r.val) := rfl
    _ = ∑ c ∈ Finset.range 2, ∑ k ∈ Finset.range 49, ∑ r ∈ Finset.range 512, ext0 f ((c * 49 + k) * 512 + r) := by
        simp only [h3, h2]; exact h1
    _ = ∑ i ∈ Finset.range (2 * 49), ∑ r ∈ Finset.range 512, ext0 f (i * 512 + r) :=
        sum_range_mul_add (fun i => ∑ r ∈ Finset.range 512, ext0 f (i * 512 + r)) 2 49
    _ = ∑ t ∈ Finset.range (2 * 49 * 512), ext0 f t := sum_range_mul_add (ext0 f) (2 * 49) 512
    _ = ∑ t ∈ Finset.range (50000 + 176), ext0 f t := by norm_num
    _ = (∑ t ∈ Finset.range 50000, ext0 f t) + ∑ x ∈ Finset.range 176, ext0 f (50000 + x) :=
        Finset.sum_range_add _ _ _
    _ = (∑ t ∈ Finset.range 50000, ext0 f t) + 0 := by
        congr 1
        exact Finset.sum_eq_zero (fun x _ => dif_neg (by omega))
    _ = ∑ n : Fin 50000, ext0 f n.val := by rw [add_zero, Finset.sum_range]
    _ = ∑ n : Fin 50000, f n := Finset.sum_congr rfl (fun n _ => dif_pos n.isLt)

/-! ## The two results -/

/-- One branch: the kernel's two per-core sums of squares add up to the reference's sum over all rows. -/
theorem cores_eq (Z : (⟨2, ![50000, 256]⟩ : Shape).Idx → EReal) (B : (⟨1, ![50000]⟩ : Shape).Idx → BitVec 32)
    (Gs Gc : Tbl) (hZ : ∀ i, ∃ x : ℝ, Z i = x) (hs : ∀ i, ∃ x : ℝ, Gs i = x) (hc : ∀ i, ∃ x : ℝ, Gc i = x) :
    coreK Z B Gs Gc 0 + coreK Z B Gs Gc 1
      = ∑ r : Fin 50000, sq (dRrow (fun k => Z (ix2 r k)) (B (ix1 r)) Gs Gc) := by
  have hreg := regroup (fun n : Fin 50000 => sq (dKrow (fun k => Z (ix2 n k)) (B (ix1 n)) Gs Gc))
  rw [Fin.sum_univ_two] at hreg
  refine Eq.trans ?_ (hreg.trans ?_)
  · rfl
  · exact Finset.sum_congr rfl (fun n _ => by rw [dK_eq_dR _ (fun k => hZ _) _ _ _ hs hc])

theorem resK_eq_resR (Z1 Z2 : (⟨2, ![50000, 256]⟩ : Shape).Idx → EReal) (G1 G2 : Tbl)
    (B1 B2 : (⟨1, ![50000]⟩ : Shape).Idx → BitVec 32) (h1 : ∀ i, ∃ x : ℝ, Z1 i = x) (h2 : ∀ i, ∃ x : ℝ, Z2 i = x)
    (h3 : ∀ i, ∃ x : ℝ, G1 i = x) (h4 : ∀ i, ∃ x : ℝ, G2 i = x) :
    resK Z1 Z2 G1 G2 B1 B2 = resR Z1 Z2 G1 G2 B1 B2 := by
  unfold resK resR
  rw [cores_eq Z1 B1 (gn G1) (gn G2) h1 (gn_real G1 h3) (gn_real G2 h4),
    cores_eq Z2 B2 (gn G2) (gn G1) h2 (gn_real G2 h4) (gn_real G1 h3)]

end Cert.Loss

end
-- ==== Proof.PreReal.lean ====
/-
  The finiteness precondition, read on the extended reals.

  The precondition tests each of the four float arrays entry by entry, |x| < +∞, folds each array's tests by "and"
  from 1 over all its axes, and conjoins the four results. If the conjunction is 1 then each fold is 1, so each
  entry's test is 1; and on the extended reals |x| < +∞ holds exactly when x is a real number.
-/
import proofs.«100524_j49959059587771_2_alg».proof.Defs
import proofs.«100524_j49959059587771_2_alg».proof.Proof.Gen.Pre_finite_inputs
import proofs.«100524_j49959059587771_2_alg».proof.Proof.Gen.KernelIdeal
import proofs.«100524_j49959059587771_2_alg».proof.Proof.LibFiniteReal
import Idealize.ShloMosaic.Lib.ReduceAll
import Idealize.ShloMosaic.Lib.ValueIdx

noncomputable section

namespace Cert.KernelIdeal.PreReal

open Idealize.ShloMosaic Idealize.SL.Sem Cert.KernelIdeal

/-- One array: if the fold by "and" of the entrywise tests |x| < +∞ is 1, every entry is a real. -/
theorem real_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  haveI : Subsingleton Cert.Pre_finite_inputs.S_.Idx := Cert.Lib.FiniteReal.subsingleton_idx0
  have hi := Host.reduce_andi_all _ _ hr hu ValueIdx.ix0 e i
  exact Cert.Lib.FiniteReal.real_of_abs_lt_inf (x i) hi

/-- Under the precondition every entry of the four float arrays is a real number, on every device. -/
theorem real_of_pre (m : (ℓ : Loc nD τ sig) → Buf (Elt Ideal) ℓ) (hpre : Cert.Pre_KernelIdeal m) (c : Dev nD) :
    (∀ i : S50000x256.Idx, ∃ x : ℝ, (m ((c.tc : Thread nD τ).loc main_arg0) : S50000x256.Idx → EReal) i = (x : EReal))
    ∧ (∀ i : S50000x256.Idx, ∃ x : ℝ, (m ((c.tc : Thread nD τ).loc main_arg1) : S50000x256.Idx → EReal) i = (x : EReal))
    ∧ (∀ i : S512x256.Idx, ∃ x : ℝ, (m ((c.tc : Thread nD τ).loc main_arg2) : S512x256.Idx → EReal) i = (x : EReal))
    ∧ (∀ i : S512x256.Idx, ∃ x : ℝ, (m ((c.tc : Thread nD τ).loc main_arg3) : S512x256.Idx → EReal) i = (x : EReal)) := by
  have h := congrFun (hpre c) ValueIdx.ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, h1⟩ := IntOp.andi_eq_one.1 h01
  exact ⟨real_of_all _ _ _ _ h0, real_of_all _ _ _ _ h1, real_of_all _ _ _ _ h2, real_of_all _ _ _ _ h3⟩

end Cert.KernelIdeal.PreReal

end
-- ==== Proof.Algebraic.lean ====
/-
  The two programs end with the same number.

  The kernel program's result is √(total₁(core 0) + total₁(core 1)) + √(total₂(core 0) + total₂(core 1)), each total the sum
  over a core's 49 tiles of the tile's masked sum of squared per-row differences, the rows, the batch words and the
  normalised tables read off the argument arrays; the reference's is the same two norms with each sum taken over the
  50000 rows at once and each row's difference computed the reference's way. Row by row the two differences agree when
  the float inputs are real numbers — which the precondition says —, and 98 tiles of 512 rows with the rows past 49999
  masked are the 50000 rows.
-/
import proofs.«100524_j49959059587771_2_alg».proof.Proof.IdealTail
import proofs.«100524_j49959059587771_2_alg».proof.Proof.KernelRows
import proofs.«100524_j49959059587771_2_alg».proof.Proof.KernelHost
import proofs.«100524_j49959059587771_2_alg».proof.Proof.RefRows
import proofs.«100524_j49959059587771_2_alg».proof.Proof.RowMath
import proofs.«100524_j49959059587771_2_alg».proof.Proof.PreReal
import proofs.«100524_j49959059587771_2_alg».proof.Proof.RefFrame

set_option maxRecDepth 16384

noncomputable section

namespace Cert.Proof.Parts

open Idealize.ShloMosaic Idealize.ShloMosaic.TcCoe Idealize.SL.Sem Idealize.ShloMosaic.ValueIdx
open Cert.Loss
open scoped BigOperators

section Kernel
open Cert.KernelIdeal Cert.KernelIdeal.Gen Cert.KernelIdeal.Body

variable (m : (ℓ : Loc nD τ sig) → Buf (Elt Ideal) ℓ) (ρ : Dev nD → PrngReg)

/-- One tile's arithmetic, as read off the printed operations. -/
theorem pay2law : Pay2Law := fun v1 hv x0 x2 x3 x4 a j => Cert.KernelIdeal.Rows.pay2_eq v1 hv x0 x2 x3 x4 a j
theorem pay3law : Pay3Law := fun v1 hv x1 x2 x3 x5 a j => Cert.KernelIdeal.Rows.pay3_eq v1 hv x1 x2 x3 x5 a j

/-- A tile's sum with the launch's arrays spelled from the arguments: the word columns are the batch words padded, the
    tables the arguments' tables normalised. -/
theorem T1_eq (c : Dev nD) (n : ℕ) :
    T1 m c n = tileK (m ((c : Thread nD τ).loc main_arg0)) (m ((c : Thread nD τ).loc main_arg4)) (gn (m ((c : Thread nD τ).loc main_arg2))) (gn (m ((c : Thread nD τ).loc main_arg3))) n := by
  unfold T1 tileK
  refine Finset.sum_congr rfl fun r _ => ?_
  by_cases h : n * 512 + r.val < 50000
  · rw [dif_pos h, dif_pos h, Cert.KernelIdeal.Host.V_g1n, Cert.KernelIdeal.Host.V_g2n, Cert.KernelIdeal.Host.V_b1 m c ⟨n * 512 + r.val, h⟩, V_main_arg0]
  · rw [dif_neg h, dif_neg h]
theorem T2_eq (c : Dev nD) (n : ℕ) :
    T2 m c n = tileK (m ((c : Thread nD τ).loc main_arg1)) (m ((c : Thread nD τ).loc main_arg5)) (gn (m ((c : Thread nD τ).loc main_arg3))) (gn (m ((c : Thread nD τ).loc main_arg2))) n := by
  unfold T2 tileK
  refine Finset.sum_congr rfl fun r _ => ?_
  by_cases h : n * 512 + r.val < 50000
  · rw [dif_pos h, dif_pos h, Cert.KernelIdeal.Host.V_g1n, Cert.KernelIdeal.Host.V_g2n, Cert.KernelIdeal.Host.V_b2 m c ⟨n * 512 + r.val, h⟩, V_main_arg1]
  · rw [dif_neg h, dif_neg h]

/-- A core's total after its last tile is the core's 49 tiles' sums. -/
theorem acc1_core (c : Dev nD) (cc n : ℕ) (hn : n = cc * 49 + 48) :
    acc1 m c n = coreK (m ((c : Thread nD τ).loc main_arg0)) (m ((c : Thread nD τ).loc main_arg4)) (gn (m ((c : Thread nD τ).loc main_arg2))) (gn (m ((c : Thread nD τ).loc main_arg3))) cc := by
  subst hn
  unfold acc1 coreK
  have e1 : (cc * 49 + 48) % 49 + 1 = 49 := by omega
  have e2 : (cc * 49 + 48) / 49 * 49 = cc * 49 := by omega
  rw [e1, e2, Finset.sum_range]
  exact Finset.sum_congr rfl fun k _ => T1_eq m c _
theorem acc2_core (c : Dev nD) (cc n : ℕ) (hn : n = cc * 49 + 48) :
    acc2 m c n = coreK (m ((c : Thread nD τ).loc main_arg1)) (m ((c : Thread nD τ).loc main_arg5)) (gn (m ((c : Thread nD τ).loc main_arg3))) (gn (m ((c : Thread nD τ).loc main_arg2))) cc := by
  subst hn
  unfold acc2 coreK
  have e1 : (cc * 49 + 48) % 49 + 1 = 49 := by omega
  have e2 : (cc * 49 + 48) / 49 * 49 = cc * 49 := by omega
  rw [e1, e2, Finset.sum_range]
  exact Finset.sum_congr rfl fun k _ => T2_eq m c _

/-- The kernel program's result in the arguments. -/
theorem resKv_eq (c : Dev nD) :
    resKv m c = resK (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  unfold resKv resK
  rw [acc1_core m c 0 48 (by decide), acc1_core m c 1 97 (by decide), acc2_core m c 0 48 (by decide), acc2_core m c 1 97 (by decide)]

/-- The kernel program's run: its result is that number, its arguments as they were. -/
theorem kernel_run : θ_run defs (onTc (τ := τ) (main (F := Ideal))) ⟨m, fun _ => 0, ρ⟩ (fun r => ∀ c : Dev nD,
      r.2.mem ((c.tc : Thread nD τ).loc main_v27) = (fun _ => resKv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v27 (Pipeline.mem_restRefs_of main_v27 (by decide) (by decide))).trans (tail_eq m c),
      ((h c).1 0).trans (((vdats m 0 c).arrAt_in 0 rfl _).trans ((vA_eq m c 0).trans (V_main_arg0 m c))),
      ((h c).1 1).trans (((vdats m 0 c).arrAt_in 1 rfl _).trans ((vA_eq m c 1).trans (V_main_arg1 m c))),
      (((h c).2 main_arg2 (Pipeline.mem_restRefs_of main_arg2 (by decide) (by decide))).trans (W_main_arg2 m (vdats m) c)),
      (((h c).2 main_arg3 (Pipeline.mem_restRefs_of main_arg3 (by decide) (by decide))).trans (W_main_arg3 m (vdats m) c)),
      (((h c).2 main_arg4 (Pipeline.mem_restRefs_of main_arg4 (by decide) (by decide))).trans (W_main_arg4 m (vdats m) c)),
      (((h c).2 main_arg5 (Pipeline.mem_restRefs_of main_arg5 (by decide) (by decide))).trans (W_main_arg5 m (vdats m) c))⟩)
    (vrun_main m ρ pay2law pay3law)

end Kernel

/-- Over the extended reals, from memories agreeing on the arguments, the two programs run to the same result. -/
theorem algebraic : Cert.algebraic_KernelIdeal_ReferenceIdeal := by
  intro m ρ m' ρ' hpre hagree
  refine ⟨fun c => (fun _ => Cert.KernelIdeal.Body.resKv m c), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.KernelIdeal.PreReal.real_of_pre m hpre c
  rw [Cert.ReferenceIdeal.Read.val_main_v58_eq]
  funext i
  rw [Cert.ReferenceIdeal.Rows.result_eq, (hagree c).1, (hagree c).2.1, (hagree c).2.2.1, (hagree c).2.2.2.1, (hagree c).2.2.2.2.1, (hagree c).2.2.2.2.2]
  show resR _ _ _ _ _ _ = Cert.KernelIdeal.Body.resKv m c
  rw [resKv_eq m c]
  exact (resK_eq_resR _ _ _ _ _ _ h0 h1 h2 h3).symm

end Cert.Proof.Parts

end
-- ==== Proof.lean ====
/-
  The five claims about the loss kernel, assembled.

  The program normalises each row of z1 and z2 (50000 rows of 256) and of g1 and g2 (512 rows), takes the four
  similarity products, keeps per row the column its batch index names, turns the two kept similarities of a branch into
  log 2 − softplus(−s) and subtracts them, and returns the two branches' Euclidean norms added. The kernel walks the
  rows in 98 tiles of 512 on a 2 × 49 grid, adding each tile's sum of squares to two scalar accumulators that it resets
  at a core's first tile and copies out at its last; the last tile overhangs the arrays by 176 rows, which a row mask
  discards.

  The three frames: the kernel's two (word level and over the extended reals) are one proof read at two instances — the
  body run case by case on whole staging buffers, the accumulators and the results' buffers at contents nothing names,
  the inputs handed back as found —, the reference's is its run with the result dropped. The kernel's idealization
  names one literal, the floor under the sum of squares, as the square of the reference's floor under the norm.

  The value claim: over the extended reals the kernel program's result is the two branches' norms with each sum of
  squares taken per core, per tile and per row of the tile, the rows past the arrays' end masked; the reference's is
  the same two norms with each sum taken over the 50000 rows at once; row by row the kernel's difference (scale by the
  reciprocal root of the floored sum of squares, select the named column, then the log-sigmoid form) is the
  reference's (divide by the floored norm, multiply by the one-hot, the log-sigmoid form of every entry, sum) when the
  inputs are real numbers, which the precondition says.
-/
import proofs.«100524_j49959059587771_2_alg».proof.Defs
import proofs.«100524_j49959059587771_2_alg».proof.Proof.Gen.Kernel
import proofs.«100524_j49959059587771_2_alg».proof.Proof.Gen.KernelIdeal
import proofs.«100524_j49959059587771_2_alg».proof.Proof.Gen.ReferenceIdeal
import proofs.«100524_j49959059587771_2_alg».proof.Proof.Gen.Pre_finite_inputs
import proofs.«100524_j49959059587771_2_alg».proof.Proof.BitsFrame
import proofs.«100524_j49959059587771_2_alg».proof.Proof.IdealFrame
import proofs.«100524_j49959059587771_2_alg».proof.Proof.RefFrame
import proofs.«100524_j49959059587771_2_alg».proof.Proof.Algebraic
import Idealize.ShloMosaic.Adequacy
import Idealize.ShloMosaic.Init

noncomputable section

namespace Cert.Proof

open Idealize.ShloMosaic Idealize.SL.Sem

theorem frame_p : Cert.frame_Kernel := fun m ρ _ => Cert.Kernel.Body.frame m ρ
theorem frame_pi : Cert.frame_KernelIdeal := fun m ρ _ => Cert.KernelIdeal.Body.frame m ρ

/-- The ledger's two entries (the literal occurs twice, once per input): the table gives the name the square of the
    reference's floor, and the printed constant is that value over the extended reals. -/
theorem preserves : Cert.preserves_Kernel_KernelIdeal :=
  ⟨IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl⟩

theorem claim : Cert.Claim := ⟨Cert.Kernel.Gen.facts, Cert.KernelIdeal.Gen.facts, Cert.ReferenceIdeal.Gen.facts, Cert.Pre_finite_inputs.Gen.facts,
  frame_p, frame_pi, Parts.frame_ri, preserves, Parts.algebraic⟩

end Cert.Proof

end
